-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S128x40 .f32) (main_arg13 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x40 .f32 := Host.absf main_arg12
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128 .f32) (main_arg11 : FVec F S128 .f32) (main_arg12 : FVec F S128x40 .f32) (main_arg13 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128x40 .f32) (main_arg13 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128 .f32) (main_arg11 : FVec F S128 .f32) (main_arg12 : FVec F S128x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S50000x1 : Shape := ⟨2, ![50000, 1]⟩
abbrev S800000x128 : Shape := ⟨2, ![800000, 128]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 143
  | .vmem => 42
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128x40, .f32⟩
  | 13 => ⟨S40, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S50000, .f32⟩
  | 29 => ⟨S50000x128, .f32⟩
  | 30 => ⟨S50000x1, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S50000x1, .f32⟩
  | 47 => ⟨S50000x128, .f32⟩
  | 48 => ⟨S50000x128, .f32⟩
  | 49 => ⟨S50000x1, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S50000x128, .f32⟩
  | 76 => ⟨S50000x1, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x1, .f32⟩
  | 93 => ⟨S50000x128, .f32⟩
  | 94 => ⟨S50000x128, .f32⟩
  | 95 => ⟨S50000x1, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S1x128, .f32⟩
  | 104 => ⟨S_, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S1x128, .f32⟩
  | 120 => ⟨S1x128, .f32⟩
  | 121 => ⟨S50000x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S1x40, .f32⟩
  | 14 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x40, .f32⟩
  | .local _ .vmem, ⟨39, _⟩ => ⟨S1x40, .f32⟩
  | .local _ .vmem, ⟨40, _⟩ => ⟨S5000x40, .f32⟩
  | .local _ .vmem, ⟨41, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36_0 : Ref sig .tc := ⟨.hbm, 56, rfl⟩
abbrev main_v36_1 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74_0 : Ref sig .tc := ⟨.hbm, 102, rfl⟩
abbrev main_v74_1 : Ref sig .tc := ⟨.hbm, 103, rfl⟩
abbrev main_cst_11 : Ref sig .tc := ⟨.hbm, 104, rfl⟩
abbrev main_v75 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_cst_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88_0 : Ref sig .tc := ⟨.hbm, 121, rfl⟩
abbrev main_v88_1 : Ref sig .tc := ⟨.hbm, 122, rfl⟩
abbrev main_v88_2 : Ref sig .tc := ⟨.hbm, 123, rfl⟩
abbrev main_cst_15 : Ref sig .tc := ⟨.hbm, 124, rfl⟩
abbrev main_v89 : Ref sig .tc := ⟨.hbm, 125, rfl⟩
abbrev main_v90 : Ref sig .tc := ⟨.hbm, 126, rfl⟩
abbrev main_cst_16 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg6_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc4_stg6_0 : Ref sig .tc := ⟨.vmem, 30, rfl⟩
abbrev cc4_stg7_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg6_0 : Ref sig .tc := ⟨.vmem, 39, rfl⟩
abbrev cc5_stg7_0 : Ref sig .tc := ⟨.vmem, 40, rfl⟩
abbrev cc5_stg7_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem6_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem5_1 : DmaSem sig := 29
abbrev cc4_sem6_0 : DmaSem sig := 30
abbrev cc4_sem7_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem6_0 : DmaSem sig := 39
abbrev cc5_sem7_0 : DmaSem sig := 40
abbrev cc5_sem7_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x40 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x40 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x40 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x40.size a ≤ S128x40.size a
  hwx5_5 : ∀ i : grid5.Coords, EltTy.bits .f32 = 32 ∨ (Rect.block (s := S128x40) S128x40.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x40.size a ≤ S1x40.size a
  hwx5_6 : ∀ i : grid5.Coords, EltTy.bits .f32 = 32 ∨ (Rect.block (s := S1x40) S1x40.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x40.size a ≤ S50000x40.size a
  hwx5_7 : ∀ i : grid5.Coords, EltTy.bits .f32 = 32 ∨ (Rect.block (s := S50000x40) S5000x40.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74_0) S1x128.size cc3_transform_1 reads3_1 true true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74_1) S1x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v88_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v88_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v88_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg12) S128x40.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v102) S1x40.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v103) S5000x40.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 273
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128, .f32⟩
  | 10 => ⟨S128, .f32⟩
  | 11 => ⟨S128, .f32⟩
  | 12 => ⟨S128x40, .f32⟩
  | 13 => ⟨S40, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S800000, .f32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .f32⟩
  | 27 => ⟨S50000, .f32⟩
  | 28 => ⟨S50000x128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000, .f32⟩
  | 10 => ⟨S800000, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S800000x1, .f32⟩
  | 21 => ⟨S800000x128, .f32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S50000x128, .f32⟩
  | 48 => ⟨S50000x128, .f32⟩
  | 49 => ⟨S50000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S50000x40, .f32⟩
  | 127 => ⟨S1x40, .f32⟩
  | _ => ⟨S50000x128, .f32⟩

abbrev hbmTy0_2 (i : Nat) : BufTy := match i % 128 with
  | 0 => ⟨S50000x40, .f32⟩
  | 1 => ⟨S50000x40, .f32⟩
  | 2 => ⟨S_, .f32⟩
  | 3 => ⟨S50000, .f32⟩
  | 4 => ⟨S_, .f32⟩
  | 5 => ⟨S50000, .f32⟩
  | 6 => ⟨S50000, .f32⟩
  | 7 => ⟨S50000x1, .f32⟩
  | 8 => ⟨S50000x40, .f32⟩
  | 9 => ⟨S50000x40, .f32⟩
  | 10 => ⟨S50000x40, .f32⟩
  | 11 => ⟨S_, .f32⟩
  | 12 => ⟨S50000, .f32⟩
  | 13 => ⟨S50000x1, .f32⟩
  | 14 => ⟨S50000x1, .f32⟩
  | 15 => ⟨S50000x40, .f32⟩
  | 16 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_11 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call1_cst : Ref sig .tc := ⟨.hbm, 116, rfl⟩
abbrev main_call1_v0 : Ref sig .tc := ⟨.hbm, 117, rfl⟩
abbrev main_v67 : Ref sig .tc := ⟨.hbm, 118, rfl⟩
abbrev main_v68 : Ref sig .tc := ⟨.hbm, 119, rfl⟩
abbrev main_c_12 : Ref sig .tc := ⟨.hbm, 120, rfl⟩
abbrev main_v69 : Ref sig .tc := ⟨.hbm, 121, rfl⟩
abbrev main_v70 : Ref sig .tc := ⟨.hbm, 122, rfl⟩
abbrev main_c_13 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_c_14 : Ref sig .tc := ⟨.hbm, 129, rfl⟩
abbrev main_v76 : Ref sig .tc := ⟨.hbm, 130, rfl⟩
abbrev main_v77 : Ref sig .tc := ⟨.hbm, 131, rfl⟩
abbrev main_c_15 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_c_16 : Ref sig .tc := ⟨.hbm, 139, rfl⟩
abbrev main_v84 : Ref sig .tc := ⟨.hbm, 140, rfl⟩
abbrev main_v85 : Ref sig .tc := ⟨.hbm, 141, rfl⟩
abbrev main_c_17 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_18 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_19 : Ref sig .tc := ⟨.hbm, 163, rfl⟩
abbrev main_v105 : Ref sig .tc := ⟨.hbm, 164, rfl⟩
abbrev main_cst_20 : Ref sig .tc := ⟨.hbm, 165, rfl⟩
abbrev main_v106 : Ref sig .tc := ⟨.hbm, 166, rfl⟩
abbrev main_v107 : Ref sig .tc := ⟨.hbm, 167, rfl⟩
abbrev main_c_21 : Ref sig .tc := ⟨.hbm, 168, rfl⟩
abbrev main_call2_cst : Ref sig .tc := ⟨.hbm, 169, rfl⟩
abbrev main_call2_v0 : Ref sig .tc := ⟨.hbm, 170, rfl⟩
abbrev main_call2_v1 : Ref sig .tc := ⟨.hbm, 171, rfl⟩
abbrev main_call2_cst_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_v5 : Ref sig .tc := ⟨.hbm, 176, rfl⟩
abbrev main_call2_v6 : Ref sig .tc := ⟨.hbm, 177, rfl⟩
abbrev main_call2_v7 : Ref sig .tc := ⟨.hbm, 178, rfl⟩
abbrev main_call2_cst_1 : Ref sig .tc := ⟨.hbm, 179, rfl⟩
abbrev main_call2_v8 : Ref sig .tc := ⟨.hbm, 180, rfl⟩
abbrev main_call2_cst_2 : Ref sig .tc := ⟨.hbm, 181, rfl⟩
abbrev main_call2_v9 : Ref sig .tc := ⟨.hbm, 182, rfl⟩
abbrev main_call2_v10 : Ref sig .tc := ⟨.hbm, 183, rfl⟩
abbrev main_call2_v11 : Ref sig .tc := ⟨.hbm, 184, rfl⟩
abbrev main_call2_cst_3 : Ref sig .tc := ⟨.hbm, 185, rfl⟩
abbrev main_call2_v12 : Ref sig .tc := ⟨.hbm, 186, rfl⟩
abbrev main_call2_cst_4 : Ref sig .tc := ⟨.hbm, 187, rfl⟩
abbrev main_call2_call0_v0 : Ref sig .tc := ⟨.hbm, 188, rfl⟩
abbrev main_call2_call0_v1 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_cst_22 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_call3_cst : Ref sig .tc := ⟨.hbm, 207, rfl⟩
abbrev main_call3_v0 : Ref sig .tc := ⟨.hbm, 208, rfl⟩
abbrev main_v124 : Ref sig .tc := ⟨.hbm, 209, rfl⟩
abbrev main_cst_23 : Ref sig .tc := ⟨.hbm, 210, rfl⟩
abbrev main_v125 : Ref sig .tc := ⟨.hbm, 211, rfl⟩
abbrev main_cst_24 : Ref sig .tc := ⟨.hbm, 212, rfl⟩
abbrev main_v126 : Ref sig .tc := ⟨.hbm, 213, rfl⟩
abbrev main_v127 : Ref sig .tc := ⟨.hbm, 214, rfl⟩
abbrev main_c_25 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_cst_0 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_call4_v5 : Ref sig .tc := ⟨.hbm, 223, rfl⟩
abbrev main_call4_v6 : Ref sig .tc := ⟨.hbm, 224, rfl⟩
abbrev main_call4_v7 : Ref sig .tc := ⟨.hbm, 225, rfl⟩
abbrev main_call4_cst_1 : Ref sig .tc := ⟨.hbm, 226, rfl⟩
abbrev main_call4_v8 : Ref sig .tc := ⟨.hbm, 227, rfl⟩
abbrev main_call4_cst_2 : Ref sig .tc := ⟨.hbm, 228, rfl⟩
abbrev main_call4_v9 : Ref sig .tc := ⟨.hbm, 229, rfl⟩
abbrev main_call4_v10 : Ref sig .tc := ⟨.hbm, 230, rfl⟩
abbrev main_call4_v11 : Ref sig .tc := ⟨.hbm, 231, rfl⟩
abbrev main_call4_cst_3 : Ref sig .tc := ⟨.hbm, 232, rfl⟩
abbrev main_call4_v12 : Ref sig .tc := ⟨.hbm, 233, rfl⟩
abbrev main_call4_cst_4 : Ref sig .tc := ⟨.hbm, 234, rfl⟩
abbrev main_call4_call0_v0 : Ref sig .tc := ⟨.hbm, 235, rfl⟩
abbrev main_call4_call0_v1 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_cst_26 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_call5_cst : Ref sig .tc := ⟨.hbm, 258, rfl⟩
abbrev main_call5_v0 : Ref sig .tc := ⟨.hbm, 259, rfl⟩
abbrev main_call5_cst_0 : Ref sig .tc := ⟨.hbm, 260, rfl⟩
abbrev main_call5_v1 : Ref sig .tc := ⟨.hbm, 261, rfl⟩
abbrev main_call5_v2 : Ref sig .tc := ⟨.hbm, 262, rfl⟩
abbrev main_call5_v3 : Ref sig .tc := ⟨.hbm, 263, rfl⟩
abbrev main_call5_v4 : Ref sig .tc := ⟨.hbm, 264, rfl⟩
abbrev main_call5_v5 : Ref sig .tc := ⟨.hbm, 265, rfl⟩
abbrev main_call5_v6 : Ref sig .tc := ⟨.hbm, 266, rfl⟩
abbrev main_call5_cst_1 : Ref sig .tc := ⟨.hbm, 267, rfl⟩
abbrev main_call5_v7 : Ref sig .tc := ⟨.hbm, 268, rfl⟩
abbrev main_call5_v8 : Ref sig .tc := ⟨.hbm, 269, rfl⟩
abbrev main_call5_v9 : Ref sig .tc := ⟨.hbm, 270, rfl⟩
abbrev main_call5_v10 : Ref sig .tc := ⟨.hbm, 271, rfl⟩
abbrev main_v148 : Ref sig .tc := ⟨.hbm, 272, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KerRun.lean ====
/-
  The idealized kernel program's run with its result named: every weakly fair execution of the program from a
  memory with zero counters terminates without a fault, the fourteen argument arrays end as they were, and the
  result array ends at the contents the twelve segments (six stretches of host operations, six kernel launches)
  leave in it, the fold `W12` of the launch memory through the segments.
-/
import proofs.«124287_j84756884620023_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents. -/
theorem run_result : θ_run defs (onTc (τ := τ) (main (F := F))) ⟨m, fun _ => 0, ρ⟩ (fun r => ∀ c : Dev nD,
      r.2.mem ((c.tc : Thread nD τ).loc main_v103) = W12 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v103 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.RunValue

end
-- ==== Proof.Stages.lean ====
/-
  The stages of the two-layer graph convolution network, each as ONE function of whole arrays on the extended reals.

  Reference form (namespace Ref): the plain network, spelt with the reference program's own operations —
  the inverse square-root degree of every node (one plus the number of edges that end there), a layer
  h ↦ A h W + b with A the symmetrically normalised adjacency with self-loops (every edge weighted by the
  product of its two endpoints' inverse root degrees), batch normalisation by the column mean and the
  biased column variance, the rectifier, the final affine map and the row-wise log-softmax.

  Kernel form (namespace Ker): the same layer with the normalisation pulled out of the edge sum —
  rows scaled by the inverse root degree before they are gathered and again after they are summed —,
  the column statistics from the column sum and the column sum of squares (variance as mean of squares
  minus squared mean, clamped at zero), and the normalisation applied as ((h − mean) · invstd) · g + b.
-/
import proofs.«124287_j84756884620023_2_alg».proof.KernelIdeal
import proofs.«124287_j84756884620023_2_alg».proof.ReferenceIdeal
import Idealize.ShloMosaic.PureOps.Ideal
import Idealize.ShloMosaic.Lib.ValueIdx

noncomputable section

namespace Cert.Gcn

open Idealize.ShloMosaic Idealize.ShloMosaic.ValueIdx

/-- A float array on the extended reals. -/
abbrev FV (S : Shape) := FVec Ideal S .f32

/-! ## Reference form -/
namespace Ref

open Cert.ReferenceIdeal Cert.ReferenceIdeal.Facts₀ Cert.ReferenceIdeal.Facts

variable [Cert.ReferenceIdeal.Facts]

def zero0 : FV S_ := constant (F := Ideal) S_ .f32 0x00000000#32
def one0 : FV S_ := constant (F := Ideal) S_ .f32 0x3F800000#32
/-- The number of nodes, 50000, as a float. -/
def cnt0 : FV S_ := constant (F := Ideal) S_ .f32 0x47435000#32
/-- The float nearest 1e-5. -/
def eps0 : FV S_ := constant (F := Ideal) S_ .f32 0x3727C5AC#32

/-- The edges' sources: row 0 of the edge table. -/
def srcV (ei : IVec S2x800000 32) : IVec S800000 32 :=
  shapeCast S800000 (extractStridedSlice S1x800000 ![0, 0] ei slices_S2x800000_S1x800000_0_0) shapeCasts_S1x800000_S800000
/-- The edges' destinations: row 1 of the edge table. -/
def dstV (ei : IVec S2x800000 32) : IVec S800000 32 :=
  shapeCast S800000 (extractStridedSlice S1x800000 ![1, 0] ei slices_S2x800000_S1x800000_1_0) shapeCasts_S1x800000_S800000
/-- One index per row, as a column. -/
def col (v : IVec S800000 32) : IVec S800000x1 32 := broadcastInDim S800000x1 ![0] bcast_S800000_S800000x1_0 v
/-- A negative index counts from the end: 50000 is added to it. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The inverse square root of every node's degree: one (the self-loop) plus the number of edges ending there. -/
def dinv (ei : IVec S2x800000 32) : FV S50000 :=
  Host.rsqrt (addf (broadcastInDim S50000 ![] bcast_S_S50000 one0)
    (Host.scatterAdd scatter_S50000_S800000x1_S800000_n_0_0_1 (broadcastInDim S50000 ![] bcast_S_S50000 zero0)
      (col (dstV ei)) (broadcastInDim S800000 ![] bcast_S_S800000 one0)))

/-- One number per node, repeated along its row of 128. -/
def rows (d : FV S50000) : FV S50000x128 :=
  broadcastInDim S50000x128 ![0, 1] bcast_S50000x1_S50000x128_0_1 (broadcastInDim S50000x1 ![0] bcast_S50000_S50000x1_0 d)
/-- One number per edge, repeated along its row of 128. -/
def erows (d : FV S800000) : FV S800000x128 :=
  broadcastInDim S800000x128 ![0, 1] bcast_S800000x1_S800000x128_0_1 (broadcastInDim S800000x1 ![0] bcast_S800000_S800000x1_0 d)
/-- One number per column, as a single row. -/
def row (b : FV S128) : FV S1x128 := broadcastInDim S1x128 ![1] bcast_S128_S1x128_1 b
/-- A single row repeated down the 50000 rows. -/
def down (r : FV S1x128) : FV S50000x128 := broadcastInDim S50000x128 ![0, 1] bcast_S1x128_S50000x128_0_1 r
/-- One number per column, repeated down the rows. -/
def lanes (b : FV S128) : FV S50000x128 := down (row b)

/-- The dense product h W. -/
def mm (x : FV S50000x128) (W : FV S128x128) : FV S50000x128 :=
  Host.dotGeneral dot_S50000x128_S128x128_S50000x128_1_0_0_1_n_n none x W

/-- One graph-convolution layer on the already multiplied rows xw: every edge carries its source's row
    weighted by the product of the two endpoints' inverse root degrees to its destination, the node's own row
    is added with its squared inverse root degree, then the bias. -/
def conv (ei : IVec S2x800000 32) (xw : FV S50000x128) (b : FV S128) : FV S50000x128 :=
  addf (addf
    (Host.scatterAdd scatter_S50000x128_S800000x1_S800000x128_1_0_0_1
      (broadcastInDim S50000x128 ![] bcast_S_S50000x128 zero0) (col (dstV ei))
      (mulf (Host.gather gather_S50000x128_S800000x1_S800000x128_1_0_n_n_0_1_1128 xw (col (wrap (srcV ei))))
        (erows (mulf (Host.gather gather_S50000_S800000x1_S800000_n_0_n_n_0_1_1 (dinv ei) (col (wrap (srcV ei))))
                     (Host.gather gather_S50000_S800000x1_S800000_n_0_n_n_0_1_1 (dinv ei) (col (wrap (dstV ei))))))))
    (mulf xw (rows (mulf (dinv ei) (dinv ei)))))
    (lanes b)

/-- The sum of every column. -/
def colSum (h : FV S50000x128) : FV S128 := Host.reduceAdd h zero0 reducesTo_S50000x128_S128_d0 h_S_
/-- The mean of every column. -/
def mean (h : FV S50000x128) : FV S128 := Host.divf (colSum h) (broadcastInDim S128 ![] bcast_S_S128 cnt0)
/-- The number the variance divides by: 50000 minus the zero degrees of freedom. -/
def cntLess0 : FV S_ := subf cnt0 (sitofp .f32 (constantI S_ 32 0#32))
/-- The biased variance of every column: the mean of the squared deviations from the column mean
    (selected against a not-a-number when the divisor is not positive, which it always is). -/
def var (h : FV S50000x128) : FV S128 :=
  select (broadcastInDim S128 ![] bcast_S_S128 (cmpf .ogt cntLess0 zero0))
    (Host.divf
      (colSum (mulf
        (subf h (down (Host.divf (row (colSum h)) (broadcastInDim S1x128 ![] bcast_S_S1x128 cnt0))))
        (subf h (down (Host.divf (row (colSum h)) (broadcastInDim S1x128 ![] bcast_S_S1x128 cnt0))))))
      (broadcastInDim S128 ![] bcast_S_S128 cntLess0))
    (broadcastInDim S128 ![] bcast_S_S128 (id (constant (F := Ideal) S_ .f32 0x7FC00000#32)))
/-- The inverse standard deviation of every column, 1 / sqrt(var + 1e-5). -/
def invstd (h : FV S50000x128) : FV S128 := Host.rsqrt (addf (var h) (broadcastInDim S128 ![] bcast_S_S128 eps0))
/-- Batch normalisation: g · (h − mean) · invstd + b, column by column. -/
def bn (h : FV S50000x128) (g be : FV S128) : FV S50000x128 :=
  addf (mulf (mulf (lanes g) (subf h (lanes (mean h)))) (lanes (invstd h))) (lanes be)
/-- The rectifier max(·, 0). -/
def relu (h : FV S50000x128) : FV S50000x128 := maximumf h (broadcastInDim S50000x128 ![] bcast_S_S50000x128 zero0)
/-- The final affine map into 40 classes. -/
def logits (h : FV S50000x128) (Wm : FV S128x40) (bm : FV S40) : FV S50000x40 :=
  addf (Host.dotGeneral dot_S50000x128_S128x40_S50000x40_1_0_0_1_n_n none h Wm)
    (broadcastInDim S50000x40 ![0, 1] bcast_S1x40_S50000x40_0_1 (broadcastInDim S1x40 ![1] bcast_S40_S1x40_1 bm))
/-- A number per node repeated along its 40 classes. -/
def rows40 (d : FV S50000) : FV S50000x40 :=
  broadcastInDim S50000x40 ![0, 1] bcast_S50000x1_S50000x40_0_1 (broadcastInDim S50000x1 ![0] bcast_S50000_S50000x1_0 d)
/-- A row's entries minus the row's maximum. -/
def shifted (l : FV S50000x40) : FV S50000x40 :=
  subf l (rows40 (maximumf (broadcastInDim S50000 ![] bcast_S_S50000 (constant (F := Ideal) S_ .f32 0xFF800000#32))
    (Host.reduce FloatOps.maximumf l (constant (F := Ideal) S_ .f32 0xFF800000#32) reducesTo_S50000x40_S50000_d1 h_S_)))
/-- Row-wise log-softmax: the shifted entries minus the logarithm of the sum of their exponentials. -/
def logSoftmax (l : FV S50000x40) : FV S50000x40 :=
  subf (shifted l) (broadcastInDim S50000x40 ![0, 1] bcast_S50000x1_S50000x40_0_1
    (Host.log (broadcastInDim S50000x1 ![0] bcast_S50000_S50000x1_0
      (Host.reduceAdd (Host.exp (shifted l)) zero0 reducesTo_S50000x40_S50000_d1 h_S_))))

/-- The whole network. -/
def out (x : FV S50000x128) (ei : IVec S2x800000 32) (W1 : FV S128x128) (b1 : FV S128) (W2 : FV S128x128) (b2 : FV S128)
    (g1 be1 g2 be2 g3 be3 : FV S128) (Wm : FV S128x40) (bm : FV S40) : FV S50000x40 :=
  logSoftmax (logits (bn (relu (bn (conv ei (mm (relu (bn (conv ei (mm x W1) b1) g1 be1)) W2) b2) g2 be2)) g3 be3) Wm bm)

end Ref

/-! ## Kernel form -/
namespace Ker

open Cert.KernelIdeal Cert.KernelIdeal.Facts₀ Cert.KernelIdeal.Facts

variable [Cert.KernelIdeal.Facts]

def zero0 : FV S_ := constant (F := Ideal) S_ .f32 0x00000000#32
def one0 : FV S_ := constant (F := Ideal) S_ .f32 0x3F800000#32
def cnt0 : FV S_ := constant (F := Ideal) S_ .f32 0x47435000#32
def eps0 : FV S_ := constant (F := Ideal) S_ .f32 0x3727C5AC#32

def srcV (ei : IVec S2x800000 32) : IVec S800000 32 :=
  shapeCast S800000 (extractStridedSlice S1x800000 ![0, 0] ei slices_S2x800000_S1x800000_0_0) shapeCasts_S1x800000_S800000
def dstV (ei : IVec S2x800000 32) : IVec S800000 32 :=
  shapeCast S800000 (extractStridedSlice S1x800000 ![1, 0] ei slices_S2x800000_S1x800000_1_0) shapeCasts_S1x800000_S800000
def col (v : IVec S800000 32) : IVec S800000x1 32 := broadcastInDim S800000x1 ![0] bcast_S800000_S800000x1_0 v
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v
def dinv (ei : IVec S2x800000 32) : FV S50000 :=
  Host.rsqrt (addf (broadcastInDim S50000 ![] bcast_S_S50000 one0)
    (Host.scatterAdd scatter_S50000_S800000x1_S800000_n_0_0_1 (broadcastInDim S50000 ![] bcast_S_S50000 zero0)
      (col (dstV ei)) (broadcastInDim S800000 ![] bcast_S_S800000 one0)))
def rows (d : FV S50000) : FV S50000x128 :=
  broadcastInDim S50000x128 ![0, 1] bcast_S50000x1_S50000x128_0_1 (broadcastInDim S50000x1 ![0] bcast_S50000_S50000x1_0 d)
def lanes (b : FV S128) : FV S50000x128 :=
  broadcastInDim S50000x128 ![0, 1] bcast_S1x128_S50000x128_0_1 (broadcastInDim S1x128 ![1] bcast_S128_S1x128_1 b)

/-- The layer with the normalisation outside the edge sum: rows scaled by the inverse root degree, gathered along
    the edges' sources, summed at the destinations, scaled again; the self-loop term and the bias as in the plain form. -/
def conv (ei : IVec S2x800000 32) (xw : FV S50000x128) (b : FV S128) : FV S50000x128 :=
  addf (addf
    (mulf (Host.scatterAdd scatter_S50000x128_S800000x1_S800000x128_1_0_0_1
        (broadcastInDim S50000x128 ![] bcast_S_S50000x128 zero0) (col (dstV ei))
        (Host.gather gather_S50000x128_S800000x1_S800000x128_1_0_n_n_0_1_1128 (mulf xw (rows (dinv ei))) (col (wrap (srcV ei)))))
      (rows (dinv ei)))
    (mulf xw (rows (mulf (dinv ei) (dinv ei)))))
    (lanes b)

/-- The column mean from the column sums (one row). -/
def meanOf (s1 : FV S1x128) : FV S1x128 := Host.divf s1 (broadcastInDim S1x128 ![] bcast_S_S1x128 cnt0)
/-- The inverse standard deviation from the column sums and the column sums of squares: variance as mean of
    squares minus squared mean, clamped at zero, plus 1e-5, inverse square root. -/
def invstdOf (s1 s2 : FV S1x128) : FV S1x128 :=
  Host.rsqrt (addf
    (maximumf (subf (Host.divf s2 (broadcastInDim S1x128 ![] bcast_S_S1x128 cnt0)) (mulf (meanOf s1) (meanOf s1)))
      (broadcastInDim S1x128 ![] bcast_S_S1x128 zero0))
    (broadcastInDim S1x128 ![] bcast_S_S1x128 eps0))
/-- A vector of 128 as one row. -/
def asRow (g : FV S128) : FV S1x128 := shapeCast S1x128 g shapeCasts_S128_S1x128
/-- A vector of 40 as one row. -/
def asRow40 (g : FV S40) : FV S1x40 := shapeCast S1x40 g shapeCasts_S40_S1x40

/-- The column sums as one row: what the statistics pass leaves after its last tile. -/
def sumRow (h : FV S50000x128) : FV S1x128 := fun i => ∑ n : Fin 50000, h (ix2 n (i 1))
/-- The column sums of squares as one row. -/
def sqRow (h : FV S50000x128) : FV S1x128 := fun i => ∑ n : Fin 50000, h (ix2 n (i 1)) * h (ix2 n (i 1))
/-- The normalisation as the kernels apply it, entry by entry: ((h − mean) · invstd) · g + b with the four
    per-column numbers read from one-row arrays. -/
def bnApply (h : FV S50000x128) (mu inv g be : FV S1x128) : FV S50000x128 :=
  fun i => ((h i - mu (ix2 (0 : Fin 1) (i 1))) * inv (ix2 (0 : Fin 1) (i 1))) * g (ix2 (0 : Fin 1) (i 1)) + be (ix2 (0 : Fin 1) (i 1))

end Ker

/-! ## The kernel's network: its own layers and statistics around the shared dense products -/
namespace Mix

variable [Cert.KernelIdeal.Facts] [Cert.ReferenceIdeal.Facts]

/-- Normalisation by the statistics the kernels accumulate: mean and inverse standard deviation from the column
    sums and sums of squares of the array itself, scale and shift given as vectors. -/
def bnOwn (h : FV Cert.KernelIdeal.S50000x128) (g be : FV Cert.KernelIdeal.S128) : FV Cert.KernelIdeal.S50000x128 :=
  Ker.bnApply h (Ker.meanOf (Ker.sumRow h)) (Ker.invstdOf (Ker.sumRow h) (Ker.sqRow h)) (Ker.asRow g) (Ker.asRow be)

/-- The network as the kernel program computes it. -/
def kerOut (x : FV Cert.KernelIdeal.S50000x128) (ei : IVec Cert.KernelIdeal.S2x800000 32)
    (W1 : FV Cert.KernelIdeal.S128x128) (b1 : FV Cert.KernelIdeal.S128) (W2 : FV Cert.KernelIdeal.S128x128)
    (b2 : FV Cert.KernelIdeal.S128) (g1 be1 g2 be2 g3 be3 : FV Cert.KernelIdeal.S128)
    (Wm : FV Cert.KernelIdeal.S128x40) (bm : FV Cert.KernelIdeal.S40) : FV Cert.KernelIdeal.S50000x40 :=
  Ref.logSoftmax (Ref.logits
    (bnOwn (Ref.relu (bnOwn (Ker.conv ei (Ref.mm (Ref.relu (bnOwn (Ker.conv ei (Ref.mm x W1) b1) g1 be1)) W2) b2) g2 be2)) g3 be3)
    Wm bm)

end Mix

end Cert.Gcn

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.KerRegion0.lean ====
/-
  The first kernel launch: the dense product of the node features with the first weight matrix, computed tile by
  tile — ten tiles of 5000 rows, each multiplied by the whole 128×128 matrix into a zero accumulator. Row r of
  the result lies in tile r / 5000 and depends on row r of the features only, so the array the launch leaves is
  the whole product: entry (r, c) is the sum over k of x(r, k) · W(k, c).
-/
import proofs.«124287_j84756884620023_2_alg».proof.Proof.Gen.KernelIdeal.Frame
import proofs.«124287_j84756884620023_2_alg».proof.Proof.Gen.ReferenceIdeal
import proofs.«124287_j84756884620023_2_alg».proof.Proof.Stages
import proofs.«124287_j84756884620023_2_alg».proof.Proof.LibDotSum
import Idealize.ShloMosaic.Lib.Pipeline.Value
import Idealize.ShloMosaic.Lib.ValueIdx

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)
open Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The dense product at an index: a sum over the contracted axis. -/
theorem mm_apply (A : FV Cert.ReferenceIdeal.S50000x128) (W : FV Cert.ReferenceIdeal.S128x128) (r : Fin 50000) (q : Fin 128) :
    Ref.mm A W (ix2 r q) = ∑ k : Fin 128, A (ix2 r k) * W (ix2 k q) := by
  unfold Ref.mm
  refine DotSum.dotGeneral_eq_sum Cert.ReferenceIdeal.dot_S50000x128_S128x128_S50000x128_1_0_0_1_n_n 128 rfl rfl A W (ix2 r q)
    (fun k => ix2 r k) (fun k => ix2 k q) ?_ ?_
  · intro k; funext a; apply Fin.ext
    match a with
    | ⟨0, _⟩ => rfl
    | ⟨1, _⟩ => rfl
  · intro k; funext a; apply Fin.ext
    match a with
    | ⟨0, _⟩ => rfl
    | ⟨1, _⟩ => rfl

/-- One tile's product at an index: the same sum over the tile's rows. -/
theorem tile_mm_apply (x0 : Vec Ideal S5000x128 .f32) (x1 : Vec Ideal S128x128 .f32) (y : Fin 5000) (q : Fin 128) :
    k0_pay1 (F := Ideal) x0 x1 (ix2 y q) = ∑ k : Fin 128, x0 (ix2 y k) * x1 (ix2 k q) := by
  unfold k0_pay1
  refine (DotSum.matmul_zero_eq_sum dot_S5000x128_S128x128_S5000x128_1_0_0_1_n_n 128 rfl rfl _ _ (ix2 y q)
    (fun k => ix2 y k) (fun k => ix2 k q) ?_ ?_).trans ?_
  · intro k; funext a; apply Fin.ext
    match a with
    | ⟨0, _⟩ => rfl
    | ⟨1, _⟩ => rfl
  · intro k; funext a; apply Fin.ext
    match a with
    | ⟨0, _⟩ => rfl
    | ⟨1, _⟩ => rfl
  · rfl

/-- The tiles' positions, decided over the ten grid points: the feature tile and the result tile are tile t of
    their arrays, the weight matrix is read whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A feature tile's entry is the array's entry in that tile: row 5000·t + y. -/
theorem tile0_read (c : Dev nD) (t : Fin cfg0.N) (y : Fin 5000) (k : Fin 128) :
    iblk0 V c 0 t (ix2 y k) = V c main_arg0 (ix2 (⟨t.val * 5000 + y.val, by have := t.isLt; have hN : cfg0.N = 10 := N_0; have := y.isLt; omega⟩ : Fin 50000) k) := by
  obtain ⟨e0, e1, -, -, -, -⟩ := idx_facts0 t
  show V c main_arg0 (((cfg0.win 0).blk t).view.emb (ix2 y k)) = _
  refine congrArg (V c main_arg0) ?_
  funext a; apply Fin.ext
  match a with
  | ⟨0, _⟩ => show win0_0.index t (0 : Fin 2) * 5000 + 1 * y.val = t.val * 5000 + y.val; omega
  | ⟨1, _⟩ => show win0_0.index t (1 : Fin 2) * 128 + 1 * k.val = k.val; omega

/-- The weight tile is the whole matrix. -/
theorem tile0_weights (c : Dev nD) (t : Fin cfg0.N) (k q : Fin 128) :
    iblk0 V c 1 t (ix2 k q) = V c main_arg2 (ix2 k q) := by
  obtain ⟨-, -, e2, e3, -, -⟩ := idx_facts0 t
  show V c main_arg2 (((cfg0.win 1).blk t).view.emb (ix2 k q)) = _
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- Where the result tile's entry (y, q) sits in the array: row 5000·t + y, column q. -/
theorem tile0_out_emb (t : Fin cfg0.N) (y : Fin 5000) (q : Fin 128) :
    ((cfg0.win 2).blk t).view.emb (ix2 y q)
      = ix2 (⟨t.val * 5000 + y.val, by have := t.isLt; have hN : cfg0.N = 10 := N_0; have := y.isLt; omega⟩ : Fin 50000) q := by
  obtain ⟨-, -, -, -, e4, e5⟩ := idx_facts0 t
  funext a; apply Fin.ext
  match a with
  | ⟨0, _⟩ => show win0_2.index t (0 : Fin 2) * 5000 + 1 * y.val = t.val * 5000 + y.val; omega
  | ⟨1, _⟩ => show win0_2.index t (1 : Fin 2) * 128 + 1 * q.val = q.val; omega

/-- What point t writes back is tile t of the whole product. -/
theorem flushed0 (c : Dev nD) (t : Fin cfg0.N) :
    (dat0 V c).flushed 2 t = ((cfg0.win 2).blk t).view.read (Elt Ideal) (Ref.mm (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  funext j
  obtain ⟨y, q, rfl⟩ : ∃ (y : Fin 5000) (q : Fin 128), j = ix2 y q := ⟨j 0, j 1, eq_ix2 j⟩
  show k0_pay1 (F := Ideal) (iblk0 V c 0 t) (iblk0 V c 1 t) (ix2 y q)
    = Ref.mm (V c main_arg0) (V c main_arg2) (((cfg0.win 2).blk t).view.emb (ix2 y q))
  rw [tile0_out_emb t y q]
  refine (tile_mm_apply _ _ y q).trans ((mm_apply _ _ _ q).trans ?_).symm
  exact Finset.sum_congr rfl fun k _ => by rw [tile0_read V c t y k, tile0_weights V c t k q]

/-- An index lies in point t's result tile exactly when its coordinates lie in the tile's ranges. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v12).slice (win0_2.rect t)).set ↔ _
  rw [View.set_slice_whole, Rect.mem_set_unit]
  exact Iff.rfl

/-- Every entry of the result lies in some point's tile: row r in tile r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the first launch leaves is the dense product of the two arrays it was launched on. -/
theorem final0 (c : Dev nD) : (dat0 V c).arrAt 2 cfg0.N = Ref.mm (V c main_arg0) (V c main_arg2) :=
  (dat0 V c).arrAt_eq_of_cover 2 _ (fun t _ => flushed0 V c t) cover0

end Cert.KernelIdeal.RegionValue

end
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.KerRegion1.lean ====
/-
  A statistics launch: the column sums and the column sums of squares of a [50000, 128] array, accumulated over
  ten tiles of 5000 rows. At the first tile the two one-row accumulators are zeroed, then at every tile the tile's
  column sums (of the entries, and of their squares) are added; the accumulators are written back once, after the
  last tile. After tile n an accumulator holds the sum over the rows of tiles 0 … n, so what is written back is the
  sum over all 50000 rows.
-/
import proofs.«124287_j84756884620023_2_alg».proof.Proof.Gen.KernelIdeal.Frame
import proofs.«124287_j84756884620023_2_alg».proof.Proof.Stages
import proofs.«124287_j84756884620023_2_alg».proof.Proof.LibTileStats
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.ShloMosaic.Tactic
open Idealize.ShloMosaic.Pipeline (Dat Cfg Window)
open Cert.Gcn Cert.Lib.TileStats

theorem hz2 : (![0, 0] : Fin 2 → Nat) = fun _ => 0 := funext fun a => by fin_cases a <;> rfl

/-! ## What each case of the body leaves in the two accumulators -/
section Pieces

variable {F : FTy → Type} [FloatOps F]

/-- First tile, sums: the tile's column sums added to a zeroed accumulator. -/
theorem outA1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec F S5000x128 .f32) :
    out1_A_1 c i arg1 harg1 arg2 harg2 arg3 harg3 hc0 x0 = k1_pay4 x0 k1_pay1 := by
  unfold out1_A_1
  rw [View.read_writes_eq_canon _ _ _ (cover1_A_1 c i arg1 harg1 arg2 harg2 arg3 harg3 hc0 x0)]
  unfold kernelRun1_A
  dsimp only
  sl_unfold_words
  rw [View.canon_cons_unit_zero hz2]
  simp only [View.readAt_eq_ld, harg1.read_unread, View.ld_unit_zero (S := S5000x128) hz2]
  rw [View.readCov_unit_zero _ hz2]

/-- First tile, sums of squares. -/
theorem outA2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec F S5000x128 .f32) :
    out1_A_2 c i arg1 harg1 arg2 harg2 arg3 harg3 hc0 x0 = k1_pay5 x0 k1_pay2 := by
  unfold out1_A_2
  rw [View.read_writes_eq_canon _ _ _ (cover1_A_2 c i arg1 harg1 arg2 harg2 arg3 harg3 hc0 x0)]
  unfold kernelRun1_A
  dsimp only
  sl_unfold_words
  rw [View.canon_cons_unit_zero hz2]
  simp only [View.readAt_eq_ld, harg1.read_unread, View.ld_unit_zero (S := S5000x128) hz2]
  rw [View.readCov_unit_zero _ hz2]

/-- A later tile, sums: the tile's column sums added to what the accumulator held. -/
theorem outB1 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec F S5000x128 .f32) (xo1 xo2 : Vec F S1x128 .f32) :
    out1_B_1 c i arg1 harg1 arg2 harg2 arg3 harg3 hc0 x0 xo1 xo2 = k1_pay4 x0 xo1 := by
  unfold out1_B_1
  rw [View.read_writes_eq_canon _ _ _ (cover1_B_1 c i arg1 harg1 arg2 harg2 arg3 harg3 hc0 x0 xo1 xo2)]
  unfold kernelRun1_B
  dsimp only
  rw [View.canon_unit_zero hz2]
  simp only [View.readAt_eq_ld, harg1.read_unread, harg2.read_unread, View.ld_unit_zero (S := S5000x128) hz2, View.ld_unit_zero (S := S1x128) hz2]

/-- A later tile, sums of squares. -/
theorem outB2 (c : Dev nD) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec F S5000x128 .f32) (xo1 xo2 : Vec F S1x128 .f32) :
    out1_B_2 c i arg1 harg1 arg2 harg2 arg3 harg3 hc0 x0 xo1 xo2 = k1_pay5 x0 xo2 := by
  unfold out1_B_2
  rw [View.read_writes_eq_canon _ _ _ (cover1_B_2 c i arg1 harg1 arg2 harg2 arg3 harg3 hc0 x0 xo1 xo2)]
  unfold kernelRun1_B
  dsimp only
  rw [View.canon_unit_zero hz2]
  simp only [View.readAt_eq_ld, harg1.read_unread, harg3.read_unread, View.ld_unit_zero (S := S5000x128) hz2, View.ld_unit_zero (S := S1x128) hz2]

end Pieces

/-! ## The body's arithmetic at an index, on the extended reals -/

theorem zeros1_apply (u : Fin 1) (q : Fin 128) : k1_pay1 (F := Ideal) (ix2 u q) = 0 := Ideal.ofBits_zero_f32
theorem zeros2_apply (u : Fin 1) (q : Fin 128) : k1_pay2 (F := Ideal) (ix2 u q) = 0 := Ideal.ofBits_zero_f32

/-- The accumulator plus the tile's column sum. -/
theorem addSum_apply (x0 : Vec Ideal S5000x128 .f32) (a : Vec Ideal S1x128 .f32) (u : Fin 1) (q : Fin 128) :
    k1_pay4 (F := Ideal) x0 a (ix2 u q) = a (ix2 u q) + ∑ y : Fin 5000, x0 (ix2 y q) := by
  unfold k1_pay4 k1_pay3
  dsimp only
  rw [addf_apply, shapeCast_self a, shapeCast_a_1a_apply, colSum_f32_apply, shapeCast_self x0]

/-- The accumulator plus the tile's column sum of squares. -/
theorem addSq_apply (x0 : Vec Ideal S5000x128 .f32) (a : Vec Ideal S1x128 .f32) (u : Fin 1) (q : Fin 128) :
    k1_pay5 (F := Ideal) x0 a (ix2 u q) = a (ix2 u q) + ∑ y : Fin 5000, x0 (ix2 y q) * x0 (ix2 y q) := by
  unfold k1_pay5 k1_pay3
  dsimp only
  rw [addf_apply, shapeCast_self a, shapeCast_a_1a_apply, colSum_f32_apply, shapeCast_self x0]
  rfl

/-! ## The running sums -/

variable (V : (c : Dev nD) → (b : Ref sig .tc) → Buf (Elt Ideal) ((c : Thread nD τ).loc b))

/-- The column sums over the rows of tiles 0 … n. -/
def partSum (A : FV S50000x128) (n : ℕ) : FV S1x128 :=
  fun i => ∑ t ∈ Finset.range (n + 1), ∑ y : Fin 5000, A (ix2 (tileRow 50000 5000 (by decide) t y) (i 1))
/-- The column sums of squares over the rows of tiles 0 … n. -/
def partSq (A : FV S50000x128) (n : ℕ) : FV S1x128 :=
  fun i => ∑ t ∈ Finset.range (n + 1), ∑ y : Fin 5000,
    A (ix2 (tileRow 50000 5000 (by decide) t y) (i 1)) * A (ix2 (tileRow 50000 5000 (by decide) t y) (i 1))

/-- All ten tiles together are the whole column. -/
theorem total_sum (A : FV S50000x128) (u : Fin 1) (q : Fin 128) :
    partSum A 9 (ix2 u q) = Ker.sumRow A (ix2 (0 : Fin 1) q) := by
  unfold partSum Ker.sumRow
  exact (sum_tiles (M := EReal) 10 5000 50000 rfl (by decide) fun r => A (ix2 r q)).symm

theorem total_sq (A : FV S50000x128) (u : Fin 1) (q : Fin 128) :
    partSq A 9 (ix2 u q) = Ker.sqRow A (ix2 (0 : Fin 1) q) := by
  unfold partSq Ker.sqRow
  exact (sum_tiles (M := EReal) 10 5000 50000 rfl (by decide) fun r => A (ix2 r q) * A (ix2 r q)).symm

/-- The tiles' positions, decided over the ten grid points: the input tile is tile t, the accumulators the whole rows. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- An input tile's entry is the array's entry in that tile. -/
theorem tile_read (c : Dev nD) (t : Fin cfg1.N) (y : Fin 5000) (k : Fin 128) :
    iblk1 V c 0 t (ix2 y k) = V c main_v35 (ix2 (tileRow 50000 5000 (by decide) t.val y) k) := by
  obtain ⟨e0, e1, -, -, -, -⟩ := idx_facts t
  have hN : cfg1.N = 10 := N_1
  have ht := t.isLt
  have hy := y.isLt
  show V c main_v35 (((cfg1.win 0).blk t).view.emb (ix2 y k)) = _
  refine congrArg (V c main_v35) ?_
  funext a; apply Fin.ext
  match a with
  | ⟨0, _⟩ =>
    show win1_0.index t (0 : Fin 2) * 5000 + 1 * y.val = (tileRow 50000 5000 (by decide) t.val y).val
    rw [tileRow_val (by decide) t.val y (by omega)]; omega
  | ⟨1, _⟩ => show win1_0.index t (1 : Fin 2) * 128 + 1 * k.val = k.val; omega

/-- After point n the accumulators hold the sums over tiles 0 … n. -/
theorem outs_eq (c : Dev nD) : ∀ (n : ℕ) (hn : n < cfg1.N),
    outsAt1 V c n hn = (partSum (V c main_v35) n, partSq (V c main_v35) n)
  | 0, hn => by
    refine (outsAt1_A V c ⟨0, hn⟩ (Nat.zero_mod _)).trans ?_
    rw [outA1, outA2]
    refine Prod.ext (funext fun i => ?_) (funext fun i => ?_)
    · obtain ⟨u, q, rfl⟩ : ∃ (u : Fin 1) (q : Fin 128), i = ix2 u q := ⟨i 0, i 1, eq_ix2 i⟩
      show k1_pay4 (F := Ideal) (iblk1 V c 0 ⟨0, hn⟩) (k1_pay1 (F := Ideal)) (ix2 u q) = partSum (V c main_v35) 0 (ix2 u q)
      rw [addSum_apply, zeros1_apply, zero_add]
      unfold partSum
      rw [Finset.sum_range_one]
      exact Finset.sum_congr rfl fun y _ => tile_read V c ⟨0, hn⟩ y q
    · obtain ⟨u, q, rfl⟩ : ∃ (u : Fin 1) (q : Fin 128), i = ix2 u q := ⟨i 0, i 1, eq_ix2 i⟩
      show k1_pay5 (F := Ideal) (iblk1 V c 0 ⟨0, hn⟩) (k1_pay2 (F := Ideal)) (ix2 u q) = partSq (V c main_v35) 0 (ix2 u q)
      rw [addSq_apply, zeros2_apply, zero_add]
      unfold partSq
      rw [Finset.sum_range_one]
      exact Finset.sum_congr rfl fun y _ => by rw [tile_read V c ⟨0, hn⟩ y q]
  | n + 1, hn => by
    have hN : cfg1.N = 10 := N_1
    have h0 : ¬ (n + 1) % 10 = 0 := by omega
    have ih := outs_eq c n (Nat.lt_of_succ_lt hn)
    refine (outsAt1_B V c ⟨n + 1, hn⟩ h0).trans ?_
    rw [outB1, outB2]
    show (k1_pay4 (F := Ideal) (iblk1 V c 0 ⟨n + 1, hn⟩) (outsAt1 V c n (Nat.lt_of_succ_lt hn)).1,
          k1_pay5 (F := Ideal) (iblk1 V c 0 ⟨n + 1, hn⟩) (outsAt1 V c n (Nat.lt_of_succ_lt hn)).2) = _
    rw [ih]
    refine Prod.ext (funext fun i => ?_) (funext fun i => ?_)
    · obtain ⟨u, q, rfl⟩ : ∃ (u : Fin 1) (q : Fin 128), i = ix2 u q := ⟨i 0, i 1, eq_ix2 i⟩
      show k1_pay4 (F := Ideal) (iblk1 V c 0 ⟨n + 1, hn⟩) (partSum (V c main_v35) n) (ix2 u q) = partSum (V c main_v35) (n + 1) (ix2 u q)
      rw [addSum_apply]
      unfold partSum
      rw [Finset.sum_range_succ _ (n + 1)]
      exact congrArg _ (Finset.sum_congr rfl fun y _ => tile_read V c ⟨n + 1, hn⟩ y q)
    · obtain ⟨u, q, rfl⟩ : ∃ (u : Fin 1) (q : Fin 128), i = ix2 u q := ⟨i 0, i 1, eq_ix2 i⟩
      show k1_pay5 (F := Ideal) (iblk1 V c 0 ⟨n + 1, hn⟩) (partSq (V c main_v35) n) (ix2 u q) = partSq (V c main_v35) (n + 1) (ix2 u q)
      rw [addSq_apply]
      unfold partSq
      rw [Finset.sum_range_succ _ (n + 1)]
      exact congrArg _ (Finset.sum_congr rfl fun y _ => by rw [tile_read V c ⟨n + 1, hn⟩ y q])

/-! ## What is written back, and the arrays the launch leaves -/

/-- An accumulator's entry sits at the same place in its one-row array. -/
theorem acc_emb1 (t : Fin cfg1.N) (u : Fin 1) (q : Fin 128) :
    ((cfg1.win 1).blk t).view.emb (ix2 u q) = ix2 (0 : Fin 1) q := by
  obtain ⟨-, -, e2, e3, -, -⟩ := idx_facts t
  have hu : u.val = 0 := by omega
  funext a; apply Fin.ext
  match a with
  | ⟨0, _⟩ => show win1_1.index t (0 : Fin 2) * 1 + 1 * u.val = 0; omega
  | ⟨1, _⟩ => show win1_1.index t (1 : Fin 2) * 128 + 1 * q.val = q.val; omega

theorem acc_emb2 (t : Fin cfg1.N) (u : Fin 1) (q : Fin 128) :
    ((cfg1.win 2).blk t).view.emb (ix2 u q) = ix2 (0 : Fin 1) q := by
  obtain ⟨-, -, -, -, e4, e5⟩ := idx_facts t
  have hu : u.val = 0 := by omega
  funext a; apply Fin.ext
  match a with
  | ⟨0, _⟩ => show win1_2.index t (0 : Fin 2) * 1 + 1 * u.val = 0; omega
  | ⟨1, _⟩ => show win1_2.index t (1 : Fin 2) * 128 + 1 * q.val = q.val; omega

attribute [local irreducible] partSum partSq Cert.Gcn.Ker.sumRow Cert.Gcn.Ker.sqRow in
/-- The last point writes back the column sums of the whole array. -/
theorem flushed_sum (c : Dev nD) (t : Fin cfg1.N) (hf : (cfg1.win 1).flush t = true) :
    (dat1 V c).flushed 1 t = ((cfg1.win 1).blk t).view.read (Elt Ideal) (Ker.sumRow (V c main_v35)) := by
  have hN : cfg1.N = 10 := N_1
  have h9 : t.val = 9 := by have := (flush1_1 t).mp hf; have := t.isLt; omega
  show (cfg1.win 1).cut (grid1.coords t) ((dat1 V c).after 1 t) = _
  rw [after1_1, outs_eq V c t.val t.isLt]
  funext j
  obtain ⟨u, q, rfl⟩ : ∃ (u : Fin 1) (q : Fin 128), j = ix2 u q := ⟨j 0, j 1, eq_ix2 j⟩
  show partSum (V c main_v35) t.val (ix2 u q) = Ker.sumRow (V c main_v35) (((cfg1.win 1).blk t).view.emb (ix2 u q))
  rw [acc_emb1 t u q, h9]
  unfold partSum Ker.sumRow
  exact (sum_tiles (M := EReal) 10 5000 50000 rfl (by decide) fun r => V c main_v35 (ix2 r q)).symm

attribute [local irreducible] partSum partSq Cert.Gcn.Ker.sumRow Cert.Gcn.Ker.sqRow in
/-- The last point writes back the column sums of squares of the whole array. -/
theorem flushed_sq (c : Dev nD) (t : Fin cfg1.N) (hf : (cfg1.win 2).flush t = true) :
    (dat1 V c).flushed 2 t = ((cfg1.win 2).blk t).view.read (Elt Ideal) (Ker.sqRow (V c main_v35)) := by
  have hN : cfg1.N = 10 := N_1
  have h9 : t.val = 9 := by have := (flush1_2 t).mp hf; have := t.isLt; omega
  show (cfg1.win 2).cut (grid1.coords t) ((dat1 V c).after 2 t) = _
  rw [after1_2, outs_eq V c t.val t.isLt]
  funext j
  obtain ⟨u, q, rfl⟩ : ∃ (u : Fin 1) (q : Fin 128), j = ix2 u q := ⟨j 0, j 1, eq_ix2 j⟩
  show partSq (V c main_v35) t.val (ix2 u q) = Ker.sqRow (V c main_v35) (((cfg1.win 2).blk t).view.emb (ix2 u q))
  rw [acc_emb2 t u q, h9]
  exact total_sq (V c main_v35) u q

/-- The last grid point. -/
def tLast : Fin cfg1.N := ⟨9, by rw [show cfg1.N = 10 from N_1]; decide⟩

theorem mem_blk1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v36_0).slice (win1_1.rect t)).set ↔ _
  rw [View.set_slice_whole, Rect.mem_set_unit]
  exact Iff.rfl

theorem mem_blk2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v36_1).slice (win1_2.rect t)).set ↔ _
  rw [View.set_slice_whole, Rect.mem_set_unit]
  exact Iff.rfl

/-- The one write-back covers the whole row. -/
theorem cover1 (i : S1x128.Idx) : ∃ t : Fin cfg1.N, (cfg1.win 1).flush t = true ∧ i ∈ ((cfg1.win 1).blk t).view.set := by
  have hi0 : (i 0).val < 1 := (i 0).isLt
  have hi1 : (i 1).val < 128 := (i 1).isLt
  obtain ⟨-, -, e2, e3, -, -⟩ := idx_facts tLast
  refine ⟨tLast, (flush1_1 tLast).mpr rfl, ?_⟩
  rw [mem_blk1]
  intro a
  match a with
  | ⟨0, _⟩ => show win1_1.index tLast (0 : Fin 2) * 1 ≤ (i 0).val ∧ (i 0).val < win1_1.index tLast (0 : Fin 2) * 1 + 1; omega
  | ⟨1, _⟩ => show win1_1.index tLast (1 : Fin 2) * 128 ≤ (i 1).val ∧ (i 1).val < win1_1.index tLast (1 : Fin 2) * 128 + 128; omega

theorem cover2 (i : S1x128.Idx) : ∃ t : Fin cfg1.N, (cfg1.win 2).flush t = true ∧ i ∈ ((cfg1.win 2).blk t).view.set := by
  have hi0 : (i 0).val < 1 := (i 0).isLt
  have hi1 : (i 1).val < 128 := (i 1).isLt
  obtain ⟨-, -, -, -, e4, e5⟩ := idx_facts tLast
  refine ⟨tLast, (flush1_2 tLast).mpr rfl, ?_⟩
  rw [mem_blk2]
  intro a
  match a with
  | ⟨0, _⟩ => show win1_2.index tLast (0 : Fin 2) * 1 ≤ (i 0).val ∧ (i 0).val < win1_2.index tLast (0 : Fin 2) * 1 + 1; omega
  | ⟨1, _⟩ => show win1_2.index tLast (1 : Fin 2) * 128 ≤ (i 1).val ∧ (i 1).val < win1_2.index tLast (1 : Fin 2) * 128 + 128; omega

/-- The first result of the launch: the column sums of the array it was launched on. -/
theorem final_sum (c : Dev nD) : (dat1 V c).arrAt 1 cfg1.N = Ker.sumRow (V c main_v35) :=
  (dat1 V c).arrAt_eq_of_cover 1 _ (fun t hf => flushed_sum V c t hf) cover1

/-- The second result: the column sums of squares. -/
theorem final_sq (c : Dev nD) : (dat1 V c).arrAt 2 cfg1.N = Ker.sqRow (V c main_v35) :=
  (dat1 V c).arrAt_eq_of_cover 2 _ (fun t hf => flushed_sq V c t hf) cover2

end Cert.KernelIdeal.Region1

end
-- ==== Proof.KerRegion2.lean ====
/-
  The third kernel launch: tile by tile, the first layer's array is normalised column by column —
  ((h − mean) · invstd) · g + b with the four per-column numbers read from one-row arrays —, rectified, and
  multiplied by the second weight matrix. Row r of the result depends on row r of the input only, so the
  launch leaves the dense product of the rectified normalised array with the weights.
-/
import proofs.«124287_j84756884620023_2_alg».proof.Proof.KerRegion0
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.ShloMosaic.Pipeline (Dat Cfg Window)
open Cert.Gcn Cert.KernelIdeal.RegionValue

/-- The rectifier at an index: the larger of the entry and zero. -/
theorem relu_apply (Y : FV Cert.ReferenceIdeal.S50000x128) (i : Cert.ReferenceIdeal.S50000x128.Idx) :
    Ref.relu Y i = max (Y i) (Ideal.ofBits .f32 0x00000000#32) := rfl

/-- The normalisation at an index. -/
theorem bnApply_apply (h : FV S50000x128) (mu inv g be : FV S1x128) (r : Fin 50000) (k : Fin 128) :
    Ker.bnApply h mu inv g be (ix2 r k)
      = ((h (ix2 r k) - mu (ix2 (0 : Fin 1) k)) * inv (ix2 (0 : Fin 1) k)) * g (ix2 (0 : Fin 1) k) + be (ix2 (0 : Fin 1) k) := rfl

/-- One tile's result at an index: the sum over k of the rectified normalised entry (y, k) times W(k, q). -/
theorem tile_apply (x0 : Vec Ideal S5000x128 .f32) (m s g b : Vec Ideal S1x128 .f32) (W : Vec Ideal S128x128 .f32)
    (y : Fin 5000) (q : Fin 128) :
    k2_pay1 (F := Ideal) x0 m s g b W (ix2 y q)
      = ∑ k : Fin 128, max (((x0 (ix2 y k) - m (ix2 (0 : Fin 1) k)) * s (ix2 (0 : Fin 1) k)) * g (ix2 (0 : Fin 1) k) + b (ix2 (0 : Fin 1) k))
          (Ideal.ofBits .f32 0x00000000#32) * W (ix2 k q) := by
  unfold k2_pay1
  refine (DotSum.matmul_zero_eq_sum dot_S5000x128_S128x128_S5000x128_1_0_0_1_n_n 128 rfl rfl _ _ (ix2 y q)
    (fun k => ix2 y k) (fun k => ix2 k q) ?_ ?_).trans ?_
  · intro k; funext a; apply Fin.ext
    match a with
    | ⟨0, _⟩ => rfl
    | ⟨1, _⟩ => rfl
  · intro k; funext a; apply Fin.ext
    match a with
    | ⟨0, _⟩ => rfl
    | ⟨1, _⟩ => rfl
  · refine Finset.sum_congr rfl fun k _ => ?_
    simp only [truncf_apply, maximumf_apply, addf_apply, mulf_apply, subf_apply, shapeCast_self, broadcastTo_1b_ab_apply,
      broadcast_apply]
    rfl

variable (V : (c : Dev nD) → (b : Ref sig .tc) → Buf (Elt Ideal) ((c : Thread nD τ).loc b))

/-- The tiles' positions, decided over the ten grid points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The row of the whole array that row y of tile t is. -/
def rowOf (t : Fin cfg2.N) (y : Fin 5000) : Fin 50000 :=
  ⟨t.val * 5000 + y.val, by have := t.isLt; have hN : cfg2.N = 10 := N_2; have := y.isLt; omega⟩

theorem tile_read (c : Dev nD) (t : Fin cfg2.N) (y : Fin 5000) (k : Fin 128) :
    iblk2 V c 0 t (ix2 y k) = V c main_v35 (ix2 (rowOf t y) k) := by
  obtain ⟨e0, e1, -⟩ := idx_facts t
  show V c main_v35 (((cfg2.win 0).blk t).view.emb (ix2 y k)) = _
  refine congrArg (V c main_v35) ?_
  funext a; apply Fin.ext
  match a with
  | ⟨0, _⟩ => show win2_0.index t (0 : Fin 2) * 5000 + 1 * y.val = t.val * 5000 + y.val; omega
  | ⟨1, _⟩ => show win2_0.index t (1 : Fin 2) * 128 + 1 * k.val = k.val; omega

theorem row1_read (c : Dev nD) (t : Fin cfg2.N) (k : Fin 128) : iblk2 V c 1 t (ix2 (0 : Fin 1) k) = V c main_v38 (ix2 (0 : Fin 1) k) := by
  obtain ⟨-, -, e2, e3, -⟩ := idx_facts t
  show V c main_v38 (((cfg2.win 1).blk t).view.emb (ix2 (0 : Fin 1) k)) = _
  refine congrArg (V c main_v38) ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

theorem row2_read (c : Dev nD) (t : Fin cfg2.N) (k : Fin 128) : iblk2 V c 2 t (ix2 (0 : Fin 1) k) = V c main_v47 (ix2 (0 : Fin 1) k) := by
  obtain ⟨-, -, -, -, e4, e5, -⟩ := idx_facts t
  show V c main_v47 (((cfg2.win 2).blk t).view.emb (ix2 (0 : Fin 1) k)) = _
  refine congrArg (V c main_v47) ?_
  funext a; apply Fin.ext
  match a with
  | ⟨0, _⟩ => show win2_2.index t (0 : Fin 2) * 1 + 1 * 0 = 0; omega
  | ⟨1, _⟩ => show win2_2.index t (1 : Fin 2) * 128 + 1 * k.val = k.val; omega

theorem row3_read (c : Dev nD) (t : Fin cfg2.N) (k : Fin 128) : iblk2 V c 3 t (ix2 (0 : Fin 1) k) = V c main_v48 (ix2 (0 : Fin 1) k) := by
  obtain ⟨-, -, -, -, -, -, e6, e7, -⟩ := idx_facts t
  show V c main_v48 (((cfg2.win 3).blk t).view.emb (ix2 (0 : Fin 1) k)) = _
  refine congrArg (V c main_v48) ?_
  funext a; apply Fin.ext
  match a with
  | ⟨0, _⟩ => show win2_3.index t (0 : Fin 2) * 1 + 1 * 0 = 0; omega
  | ⟨1, _⟩ => show win2_3.index t (1 : Fin 2) * 128 + 1 * k.val = k.val; omega

theorem row4_read (c : Dev nD) (t : Fin cfg2.N) (k : Fin 128) : iblk2 V c 4 t (ix2 (0 : Fin 1) k) = V c main_v49 (ix2 (0 : Fin 1) k) := by
  obtain ⟨-, -, -, -, -, -, -, -, e8, e9, -⟩ := idx_facts t
  show V c main_v49 (((cfg2.win 4).blk t).view.emb (ix2 (0 : Fin 1) k)) = _
  refine congrArg (V c main_v49) ?_
  funext a; apply Fin.ext
  match a with
  | ⟨0, _⟩ => show win2_4.index t (0 : Fin 2) * 1 + 1 * 0 = 0; omega
  | ⟨1, _⟩ => show win2_4.index t (1 : Fin 2) * 128 + 1 * k.val = k.val; omega

theorem weights_read (c : Dev nD) (t : Fin cfg2.N) (k q : Fin 128) : iblk2 V c 5 t (ix2 k q) = V c main_arg4 (ix2 k q) := by
  obtain ⟨-, -, -, -, -, -, -, -, -, -, e10, e11, -⟩ := idx_facts t
  show V c main_arg4 (((cfg2.win 5).blk t).view.emb (ix2 k q)) = _
  refine congrArg (V c main_arg4) ?_
  funext a; apply Fin.ext
  match a with
  | ⟨0, _⟩ => show win2_5.index t (0 : Fin 2) * 128 + 1 * k.val = k.val; omega
  | ⟨1, _⟩ => show win2_5.index t (1 : Fin 2) * 128 + 1 * q.val = q.val; omega

theorem out_emb (t : Fin cfg2.N) (y : Fin 5000) (q : Fin 128) :
    ((cfg2.win 6).blk t).view.emb (ix2 y q) = ix2 (rowOf t y) q := by
  obtain ⟨-, -, -, -, -, -, -, -, -, -, -, -, e12, e13⟩ := idx_facts t
  funext a; apply Fin.ext
  match a with
  | ⟨0, _⟩ => show win2_6.index t (0 : Fin 2) * 5000 + 1 * y.val = t.val * 5000 + y.val; omega
  | ⟨1, _⟩ => show win2_6.index t (1 : Fin 2) * 128 + 1 * q.val = q.val; omega

/-- The array the launch leaves, as a function of the arrays it was launched on. -/
def result (c : Dev nD) : FV S50000x128 :=
  Ref.mm (Ref.relu (Ker.bnApply (V c main_v35) (V c main_v38) (V c main_v47) (V c main_v48) (V c main_v49))) (V c main_arg4)

attribute [local irreducible] Cert.Gcn.Ref.mm in
/-- What point t writes back is tile t of that array. -/
theorem flushed (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S1x128) hz2]
  funext j
  obtain ⟨y, q, rfl⟩ : ∃ (y : Fin 5000) (q : Fin 128), j = ix2 y q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 y q)
    = result V c (((cfg2.win 6).blk t).view.emb (ix2 y q))
  rw [out_emb t y q]
  unfold result
  refine (tile_apply _ _ _ _ _ _ y q).trans ((mm_apply _ _ _ q).trans ?_).symm
  refine Finset.sum_congr rfl fun k _ => ?_
  rw [relu_apply, bnApply_apply, tile_read V c t y k, row1_read V c t k, row2_read V c t k, row3_read V c t k, row4_read V c t k,
    weights_read V c t k q]

theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v50).slice (win2_6.rect t)).set ↔ _
  rw [View.set_slice_whole, Rect.mem_set_unit]
  exact Iff.rfl

theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, -, -, e12, e13⟩ := idx_facts t
  have ht : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The launch leaves the dense product of the rectified normalised array with the second weight matrix. -/
theorem final (c : Dev nD) : (dat2 V c).arrAt 6 cfg2.N = result V c :=
  (dat2 V c).arrAt_eq_of_cover 6 _ (fun t _ => flushed V c t) cover

end Cert.KernelIdeal.Region2

end
-- ==== Proof.KerRegion3.lean ====
/-
  A statistics launch: the column sums and the column sums of squares of a [50000, 128] array, accumulated over
  ten tiles of 5000 rows. At the first tile the two one-row accumulators are zeroed, then at every tile the tile's
  column sums (of the entries, and of their squares) are added; the accumulators are written back once, after the
  last tile. After tile n an accumulator holds the sum over the rows of tiles 0 … n, so what is written back is the
  sum over all 50000 rows.
-/
import proofs.«124287_j84756884620023_2_alg».proof.Proof.Gen.KernelIdeal.Frame
import proofs.«124287_j84756884620023_2_alg».proof.Proof.Stages
import proofs.«124287_j84756884620023_2_alg».proof.Proof.LibTileStats
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx Idealize.ShloMosaic.Tactic
open Idealize.ShloMosaic.Pipeline (Dat Cfg Window)
open Cert.Gcn Cert.Lib.TileStats

theorem hz2 : (![0, 0] : Fin 2 → Nat) = fun _ => 0 := funext fun a => by fin_cases a <;> rfl

/-! ## What each case of the body leaves in the two accumulators -/
section Pieces

variable {F : FTy → Type} [FloatOps F]

/-- First tile, sums: the tile's column sums added to a zeroed accumulator. -/
theorem outA1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond3_0 i)
    (x0 : Vec F S5000x128 .f32) :
    out3_A_1 c i arg1 harg1 arg2 harg2 arg3 harg3 hc0 x0 = k3_pay4 x0 k3_pay1 := by
  unfold out3_A_1
  rw [View.read_writes_eq_canon _ _ _ (cover3_A_1 c i arg1 harg1 arg2 harg2 arg3 harg3 hc0 x0)]
  unfold kernelRun3_A
  dsimp only
  sl_unfold_words
  rw [View.canon_cons_unit_zero hz2]
  simp only [View.readAt_eq_ld, harg1.read_unread, View.ld_unit_zero (S := S5000x128) hz2]
  rw [View.readCov_unit_zero _ hz2]

/-- First tile, sums of squares. -/
theorem outA2 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : cond3_0 i)
    (x0 : Vec F S5000x128 .f32) :
    out3_A_2 c i arg1 harg1 arg2 harg2 arg3 harg3 hc0 x0 = k3_pay5 x0 k3_pay2 := by
  unfold out3_A_2
  rw [View.read_writes_eq_canon _ _ _ (cover3_A_2 c i arg1 harg1 arg2 harg2 arg3 harg3 hc0 x0)]
  unfold kernelRun3_A
  dsimp only
  sl_unfold_words
  rw [View.canon_cons_unit_zero hz2]
  simp only [View.readAt_eq_ld, harg1.read_unread, View.ld_unit_zero (S := S5000x128) hz2]
  rw [View.readCov_unit_zero _ hz2]

/-- A later tile, sums: the tile's column sums added to what the accumulator held. -/
theorem outB1 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond3_0 i)
    (x0 : Vec F S5000x128 .f32) (xo1 xo2 : Vec F S1x128 .f32) :
    out3_B_1 c i arg1 harg1 arg2 harg2 arg3 harg3 hc0 x0 xo1 xo2 = k3_pay4 x0 xo1 := by
  unfold out3_B_1
  rw [View.read_writes_eq_canon _ _ _ (cover3_B_1 c i arg1 harg1 arg2 harg2 arg3 harg3 hc0 x0 xo1 xo2)]
  unfold kernelRun3_B
  dsimp only
  rw [View.canon_unit_zero hz2]
  simp only [View.readAt_eq_ld, harg1.read_unread, harg2.read_unread, View.ld_unit_zero (S := S5000x128) hz2, View.ld_unit_zero (S := S1x128) hz2]

/-- A later tile, sums of squares. -/
theorem outB2 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (hc0 : ¬cond3_0 i)
    (x0 : Vec F S5000x128 .f32) (xo1 xo2 : Vec F S1x128 .f32) :
    out3_B_2 c i arg1 harg1 arg2 harg2 arg3 harg3 hc0 x0 xo1 xo2 = k3_pay5 x0 xo2 := by
  unfold out3_B_2
  rw [View.read_writes_eq_canon _ _ _ (cover3_B_2 c i arg1 harg1 arg2 harg2 arg3 harg3 hc0 x0 xo1 xo2)]
  unfold kernelRun3_B
  dsimp only
  rw [View.canon_unit_zero hz2]
  simp only [View.readAt_eq_ld, harg1.read_unread, harg3.read_unread, View.ld_unit_zero (S := S5000x128) hz2, View.ld_unit_zero (S := S1x128) hz2]

end Pieces

/-! ## The body's arithmetic at an index, on the extended reals -/

theorem zeros1_apply (u : Fin 1) (q : Fin 128) : k3_pay1 (F := Ideal) (ix2 u q) = 0 := Ideal.ofBits_zero_f32
theorem zeros2_apply (u : Fin 1) (q : Fin 128) : k3_pay2 (F := Ideal) (ix2 u q) = 0 := Ideal.ofBits_zero_f32

/-- The accumulator plus the tile's column sum. -/
theorem addSum_apply (x0 : Vec Ideal S5000x128 .f32) (a : Vec Ideal S1x128 .f32) (u : Fin 1) (q : Fin 128) :
    k3_pay4 (F := Ideal) x0 a (ix2 u q) = a (ix2 u q) + ∑ y : Fin 5000, x0 (ix2 y q) := by
  unfold k3_pay4 k3_pay3
  dsimp only
  rw [addf_apply, shapeCast_self a, shapeCast_a_1a_apply, colSum_f32_apply, shapeCast_self x0]

/-- The accumulator plus the tile's column sum of squares. -/
theorem addSq_apply (x0 : Vec Ideal S5000x128 .f32) (a : Vec Ideal S1x128 .f32) (u : Fin 1) (q : Fin 128) :
    k3_pay5 (F := Ideal) x0 a (ix2 u q) = a (ix2 u q) + ∑ y : Fin 5000, x0 (ix2 y q) * x0 (ix2 y q) := by
  unfold k3_pay5 k3_pay3
  dsimp only
  rw [addf_apply, shapeCast_self a, shapeCast_a_1a_apply, colSum_f32_apply, shapeCast_self x0]
  rfl

/-! ## The running sums -/

variable (V : (c : Dev nD) → (b : Ref sig .tc) → Buf (Elt Ideal) ((c : Thread nD τ).loc b))

/-- The column sums over the rows of tiles 0 … n. -/
def partSum (A : FV S50000x128) (n : ℕ) : FV S1x128 :=
  fun i => ∑ t ∈ Finset.range (n + 1), ∑ y : Fin 5000, A (ix2 (tileRow 50000 5000 (by decide) t y) (i 1))
/-- The column sums of squares over the rows of tiles 0 … n. -/
def partSq (A : FV S50000x128) (n : ℕ) : FV S1x128 :=
  fun i => ∑ t ∈ Finset.range (n + 1), ∑ y : Fin 5000,
    A (ix2 (tileRow 50000 5000 (by decide) t y) (i 1)) * A (ix2 (tileRow 50000 5000 (by decide) t y) (i 1))

/-- All ten tiles together are the whole column. -/
theorem total_sum (A : FV S50000x128) (u : Fin 1) (q : Fin 128) :
    partSum A 9 (ix2 u q) = Ker.sumRow A (ix2 (0 : Fin 1) q) := by
  unfold partSum Ker.sumRow
  exact (sum_tiles (M := EReal) 10 5000 50000 rfl (by decide) fun r => A (ix2 r q)).symm

theorem total_sq (A : FV S50000x128) (u : Fin 1) (q : Fin 128) :
    partSq A 9 (ix2 u q) = Ker.sqRow A (ix2 (0 : Fin 1) q) := by
  unfold partSq Ker.sqRow
  exact (sum_tiles (M := EReal) 10 5000 50000 rfl (by decide) fun r => A (ix2 r q) * A (ix2 r q)).symm

/-- The tiles' positions, decided over the ten grid points: the input tile is tile t, the accumulators the whole rows. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- An input tile's entry is the array's entry in that tile. -/
theorem tile_read (c : Dev nD) (t : Fin cfg3.N) (y : Fin 5000) (k : Fin 128) :
    iblk3 V c 0 t (ix2 y k) = V c main_v73 (ix2 (tileRow 50000 5000 (by decide) t.val y) k) := by
  obtain ⟨e0, e1, -, -, -, -⟩ := idx_facts t
  have hN : cfg3.N = 10 := N_3
  have ht := t.isLt
  have hy := y.isLt
  show V c main_v73 (((cfg3.win 0).blk t).view.emb (ix2 y k)) = _
  refine congrArg (V c main_v73) ?_
  funext a; apply Fin.ext
  match a with
  | ⟨0, _⟩ =>
    show win3_0.index t (0 : Fin 2) * 5000 + 1 * y.val = (tileRow 50000 5000 (by decide) t.val y).val
    rw [tileRow_val (by decide) t.val y (by omega)]; omega
  | ⟨1, _⟩ => show win3_0.index t (1 : Fin 2) * 128 + 1 * k.val = k.val; omega

/-- After point n the accumulators hold the sums over tiles 0 … n. -/
theorem outs_eq (c : Dev nD) : ∀ (n : ℕ) (hn : n < cfg3.N),
    outsAt3 V c n hn = (partSum (V c main_v73) n, partSq (V c main_v73) n)
  | 0, hn => by
    refine (outsAt3_A V c ⟨0, hn⟩ (Nat.zero_mod _)).trans ?_
    rw [outA1, outA2]
    refine Prod.ext (funext fun i => ?_) (funext fun i => ?_)
    · obtain ⟨u, q, rfl⟩ : ∃ (u : Fin 1) (q : Fin 128), i = ix2 u q := ⟨i 0, i 1, eq_ix2 i⟩
      show k3_pay4 (F := Ideal) (iblk3 V c 0 ⟨0, hn⟩) (k3_pay1 (F := Ideal)) (ix2 u q) = partSum (V c main_v73) 0 (ix2 u q)
      rw [addSum_apply, zeros1_apply, zero_add]
      unfold partSum
      rw [Finset.sum_range_one]
      exact Finset.sum_congr rfl fun y _ => tile_read V c ⟨0, hn⟩ y q
    · obtain ⟨u, q, rfl⟩ : ∃ (u : Fin 1) (q : Fin 128), i = ix2 u q := ⟨i 0, i 1, eq_ix2 i⟩
      show k3_pay5 (F := Ideal) (iblk3 V c 0 ⟨0, hn⟩) (k3_pay2 (F := Ideal)) (ix2 u q) = partSq (V c main_v73) 0 (ix2 u q)
      rw [addSq_apply, zeros2_apply, zero_add]
      unfold partSq
      rw [Finset.sum_range_one]
      exact Finset.sum_congr rfl fun y _ => by rw [tile_read V c ⟨0, hn⟩ y q]
  | n + 1, hn => by
    have hN : cfg3.N = 10 := N_3
    have h0 : ¬ (n + 1) % 10 = 0 := by omega
    have ih := outs_eq c n (Nat.lt_of_succ_lt hn)
    refine (outsAt3_B V c ⟨n + 1, hn⟩ h0).trans ?_
    rw [outB1, outB2]
    show (k3_pay4 (F := Ideal) (iblk3 V c 0 ⟨n + 1, hn⟩) (outsAt3 V c n (Nat.lt_of_succ_lt hn)).1,
          k3_pay5 (F := Ideal) (iblk3 V c 0 ⟨n + 1, hn⟩) (outsAt3 V c n (Nat.lt_of_succ_lt hn)).2) = _
    rw [ih]
    refine Prod.ext (funext fun i => ?_) (funext fun i => ?_)
    · obtain ⟨u, q, rfl⟩ : ∃ (u : Fin 1) (q : Fin 128), i = ix2 u q := ⟨i 0, i 1, eq_ix2 i⟩
      show k3_pay4 (F := Ideal) (iblk3 V c 0 ⟨n + 1, hn⟩) (partSum (V c main_v73) n) (ix2 u q) = partSum (V c main_v73) (n + 1) (ix2 u q)
      rw [addSum_apply]
      unfold partSum
      rw [Finset.sum_range_succ _ (n + 1)]
      exact congrArg _ (Finset.sum_congr rfl fun y _ => tile_read V c ⟨n + 1, hn⟩ y q)
    · obtain ⟨u, q, rfl⟩ : ∃ (u : Fin 1) (q : Fin 128), i = ix2 u q := ⟨i 0, i 1, eq_ix2 i⟩
      show k3_pay5 (F := Ideal) (iblk3 V c 0 ⟨n + 1, hn⟩) (partSq (V c main_v73) n) (ix2 u q) = partSq (V c main_v73) (n + 1) (ix2 u q)
      rw [addSq_apply]
      unfold partSq
      rw [Finset.sum_range_succ _ (n + 1)]
      exact congrArg _ (Finset.sum_congr rfl fun y _ => by rw [tile_read V c ⟨n + 1, hn⟩ y q])

/-! ## What is written back, and the arrays the launch leaves -/

/-- An accumulator's entry sits at the same place in its one-row array. -/
theorem acc_emb1 (t : Fin cfg3.N) (u : Fin 1) (q : Fin 128) :
    ((cfg3.win 1).blk t).view.emb (ix2 u q) = ix2 (0 : Fin 1) q := by
  obtain ⟨-, -, e2, e3, -, -⟩ := idx_facts t
  have hu : u.val = 0 := by omega
  funext a; apply Fin.ext
  match a with
  | ⟨0, _⟩ => show win3_1.index t (0 : Fin 2) * 1 + 1 * u.val = 0; omega
  | ⟨1, _⟩ => show win3_1.index t (1 : Fin 2) * 128 + 1 * q.val = q.val; omega

theorem acc_emb2 (t : Fin cfg3.N) (u : Fin 1) (q : Fin 128) :
    ((cfg3.win 2).blk t).view.emb (ix2 u q) = ix2 (0 : Fin 1) q := by
  obtain ⟨-, -, -, -, e4, e5⟩ := idx_facts t
  have hu : u.val = 0 := by omega
  funext a; apply Fin.ext
  match a with
  | ⟨0, _⟩ => show win3_2.index t (0 : Fin 2) * 1 + 1 * u.val = 0; omega
  | ⟨1, _⟩ => show win3_2.index t (1 : Fin 2) * 128 + 1 * q.val = q.val; omega

attribute [local irreducible] partSum partSq Cert.Gcn.Ker.sumRow Cert.Gcn.Ker.sqRow in
/-- The last point writes back the column sums of the whole array. -/
theorem flushed_sum (c : Dev nD) (t : Fin cfg3.N) (hf : (cfg3.win 1).flush t = true) :
    (dat3 V c).flushed 1 t = ((cfg3.win 1).blk t).view.read (Elt Ideal) (Ker.sumRow (V c main_v73)) := by
  have hN : cfg3.N = 10 := N_3
  have h9 : t.val = 9 := by have := (flush3_1 t).mp hf; have := t.isLt; omega
  show (cfg3.win 1).cut (grid3.coords t) ((dat3 V c).after 1 t) = _
  rw [after3_1, outs_eq V c t.val t.isLt]
  funext j
  obtain ⟨u, q, rfl⟩ : ∃ (u : Fin 1) (q : Fin 128), j = ix2 u q := ⟨j 0, j 1, eq_ix2 j⟩
  show partSum (V c main_v73) t.val (ix2 u q) = Ker.sumRow (V c main_v73) (((cfg3.win 1).blk t).view.emb (ix2 u q))
  rw [acc_emb1 t u q, h9]
  unfold partSum Ker.sumRow
  exact (sum_tiles (M := EReal) 10 5000 50000 rfl (by decide) fun r => V c main_v73 (ix2 r q)).symm

attribute [local irreducible] partSum partSq Cert.Gcn.Ker.sumRow Cert.Gcn.Ker.sqRow in
/-- The last point writes back the column sums of squares of the whole array. -/
theorem flushed_sq (c : Dev nD) (t : Fin cfg3.N) (hf : (cfg3.win 2).flush t = true) :
    (dat3 V c).flushed 2 t = ((cfg3.win 2).blk t).view.read (Elt Ideal) (Ker.sqRow (V c main_v73)) := by
  have hN : cfg3.N = 10 := N_3
  have h9 : t.val = 9 := by have := (flush3_2 t).mp hf; have := t.isLt; omega
  show (cfg3.win 2).cut (grid3.coords t) ((dat3 V c).after 2 t) = _
  rw [after3_2, outs_eq V c t.val t.isLt]
  funext j
  obtain ⟨u, q, rfl⟩ : ∃ (u : Fin 1) (q : Fin 128), j = ix2 u q := ⟨j 0, j 1, eq_ix2 j⟩
  show partSq (V c main_v73) t.val (ix2 u q) = Ker.sqRow (V c main_v73) (((cfg3.win 2).blk t).view.emb (ix2 u q))
  rw [acc_emb2 t u q, h9]
  exact total_sq (V c main_v73) u q

/-- The last grid point. -/
def tLast : Fin cfg3.N := ⟨9, by rw [show cfg3.N = 10 from N_3]; decide⟩

theorem mem_blk1 (t : Fin cfg3.N) (i : S1x128.Idx) :
    i ∈ ((cfg3.win 1).blk t).view.set ↔ ∀ a : Fin 2, win3_1.index t a * S1x128.size a ≤ (i a).val ∧ (i a).val < win3_1.index t a * S1x128.size a + S1x128.size a := by
  show i ∈ ((View.whole main_v74_0).slice (win3_1.rect t)).set ↔ _
  rw [View.set_slice_whole, Rect.mem_set_unit]
  exact Iff.rfl

theorem mem_blk2 (t : Fin cfg3.N) (i : S1x128.Idx) :
    i ∈ ((cfg3.win 2).blk t).view.set ↔ ∀ a : Fin 2, win3_2.index t a * S1x128.size a ≤ (i a).val ∧ (i a).val < win3_2.index t a * S1x128.size a + S1x128.size a := by
  show i ∈ ((View.whole main_v74_1).slice (win3_2.rect t)).set ↔ _
  rw [View.set_slice_whole, Rect.mem_set_unit]
  exact Iff.rfl

/-- The one write-back covers the whole row. -/
theorem cover1 (i : S1x128.Idx) : ∃ t : Fin cfg3.N, (cfg3.win 1).flush t = true ∧ i ∈ ((cfg3.win 1).blk t).view.set := by
  have hi0 : (i 0).val < 1 := (i 0).isLt
  have hi1 : (i 1).val < 128 := (i 1).isLt
  obtain ⟨-, -, e2, e3, -, -⟩ := idx_facts tLast
  refine ⟨tLast, (flush3_1 tLast).mpr rfl, ?_⟩
  rw [mem_blk1]
  intro a
  match a with
  | ⟨0, _⟩ => show win3_1.index tLast (0 : Fin 2) * 1 ≤ (i 0).val ∧ (i 0).val < win3_1.index tLast (0 : Fin 2) * 1 + 1; omega
  | ⟨1, _⟩ => show win3_1.index tLast (1 : Fin 2) * 128 ≤ (i 1).val ∧ (i 1).val < win3_1.index tLast (1 : Fin 2) * 128 + 128; omega

theorem cover2 (i : S1x128.Idx) : ∃ t : Fin cfg3.N, (cfg3.win 2).flush t = true ∧ i ∈ ((cfg3.win 2).blk t).view.set := by
  have hi0 : (i 0).val < 1 := (i 0).isLt
  have hi1 : (i 1).val < 128 := (i 1).isLt
  obtain ⟨-, -, -, -, e4, e5⟩ := idx_facts tLast
  refine ⟨tLast, (flush3_2 tLast).mpr rfl, ?_⟩
  rw [mem_blk2]
  intro a
  match a with
  | ⟨0, _⟩ => show win3_2.index tLast (0 : Fin 2) * 1 ≤ (i 0).val ∧ (i 0).val < win3_2.index tLast (0 : Fin 2) * 1 + 1; omega
  | ⟨1, _⟩ => show win3_2.index tLast (1 : Fin 2) * 128 ≤ (i 1).val ∧ (i 1).val < win3_2.index tLast (1 : Fin 2) * 128 + 128; omega

/-- The first result of the launch: the column sums of the array it was launched on. -/
theorem final_sum (c : Dev nD) : (dat3 V c).arrAt 1 cfg3.N = Ker.sumRow (V c main_v73) :=
  (dat3 V c).arrAt_eq_of_cover 1 _ (fun t hf => flushed_sum V c t hf) cover1

/-- The second result: the column sums of squares. -/
theorem final_sq (c : Dev nD) : (dat3 V c).arrAt 2 cfg3.N = Ker.sqRow (V c main_v73) :=
  (dat3 V c).arrAt_eq_of_cover 2 _ (fun t hf => flushed_sq V c t hf) cover2

end Cert.KernelIdeal.Region3

end
-- ==== Proof.KerRegion4.lean ====
/-
  The fifth kernel launch: tile by tile, the second layer's array is normalised column by column and rectified
  — that is the launch's first result, Y —, and Y's column sums and column sums of squares are accumulated over
  the ten tiles in two one-row accumulators (zeroed at the first tile, written back after the last): the
  statistics of the next normalisation, taken while Y is produced.
-/
import proofs.«124287_j84756884620023_2_alg».proof.Proof.KerRegion1
import proofs.«124287_j84756884620023_2_alg».proof.Proof.KerRegion2

set_option maxRecDepth 16384

noncomputable section

namespace Cert.KernelIdeal.Region4

open Cert.KernelIdeal Cert.KernelIdeal.Gen
open Idealize.ShloMosaic Idealize.ShloMosaic.TcCoe Idealize.ShloMosaic.ValueIdx Idealize.ShloMosaic.Tactic
open Idealize.ShloMosaic.Pipeline (Dat Cfg Window)
open Cert.Gcn Cert.Lib.TileStats
open Cert.KernelIdeal.Region1 (partSum partSq total_sum total_sq)

theorem hz2 : (![0, 0] : Fin 2 → Nat) = fun _ => 0 := funext fun a => by fin_cases a <;> rfl

/-! ## What each case of the body leaves in the three outputs -/
section Pieces

variable {F : FTy → Type} [FloatOps F]

theorem pA5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i) (x0 : Vec F S5000x128 .f32) (x1 x2 x3 x4 : Vec F S1x128 .f32) :
    out4_A_5 c i arg1 harg1 arg2 harg2 arg3 harg3 arg4 harg4 arg5 harg5 arg6 harg6 arg7 harg7 arg8 harg8 hc0 x0 x1 x2 x3 x4 = k4_pay4 x0 x1 x2 x3 x4 := by
  unfold out4_A_5
  rw [View.read_writes_eq_canon _ _ _ (cover4_A_5 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S1x128) hz2]

theorem pA6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i) (x0 : Vec F S5000x128 .f32) (x1 x2 x3 x4 : Vec F S1x128 .f32) :
    out4_A_6 c i arg1 harg1 arg2 harg2 arg3 harg3 arg4 harg4 arg5 harg5 arg6 harg6 arg7 harg7 arg8 harg8 hc0 x0 x1 x2 x3 x4 = k4_pay5 x0 x1 x2 x3 x4 k4_pay2 := by
  unfold out4_A_6
  rw [View.read_writes_eq_canon _ _ _ (cover4_A_6 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S1x128) hz2]
  rw [View.readCov_unit_zero _ hz2]

theorem pA7 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i) (x0 : Vec F S5000x128 .f32) (x1 x2 x3 x4 : Vec F S1x128 .f32) :
    out4_A_7 c i arg1 harg1 arg2 harg2 arg3 harg3 arg4 harg4 arg5 harg5 arg6 harg6 arg7 harg7 arg8 harg8 hc0 x0 x1 x2 x3 x4 = k4_pay1 (k4_pay6 k4_pay3) (k4_pay7 x0 x1 x2 x3 x4) := by
  unfold out4_A_7
  rw [View.read_writes_eq_canon _ _ _ (cover4_A_7 c i arg1 harg1 arg2 harg2 arg3 harg3 arg4 harg4 arg5 harg5 arg6 harg6 arg7 harg7 arg8 harg8 hc0 x0 x1 x2 x3 x4)]
  unfold kernelRun4_A
  dsimp only
  sl_unfold_words
  rw [View.canon_cons_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S1x128) hz2]
  rw [View.readCov_unit_zero _ hz2]

theorem pB5 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (x0 : Vec F S5000x128 .f32) (x1 x2 x3 x4 : Vec F S1x128 .f32) (xo6 xo7 : Vec F S1x128 .f32) :
    out4_B_5 c i arg1 harg1 arg2 harg2 arg3 harg3 arg4 harg4 arg5 harg5 arg6 harg6 arg7 harg7 arg8 harg8 hc0 x0 x1 x2 x3 x4 xo6 xo7 = k4_pay4 x0 x1 x2 x3 x4 := by
  unfold out4_B_5
  rw [View.read_writes_eq_canon _ _ _ (cover4_B_5 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_cons_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S1x128) hz2]

theorem pB6 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (x0 : Vec F S5000x128 .f32) (x1 x2 x3 x4 : Vec F S1x128 .f32) (xo6 xo7 : Vec F S1x128 .f32) :
    out4_B_6 c i arg1 harg1 arg2 harg2 arg3 harg3 arg4 harg4 arg5 harg5 arg6 harg6 arg7 harg7 arg8 harg8 hc0 x0 x1 x2 x3 x4 xo6 xo7 = k4_pay5 x0 x1 x2 x3 x4 xo6 := by
  unfold out4_B_6
  rw [View.read_writes_eq_canon _ _ _ (cover4_B_6 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_cons_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S1x128) hz2]

theorem pB7 (c : Dev nD) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i) (x0 : Vec F S5000x128 .f32) (x1 x2 x3 x4 : Vec F S1x128 .f32) (xo6 xo7 : Vec F S1x128 .f32) :
    out4_B_7 c i arg1 harg1 arg2 harg2 arg3 harg3 arg4 harg4 arg5 harg5 arg6 harg6 arg7 harg7 arg8 harg8 hc0 x0 x1 x2 x3 x4 xo6 xo7 = k4_pay1 (k4_pay6 xo7) (k4_pay7 x0 x1 x2 x3 x4) := by
  unfold out4_B_7
  rw [View.read_writes_eq_canon _ _ _ (cover4_B_7 c i arg1 harg1 arg2 harg2 arg3 harg3 arg4 harg4 arg5 harg5 arg6 harg6 arg7 harg7 arg8 harg8 hc0 x0 x1 x2 x3 x4 xo6 xo7)]
  unfold kernelRun4_B
  dsimp only
  sl_unfold_words
  rw [View.canon_cons_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S1x128) hz2]

end Pieces

/-! ## The body's arithmetic at an index, on the extended reals -/

theorem zeros2_apply (u : Fin 1) (q : Fin 128) : k4_pay2 (F := Ideal) (ix2 u q) = 0 := Ideal.ofBits_zero_f32
theorem zeros3_apply (u : Fin 1) (q : Fin 128) : k4_pay3 (F := Ideal) (ix2 u q) = 0 := Ideal.ofBits_zero_f32

/-- The rectified normalised tile at an index. -/
theorem ytile_apply (x0 : Vec Ideal S5000x128 .f32) (m s g b : Vec Ideal S1x128 .f32) (y : Fin 5000) (k : Fin 128) :
    k4_pay4 (F := Ideal) x0 m s g b (ix2 y k)
      = max (((x0 (ix2 y k) - m (ix2 (0 : Fin 1) k)) * s (ix2 (0 : Fin 1) k)) * g (ix2 (0 : Fin 1) k) + b (ix2 (0 : Fin 1) k))
          (Ideal.ofBits .f32 0x00000000#32) := by
  unfold k4_pay4
  simp only [maximumf_apply, addf_apply, mulf_apply, subf_apply, shapeCast_self, broadcastTo_1b_ab_apply, broadcast_apply]
  rfl

/-- The accumulator plus the tile's column sum. -/
theorem addSum_apply (x0 : Vec Ideal S5000x128 .f32) (m s g b a : Vec Ideal S1x128 .f32) (u : Fin 1) (q : Fin 128) :
    k4_pay5 (F := Ideal) x0 m s g b a (ix2 u q) = a (ix2 u q) + ∑ y : Fin 5000, k4_pay4 (F := Ideal) x0 m s g b (ix2 y q) := by
  unfold k4_pay5
  rw [addf_apply, shapeCast_self a, shapeCast_a_1a_apply, colSum_f32_apply]

/-- The accumulator plus the tile's column sum of squares. -/
theorem addSq_apply (x0 : Vec Ideal S5000x128 .f32) (m s g b a : Vec Ideal S1x128 .f32) (u : Fin 1) (q : Fin 128) :
    k4_pay1 (F := Ideal) (k4_pay6 a) (k4_pay7 x0 m s g b) (ix2 u q)
      = a (ix2 u q) + ∑ y : Fin 5000, k4_pay4 (F := Ideal) x0 m s g b (ix2 y q) * k4_pay4 (F := Ideal) x0 m s g b (ix2 y q) := by
  unfold k4_pay1 k4_pay6 k4_pay7
  rw [addf_apply, shapeCast_self a, shapeCast_a_1a_apply, colSum_f32_apply]
  rfl

variable (V : (c : Dev nD) → (b : Ref sig .tc) → Buf (Elt Ideal) ((c : Thread nD τ).loc b))

/-- The launch's first result: the second layer's array normalised and rectified. -/
def Y (c : Dev nD) : FV S50000x128 :=
  Ref.relu (Ker.bnApply (V c main_v73) (V c main_v76) (V c main_v85) (V c main_v86) (V c main_v87))

/-- The tiles' positions, decided over the ten grid points. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem tile_read (c : Dev nD) (t : Fin cfg4.N) (y : Fin 5000) (k : Fin 128) :
    iblk4 V c 0 t (ix2 y k) = V c main_v73 (ix2 (tileRow 50000 5000 (by decide) t.val y) k) := by
  have e := idx_facts t
  have hN : cfg4.N = 10 := N_4
  have ht := t.isLt
  have hy := y.isLt
  show V c main_v73 (((cfg4.win 0).blk t).view.emb (ix2 y k)) = _
  refine congrArg (V c main_v73) ?_
  funext a; apply Fin.ext
  match a with
  | ⟨0, _⟩ =>
    show win4_0.index t (0 : Fin 2) * 5000 + 1 * y.val = (tileRow 50000 5000 (by decide) t.val y).val
    rw [tileRow_val (by decide) t.val y (by omega)]; omega
  | ⟨1, _⟩ => show win4_0.index t (1 : Fin 2) * 128 + 1 * k.val = k.val; omega

theorem row1_read (c : Dev nD) (t : Fin cfg4.N) (k : Fin 128) : iblk4 V c 1 t (ix2 (0 : Fin 1) k) = V c main_v76 (ix2 (0 : Fin 1) k) := by
  have e := idx_facts t
  show V c main_v76 (((cfg4.win 1).blk t).view.emb (ix2 (0 : Fin 1) k)) = _
  refine congrArg (V c main_v76) ?_
  funext a; apply Fin.ext
  match a with
  | ⟨0, _⟩ => show win4_1.index t (0 : Fin 2) * 1 + 1 * 0 = 0; omega
  | ⟨1, _⟩ => show win4_1.index t (1 : Fin 2) * 128 + 1 * k.val = k.val; omega

theorem row2_read (c : Dev nD) (t : Fin cfg4.N) (k : Fin 128) : iblk4 V c 2 t (ix2 (0 : Fin 1) k) = V c main_v85 (ix2 (0 : Fin 1) k) := by
  have e := idx_facts t
  show V c main_v85 (((cfg4.win 2).blk t).view.emb (ix2 (0 : Fin 1) k)) = _
  refine congrArg (V c main_v85) ?_
  funext a; apply Fin.ext
  match a with
  | ⟨0, _⟩ => show win4_2.index t (0 : Fin 2) * 1 + 1 * 0 = 0; omega
  | ⟨1, _⟩ => show win4_2.index t (1 : Fin 2) * 128 + 1 * k.val = k.val; omega

theorem row3_read (c : Dev nD) (t : Fin cfg4.N) (k : Fin 128) : iblk4 V c 3 t (ix2 (0 : Fin 1) k) = V c main_v86 (ix2 (0 : Fin 1) k) := by
  have e := idx_facts t
  show V c main_v86 (((cfg4.win 3).blk t).view.emb (ix2 (0 : Fin 1) k)) = _
  refine congrArg (V c main_v86) ?_
  funext a; apply Fin.ext
  match a with
  | ⟨0, _⟩ => show win4_3.index t (0 : Fin 2) * 1 + 1 * 0 = 0; omega
  | ⟨1, _⟩ => show win4_3.index t (1 : Fin 2) * 128 + 1 * k.val = k.val; omega

theorem row4_read (c : Dev nD) (t : Fin cfg4.N) (k : Fin 128) : iblk4 V c 4 t (ix2 (0 : Fin 1) k) = V c main_v87 (ix2 (0 : Fin 1) k) := by
  have e := idx_facts t
  show V c main_v87 (((cfg4.win 4).blk t).view.emb (ix2 (0 : Fin 1) k)) = _
  refine congrArg (V c main_v87) ?_
  funext a; apply Fin.ext
  match a with
  | ⟨0, _⟩ => show win4_4.index t (0 : Fin 2) * 1 + 1 * 0 = 0; omega
  | ⟨1, _⟩ => show win4_4.index t (1 : Fin 2) * 128 + 1 * k.val = k.val; omega

/-- Tile t's rectified normalised entry (y, k) is Y's entry in that tile. -/
theorem ytile_read (c : Dev nD) (t : Fin cfg4.N) (y : Fin 5000) (k : Fin 128) :
    k4_pay4 (F := Ideal) (iblk4 V c 0 t) (iblk4 V c 1 t) (iblk4 V c 2 t) (iblk4 V c 3 t) (iblk4 V c 4 t) (ix2 y k) = Y V c (ix2 (tileRow 50000 5000 (by decide) t.val y) k) := by
  rw [ytile_apply, tile_read V c t y k, row1_read V c t k, row2_read V c t k, row3_read V c t k, row4_read V c t k]
  rfl

/-- The three outputs after the first tile, as the body's arithmetic. -/
theorem outsA (c : Dev nD) (t : Fin cfg4.N) (h0 : t.val % 10 = 0) :
    outsAt4 V c t.val t.isLt
      = (k4_pay4 (F := Ideal) (iblk4 V c 0 t) (iblk4 V c 1 t) (iblk4 V c 2 t) (iblk4 V c 3 t) (iblk4 V c 4 t), k4_pay5 (F := Ideal) (iblk4 V c 0 t) (iblk4 V c 1 t) (iblk4 V c 2 t) (iblk4 V c 3 t) (iblk4 V c 4 t) (k4_pay2 (F := Ideal)),
         k4_pay1 (F := Ideal) (k4_pay6 (k4_pay3 (F := Ideal))) (k4_pay7 (iblk4 V c 0 t) (iblk4 V c 1 t) (iblk4 V c 2 t) (iblk4 V c 3 t) (iblk4 V c 4 t))) := by
  refine (outsAt4_A V c t h0).trans ?_
  rw [pA5, pA6, pA7]

/-- The three outputs after a later tile, over what the point before left in the two accumulators. -/
theorem outsB (c : Dev nD) (t : Fin cfg4.N) (h0 : ¬ t.val % 10 = 0) :
    outsAt4 V c t.val t.isLt
      = (k4_pay4 (F := Ideal) (iblk4 V c 0 t) (iblk4 V c 1 t) (iblk4 V c 2 t) (iblk4 V c 3 t) (iblk4 V c 4 t), k4_pay5 (F := Ideal) (iblk4 V c 0 t) (iblk4 V c 1 t) (iblk4 V c 2 t) (iblk4 V c 3 t) (iblk4 V c 4 t) (outsAt4 V c (t.val - 1) (Nat.lt_of_le_of_lt (Nat.sub_le _ _) t.isLt)).2.1,
         k4_pay1 (F := Ideal) (k4_pay6 (outsAt4 V c (t.val - 1) (Nat.lt_of_le_of_lt (Nat.sub_le _ _) t.isLt)).2.2) (k4_pay7 (iblk4 V c 0 t) (iblk4 V c 1 t) (iblk4 V c 2 t) (iblk4 V c 3 t) (iblk4 V c 4 t))) := by
  refine (outsAt4_B V c t h0).trans ?_
  rw [pB5, pB6, pB7]

/-- The first output after any point: the point's rectified normalised tile. -/
theorem outs_y (c : Dev nD) (t : Fin cfg4.N) : (outsAt4 V c t.val t.isLt).1 = k4_pay4 (F := Ideal) (iblk4 V c 0 t) (iblk4 V c 1 t) (iblk4 V c 2 t) (iblk4 V c 3 t) (iblk4 V c 4 t) := by
  by_cases h0 : t.val % 10 = 0
  · rw [outsA V c t h0]
  · rw [outsB V c t h0]

/-- After point n the two accumulators hold Y's column sums and sums of squares over tiles 0 … n. -/
theorem outs_acc (c : Dev nD) : ∀ (n : ℕ) (hn : n < cfg4.N),
    (outsAt4 V c n hn).2 = (partSum (Y V c) n, partSq (Y V c) n)
  | 0, hn => by
    rw [show outsAt4 V c 0 hn = _ from outsA V c ⟨0, hn⟩ (Nat.zero_mod _)]
    refine Prod.ext (funext fun i => ?_) (funext fun i => ?_)
    · obtain ⟨u, q, rfl⟩ : ∃ (u : Fin 1) (q : Fin 128), i = ix2 u q := ⟨i 0, i 1, eq_ix2 i⟩
      show k4_pay5 (F := Ideal) (iblk4 V c 0 ⟨0, hn⟩) (iblk4 V c 1 ⟨0, hn⟩) (iblk4 V c 2 ⟨0, hn⟩) (iblk4 V c 3 ⟨0, hn⟩) (iblk4 V c 4 ⟨0, hn⟩) (k4_pay2 (F := Ideal)) (ix2 u q) = partSum (Y V c) 0 (ix2 u q)
      rw [addSum_apply, zeros2_apply, zero_add]
      unfold partSum
      rw [Finset.sum_range_one]
      exact Finset.sum_congr rfl fun y _ => ytile_read V c ⟨0, hn⟩ y q
    · obtain ⟨u, q, rfl⟩ : ∃ (u : Fin 1) (q : Fin 128), i = ix2 u q := ⟨i 0, i 1, eq_ix2 i⟩
      show k4_pay1 (F := Ideal) (k4_pay6 (k4_pay3 (F := Ideal))) (k4_pay7 (iblk4 V c 0 ⟨0, hn⟩) (iblk4 V c 1 ⟨0, hn⟩) (iblk4 V c 2 ⟨0, hn⟩) (iblk4 V c 3 ⟨0, hn⟩) (iblk4 V c 4 ⟨0, hn⟩)) (ix2 u q) = partSq (Y V c) 0 (ix2 u q)
      rw [addSq_apply, zeros3_apply, zero_add]
      unfold partSq
      rw [Finset.sum_range_one]
      exact Finset.sum_congr rfl fun y _ => by rw [ytile_read V c ⟨0, hn⟩ y q]
  | n + 1, hn => by
    have hN : cfg4.N = 10 := N_4
    have h0 : ¬ (n + 1) % 10 = 0 := by omega
    have ih := outs_acc c n (Nat.lt_of_succ_lt hn)
    have ih1 : (outsAt4 V c n (Nat.lt_of_succ_lt hn)).2.1 = partSum (Y V c) n := congrArg Prod.fst ih
    have ih2 : (outsAt4 V c n (Nat.lt_of_succ_lt hn)).2.2 = partSq (Y V c) n := congrArg Prod.snd ih
    rw [show outsAt4 V c (n + 1) hn = _ from outsB V c ⟨n + 1, hn⟩ h0]
    refine Prod.ext (funext fun i => ?_) (funext fun i => ?_)
    · obtain ⟨u, q, rfl⟩ : ∃ (u : Fin 1) (q : Fin 128), i = ix2 u q := ⟨i 0, i 1, eq_ix2 i⟩
      show k4_pay5 (F := Ideal) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 V c n (Nat.lt_of_succ_lt hn)).2.1 (ix2 u q) = partSum (Y V c) (n + 1) (ix2 u q)
      rw [addSum_apply, ih1]
      unfold partSum
      rw [Finset.sum_range_succ _ (n + 1)]
      exact congrArg _ (Finset.sum_congr rfl fun y _ => ytile_read V c ⟨n + 1, hn⟩ y q)
    · obtain ⟨u, q, rfl⟩ : ∃ (u : Fin 1) (q : Fin 128), i = ix2 u q := ⟨i 0, i 1, eq_ix2 i⟩
      show k4_pay1 (F := Ideal) (k4_pay6 (outsAt4 V c n (Nat.lt_of_succ_lt hn)).2.2) (k4_pay7 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩)) (ix2 u q) = partSq (Y V c) (n + 1) (ix2 u q)
      rw [addSq_apply, ih2]
      unfold partSq
      rw [Finset.sum_range_succ _ (n + 1)]
      exact congrArg _ (Finset.sum_congr rfl fun y _ => by rw [ytile_read V c ⟨n + 1, hn⟩ y q])

/-! ## What is written back, and the arrays the launch leaves -/

theorem out_emb (t : Fin cfg4.N) (y : Fin 5000) (q : Fin 128) :
    ((cfg4.win 5).blk t).view.emb (ix2 y q) = ix2 (tileRow 50000 5000 (by decide) t.val y) q := by
  have e := idx_facts t
  have hN : cfg4.N = 10 := N_4
  have ht := t.isLt
  have hy := y.isLt
  funext a; apply Fin.ext
  match a with
  | ⟨0, _⟩ =>
    show win4_5.index t (0 : Fin 2) * 5000 + 1 * y.val = (tileRow 50000 5000 (by decide) t.val y).val
    rw [tileRow_val (by decide) t.val y (by omega)]; omega
  | ⟨1, _⟩ => show win4_5.index t (1 : Fin 2) * 128 + 1 * q.val = q.val; omega

theorem acc_emb6 (t : Fin cfg4.N) (u : Fin 1) (q : Fin 128) :
    ((cfg4.win 6).blk t).view.emb (ix2 u q) = ix2 (0 : Fin 1) q := by
  have e := idx_facts t
  have hu : u.val = 0 := by omega
  funext a; apply Fin.ext
  match a with
  | ⟨0, _⟩ => show win4_6.index t (0 : Fin 2) * 1 + 1 * u.val = 0; omega
  | ⟨1, _⟩ => show win4_6.index t (1 : Fin 2) * 128 + 1 * q.val = q.val; omega

theorem acc_emb7 (t : Fin cfg4.N) (u : Fin 1) (q : Fin 128) :
    ((cfg4.win 7).blk t).view.emb (ix2 u q) = ix2 (0 : Fin 1) q := by
  have e := idx_facts t
  have hu : u.val = 0 := by omega
  funext a; apply Fin.ext
  match a with
  | ⟨0, _⟩ => show win4_7.index t (0 : Fin 2) * 1 + 1 * u.val = 0; omega
  | ⟨1, _⟩ => show win4_7.index t (1 : Fin 2) * 128 + 1 * q.val = q.val; omega

attribute [local irreducible] Y in
/-- Every point writes back its tile of Y. -/
theorem flushed_y (c : Dev nD) (t : Fin cfg4.N) :
    (dat4 V c).flushed 5 t = ((cfg4.win 5).blk t).view.read (Elt Ideal) (Y V c) := by
  show (cfg4.win 5).cut (grid4.coords t) ((dat4 V c).after 5 t) = _
  rw [after4_5, outs_y V c t]
  funext j
  obtain ⟨y, q, rfl⟩ : ∃ (y : Fin 5000) (q : Fin 128), j = ix2 y q := ⟨j 0, j 1, eq_ix2 j⟩
  show k4_pay4 (F := Ideal) (iblk4 V c 0 t) (iblk4 V c 1 t) (iblk4 V c 2 t) (iblk4 V c 3 t) (iblk4 V c 4 t) (ix2 y q) = Y V c (((cfg4.win 5).blk t).view.emb (ix2 y q))
  rw [out_emb t y q]
  exact ytile_read V c t y q

attribute [local irreducible] Y partSum partSq Cert.Gcn.Ker.sumRow Cert.Gcn.Ker.sqRow in
/-- The last point writes back Y's column sums. -/
theorem flushed_sum (c : Dev nD) (t : Fin cfg4.N) (hf : (cfg4.win 6).flush t = true) :
    (dat4 V c).flushed 6 t = ((cfg4.win 6).blk t).view.read (Elt Ideal) (Ker.sumRow (Y V c)) := by
  have hN : cfg4.N = 10 := N_4
  have h9 : t.val = 9 := by have := (flush4_6 t).mp hf; have := t.isLt; omega
  show (cfg4.win 6).cut (grid4.coords t) ((dat4 V c).after 6 t) = _
  rw [after4_6, outs_acc V c t.val t.isLt]
  funext j
  obtain ⟨u, q, rfl⟩ : ∃ (u : Fin 1) (q : Fin 128), j = ix2 u q := ⟨j 0, j 1, eq_ix2 j⟩
  show partSum (Y V c) t.val (ix2 u q) = Ker.sumRow (Y V c) (((cfg4.win 6).blk t).view.emb (ix2 u q))
  rw [acc_emb6 t u q, h9]
  exact total_sum (Y V c) u q

attribute [local irreducible] Y partSum partSq Cert.Gcn.Ker.sumRow Cert.Gcn.Ker.sqRow in
/-- The last point writes back Y's column sums of squares. -/
theorem flushed_sq (c : Dev nD) (t : Fin cfg4.N) (hf : (cfg4.win 7).flush t = true) :
    (dat4 V c).flushed 7 t = ((cfg4.win 7).blk t).view.read (Elt Ideal) (Ker.sqRow (Y V c)) := by
  have hN : cfg4.N = 10 := N_4
  have h9 : t.val = 9 := by have := (flush4_7 t).mp hf; have := t.isLt; omega
  show (cfg4.win 7).cut (grid4.coords t) ((dat4 V c).after 7 t) = _
  rw [after4_7, outs_acc V c t.val t.isLt]
  funext j
  obtain ⟨u, q, rfl⟩ : ∃ (u : Fin 1) (q : Fin 128), j = ix2 u q := ⟨j 0, j 1, eq_ix2 j⟩
  show partSq (Y V c) t.val (ix2 u q) = Ker.sqRow (Y V c) (((cfg4.win 7).blk t).view.emb (ix2 u q))
  rw [acc_emb7 t u q, h9]
  exact total_sq (Y V c) u q

/-- The last grid point. -/
def tLast : Fin cfg4.N := ⟨9, by rw [show cfg4.N = 10 from N_4]; decide⟩

theorem mem_blk5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v88_0).slice (win4_5.rect t)).set ↔ _
  rw [View.set_slice_whole, Rect.mem_set_unit]
  exact Iff.rfl

theorem cover5 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  have e := idx_facts t
  have ht : t.val = (i 0).val / 5000 := rfl
  refine ⟨t, flush4_5 t, ?_⟩
  rw [mem_blk5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

theorem mem_blk6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v88_1).slice (win4_6.rect t)).set ↔ _
  rw [View.set_slice_whole, Rect.mem_set_unit]
  exact Iff.rfl

theorem cover6 (i : S1x128.Idx) : ∃ t : Fin cfg4.N, (cfg4.win 6).flush t = true ∧ i ∈ ((cfg4.win 6).blk t).view.set := by
  have hi0 : (i 0).val < 1 := (i 0).isLt
  have hi1 : (i 1).val < 128 := (i 1).isLt
  have e := idx_facts tLast
  refine ⟨tLast, (flush4_6 tLast).mpr rfl, ?_⟩
  rw [mem_blk6]
  intro a
  match a with
  | ⟨0, _⟩ => show win4_6.index tLast (0 : Fin 2) * 1 ≤ (i 0).val ∧ (i 0).val < win4_6.index tLast (0 : Fin 2) * 1 + 1; omega
  | ⟨1, _⟩ => show win4_6.index tLast (1 : Fin 2) * 128 ≤ (i 1).val ∧ (i 1).val < win4_6.index tLast (1 : Fin 2) * 128 + 128; omega

theorem mem_blk7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v88_2).slice (win4_7.rect t)).set ↔ _
  rw [View.set_slice_whole, Rect.mem_set_unit]
  exact Iff.rfl

theorem cover7 (i : S1x128.Idx) : ∃ t : Fin cfg4.N, (cfg4.win 7).flush t = true ∧ i ∈ ((cfg4.win 7).blk t).view.set := by
  have hi0 : (i 0).val < 1 := (i 0).isLt
  have hi1 : (i 1).val < 128 := (i 1).isLt
  have e := idx_facts tLast
  refine ⟨tLast, (flush4_7 tLast).mpr rfl, ?_⟩
  rw [mem_blk7]
  intro a
  match a with
  | ⟨0, _⟩ => show win4_7.index tLast (0 : Fin 2) * 1 ≤ (i 0).val ∧ (i 0).val < win4_7.index tLast (0 : Fin 2) * 1 + 1; omega
  | ⟨1, _⟩ => show win4_7.index tLast (1 : Fin 2) * 128 ≤ (i 1).val ∧ (i 1).val < win4_7.index tLast (1 : Fin 2) * 128 + 128; omega

/-- The launch's first result is Y. -/
theorem final_y (c : Dev nD) : (dat4 V c).arrAt 5 cfg4.N = Y V c :=
  (dat4 V c).arrAt_eq_of_cover 5 _ (fun t _ => flushed_y V c t) cover5

/-- Its second result: Y's column sums. -/
theorem final_sum (c : Dev nD) : (dat4 V c).arrAt 6 cfg4.N = Ker.sumRow (Y V c) :=
  (dat4 V c).arrAt_eq_of_cover 6 _ (fun t hf => flushed_sum V c t hf) cover6

/-- Its third result: Y's column sums of squares. -/
theorem final_sq (c : Dev nD) : (dat4 V c).arrAt 7 cfg4.N = Ker.sqRow (Y V c) :=
  (dat4 V c).arrAt_eq_of_cover 7 _ (fun t hf => flushed_sq V c t hf) cover7

end Cert.KernelIdeal.Region4

end
-- ==== Proof.KerTower.lean ====
/-
  The kernel program's buffers read back, boundary by boundary: what each array holds when each launch is entered,
  as a function of the fourteen argument arrays — the edges' endpoints and the inverse root degrees, the first
  dense product, the first layer, its column statistics, the second product, the second layer, its statistics,
  the rectified normalised second layer with the statistics taken on the way.
-/
import proofs.«124287_j84756884620023_2_alg».proof.Proof.KerRun
import proofs.«124287_j84756884620023_2_alg».proof.Proof.KerRegion0
import proofs.«124287_j84756884620023_2_alg».proof.Proof.KerRegion1
import proofs.«124287_j84756884620023_2_alg».proof.Proof.KerRegion2
import proofs.«124287_j84756884620023_2_alg».proof.Proof.KerRegion3
import proofs.«124287_j84756884620023_2_alg».proof.Proof.KerRegion4
import Idealize.ShloMosaic.Lib.StableHlo.Run

set_option maxRecDepth 16384

noncomputable section

namespace Cert.KernelIdeal.Tower

open Cert.KernelIdeal Cert.KernelIdeal.Gen
open Idealize.ShloMosaic Idealize.ShloMosaic.TcCoe Idealize.ShloMosaic.ValueIdx Idealize.ShloMosaic.StableHlo
open Cert.Gcn

variable (m : (ℓ : Loc nD τ sig) → Buf (Elt Ideal) ℓ) (ρ : Dev nD → PrngReg) (c : Dev nD)

/-! ## The kernel program's intermediate arrays, as functions of the arguments -/

/-- The first dense product. -/
def xw1 : FV S50000x128 := Ref.mm (m ((c : Thread nD τ).loc main_arg0)) (m ((c : Thread nD τ).loc main_arg2))
/-- The first layer. -/
def h1 : FV S50000x128 := Ker.conv (m ((c : Thread nD τ).loc main_arg1)) (xw1 m c) (m ((c : Thread nD τ).loc main_arg3))
/-- The second dense product, of the rectified normalised first layer. -/
def xw2 : FV S50000x128 :=
  Ref.mm (Ref.relu (Ker.bnApply (h1 m c) (Ker.meanOf (Ker.sumRow (h1 m c))) (Ker.invstdOf (Ker.sumRow (h1 m c)) (Ker.sqRow (h1 m c)))
    (Ker.asRow (m ((c : Thread nD τ).loc main_arg6))) (Ker.asRow (m ((c : Thread nD τ).loc main_arg7))))) (m ((c : Thread nD τ).loc main_arg4))
/-- The second layer. -/
def h2 : FV S50000x128 := Ker.conv (m ((c : Thread nD τ).loc main_arg1)) (xw2 m c) (m ((c : Thread nD τ).loc main_arg5))
/-- The rectified normalised second layer. -/
def yy : FV S50000x128 :=
  Ref.relu (Ker.bnApply (h2 m c) (Ker.meanOf (Ker.sumRow (h2 m c))) (Ker.invstdOf (Ker.sumRow (h2 m c)) (Ker.sqRow (h2 m c)))
    (Ker.asRow (m ((c : Thread nD τ).loc main_arg8))) (Ker.asRow (m ((c : Thread nD τ).loc main_arg9))))

/-! ## The argument arrays are never written -/

theorem a1_arg0 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a1_arg2 : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a2_arg3 : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a4_arg6 : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a4_arg7 : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a5_arg4 : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a6_arg5 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a8_arg8 : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a8_arg9 : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a10_arg10 : W10 m ρ c (Proc.devRef .tc main_arg10) = W0 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a10_arg11 : W10 m ρ c (Proc.devRef .tc main_arg11) = W0 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a10_arg13 : W10 m ρ c (Proc.devRef .tc main_arg13) = W0 m ρ c (Proc.devRef .tc main_arg13) :=
  calc W10 m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem a11_arg12 : W11 m ρ c (Proc.devRef .tc main_arg12) = W0 m ρ c (Proc.devRef .tc main_arg12) :=
  calc W11 m ρ c (Proc.devRef .tc main_arg12)
    _ = W10 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## After the first stretch of host operations: the edges' endpoints and the inverse root degrees -/

attribute [local irreducible] Host.scatterAdd Host.gather Host.reduceAdd W2 W4 W6 W8 W10 in
theorem w1_v1 : W1 m ρ c (Proc.devRef .tc main_v1) = Ker.srcV (m ((c : Thread nD τ).loc main_arg1)) := by
  show StableHlo.after hostOps0 (W0 m ρ c) (Proc.devRef .tc main_v1) = _
  after_results
  skip
  rfl

attribute [local irreducible] Host.scatterAdd Host.gather Host.reduceAdd W2 W4 W6 W8 W10 in
theorem w1_v3 : W1 m ρ c (Proc.devRef .tc main_v3) = Ker.dstV (m ((c : Thread nD τ).loc main_arg1)) := by
  show StableHlo.after hostOps0 (W0 m ρ c) (Proc.devRef .tc main_v3) = _
  after_results
  skip
  rfl

attribute [local irreducible] Host.scatterAdd Host.gather Host.reduceAdd W2 W4 W6 W8 W10 in
theorem w1_v10 : W1 m ρ c (Proc.devRef .tc main_v10) = Ker.dinv (m ((c : Thread nD τ).loc main_arg1)) := by
  show StableHlo.after hostOps0 (W0 m ρ c) (Proc.devRef .tc main_v10) = _
  after_results
  skip
  rfl

attribute [local irreducible] Host.scatterAdd Host.gather Host.reduceAdd W2 W4 W6 W8 W10 in
theorem w1_v11 : W1 m ρ c (Proc.devRef .tc main_v11) = mulf (Ker.dinv (m ((c : Thread nD τ).loc main_arg1))) (Ker.dinv (m ((c : Thread nD τ).loc main_arg1))) := by
  show StableHlo.after hostOps0 (W0 m ρ c) (Proc.devRef .tc main_v11) = _
  after_results
  skip
  rfl

/-! ## They are carried, untouched, to the two stretches that use them -/

theorem c2_v1 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem c6_v1 : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem c2_v3 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem c6_v3 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem c2_v10 : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

theorem c6_v10 : W6 m ρ c (Proc.devRef .tc main_v10) = W1 m ρ c (Proc.devRef .tc main_v10) :=
  calc W6 m ρ c (Proc.devRef .tc main_v10)
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := W2_of_ne m ρ c main_v10 (by decide)

theorem c2_v11 : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)

theorem c6_v11 : W6 m ρ c (Proc.devRef .tc main_v11) = W1 m ρ c (Proc.devRef .tc main_v11) :=
  calc W6 m ρ c (Proc.devRef .tc main_v11)
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := W4_of_ne m ρ c main_v11 (by decide)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)

theorem w2_v1 : W2 m ρ c (Proc.devRef .tc main_v1) = Ker.srcV (m ((c : Thread nD τ).loc main_arg1)) := (c2_v1 m ρ c).trans (w1_v1 m ρ c)
theorem w6_v1 : W6 m ρ c (Proc.devRef .tc main_v1) = Ker.srcV (m ((c : Thread nD τ).loc main_arg1)) := (c6_v1 m ρ c).trans (w1_v1 m ρ c)
theorem w2_v3 : W2 m ρ c (Proc.devRef .tc main_v3) = Ker.dstV (m ((c : Thread nD τ).loc main_arg1)) := (c2_v3 m ρ c).trans (w1_v3 m ρ c)
theorem w6_v3 : W6 m ρ c (Proc.devRef .tc main_v3) = Ker.dstV (m ((c : Thread nD τ).loc main_arg1)) := (c6_v3 m ρ c).trans (w1_v3 m ρ c)
theorem w2_v10 : W2 m ρ c (Proc.devRef .tc main_v10) = Ker.dinv (m ((c : Thread nD τ).loc main_arg1)) := (c2_v10 m ρ c).trans (w1_v10 m ρ c)
theorem w6_v10 : W6 m ρ c (Proc.devRef .tc main_v10) = Ker.dinv (m ((c : Thread nD τ).loc main_arg1)) := (c6_v10 m ρ c).trans (w1_v10 m ρ c)
theorem w2_v11 : W2 m ρ c (Proc.devRef .tc main_v11) = mulf (Ker.dinv (m ((c : Thread nD τ).loc main_arg1))) (Ker.dinv (m ((c : Thread nD τ).loc main_arg1))) := (c2_v11 m ρ c).trans (w1_v11 m ρ c)
theorem w6_v11 : W6 m ρ c (Proc.devRef .tc main_v11) = mulf (Ker.dinv (m ((c : Thread nD τ).loc main_arg1))) (Ker.dinv (m ((c : Thread nD τ).loc main_arg1))) := (c6_v11 m ρ c).trans (w1_v11 m ρ c)

/-! ## The first launch and the first layer -/

theorem w2_v12 : W2 m ρ c (Proc.devRef .tc main_v12) = xw1 m c := by
  refine (W2_arr m ρ c 2).trans ((Cert.KernelIdeal.RegionValue.final0 (V1 m ρ) c).trans ?_)
  unfold xw1
  rw [show V1 m ρ c main_arg0 = (m ((c : Thread nD τ).loc main_arg0)) from a1_arg0 m ρ c, show V1 m ρ c main_arg2 = (m ((c : Thread nD τ).loc main_arg2)) from a1_arg2 m ρ c]

set_option maxHeartbeats 4000000 in
attribute [local irreducible] Host.scatterAdd Host.gather Host.reduceAdd W2 W4 W6 W8 W10 in
theorem w3_v35 : W3 m ρ c (Proc.devRef .tc main_v35) = h1 m c := by
  show StableHlo.after hostOps1 (W2 m ρ c) (Proc.devRef .tc main_v35) = _
  after_results_simp
  rw [w2_v10 m ρ c, w2_v12 m ρ c, w2_v1 m ρ c, w2_v3 m ρ c, w2_v11 m ρ c, show W2 m ρ c (Proc.devRef .tc main_arg3) = (m ((c : Thread nD τ).loc main_arg3)) from a2_arg3 m ρ c]
  rfl

/-! ## Its column statistics -/

theorem w4_v36_0 : W4 m ρ c (Proc.devRef .tc main_v36_0) = Ker.sumRow (h1 m c) :=
  (W4_arr m ρ c 1).trans ((Cert.KernelIdeal.Region1.final_sum (V3 m ρ) c).trans (congrArg Ker.sumRow (w3_v35 m ρ c)))
theorem w4_v36_1 : W4 m ρ c (Proc.devRef .tc main_v36_1) = Ker.sqRow (h1 m c) :=
  (W4_arr m ρ c 2).trans ((Cert.KernelIdeal.Region1.final_sq (V3 m ρ) c).trans (congrArg Ker.sqRow (w3_v35 m ρ c)))

theorem c5_v35 : W5 m ρ c (Proc.devRef .tc main_v35) = W3 m ρ c (Proc.devRef .tc main_v35) :=
  calc W5 m ρ c (Proc.devRef .tc main_v35)
    _ = W4 m ρ c (Proc.devRef .tc main_v35) := StableHlo.after_of_forall_not_mem (b := Proc.devRef .tc main_v35) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v35) := (W4_arr m ρ c 0).trans (((dat1 (V3 m ρ) c).arrAt_in 0 rfl _).trans (A_eq1 (V3 m ρ) c 0))

theorem w5_v35 : W5 m ρ c (Proc.devRef .tc main_v35) = h1 m c := (c5_v35 m ρ c).trans (w3_v35 m ρ c)

attribute [local irreducible] Host.scatterAdd Host.gather Host.reduceAdd W2 W4 W6 W8 W10 in
theorem w5_v38 : W5 m ρ c (Proc.devRef .tc main_v38) = Ker.meanOf (Ker.sumRow (h1 m c)) := by
  show StableHlo.after hostOps2 (W4 m ρ c) (Proc.devRef .tc main_v38) = _
  after_results
  rw [w4_v36_0 m ρ c]
  rfl

attribute [local irreducible] Host.scatterAdd Host.gather Host.reduceAdd W2 W4 W6 W8 W10 in
theorem w5_v47 : W5 m ρ c (Proc.devRef .tc main_v47) = Ker.invstdOf (Ker.sumRow (h1 m c)) (Ker.sqRow (h1 m c)) := by
  show StableHlo.after hostOps2 (W4 m ρ c) (Proc.devRef .tc main_v47) = _
  after_results
  rw [w4_v36_0 m ρ c, w4_v36_1 m ρ c]
  rfl

attribute [local irreducible] Host.scatterAdd Host.gather Host.reduceAdd W2 W4 W6 W8 W10 in
theorem w5_v48 : W5 m ρ c (Proc.devRef .tc main_v48) = Ker.asRow (m ((c : Thread nD τ).loc main_arg6)) := by
  show StableHlo.after hostOps2 (W4 m ρ c) (Proc.devRef .tc main_v48) = _
  after_results
  rw [show W4 m ρ c (Proc.devRef .tc main_arg6) = (m ((c : Thread nD τ).loc main_arg6)) from a4_arg6 m ρ c]
  rfl

attribute [local irreducible] Host.scatterAdd Host.gather Host.reduceAdd W2 W4 W6 W8 W10 in
theorem w5_v49 : W5 m ρ c (Proc.devRef .tc main_v49) = Ker.asRow (m ((c : Thread nD τ).loc main_arg7)) := by
  show StableHlo.after hostOps2 (W4 m ρ c) (Proc.devRef .tc main_v49) = _
  after_results
  rw [show W4 m ρ c (Proc.devRef .tc main_arg7) = (m ((c : Thread nD τ).loc main_arg7)) from a4_arg7 m ρ c]
  rfl

/-! ## The third launch and the second layer -/

theorem w6_v50 : W6 m ρ c (Proc.devRef .tc main_v50) = xw2 m c := by
  refine (W6_arr m ρ c 6).trans ((Cert.KernelIdeal.Region2.final (V5 m ρ) c).trans ?_)
  unfold Cert.KernelIdeal.Region2.result xw2
  rw [show V5 m ρ c main_v35 = h1 m c from w5_v35 m ρ c, show V5 m ρ c main_v38 = _ from w5_v38 m ρ c,
    show V5 m ρ c main_v47 = _ from w5_v47 m ρ c, show V5 m ρ c main_v48 = _ from w5_v48 m ρ c,
    show V5 m ρ c main_v49 = _ from w5_v49 m ρ c, show V5 m ρ c main_arg4 = (m ((c : Thread nD τ).loc main_arg4)) from a5_arg4 m ρ c]

set_option maxHeartbeats 4000000 in
attribute [local irreducible] Host.scatterAdd Host.gather Host.reduceAdd W2 W4 W6 W8 W10 in
theorem w7_v73 : W7 m ρ c (Proc.devRef .tc main_v73) = h2 m c := by
  show StableHlo.after hostOps3 (W6 m ρ c) (Proc.devRef .tc main_v73) = _
  after_results_simp
  rw [w6_v10 m ρ c, w6_v50 m ρ c, w6_v1 m ρ c, w6_v3 m ρ c, w6_v11 m ρ c, show W6 m ρ c (Proc.devRef .tc main_arg5) = (m ((c : Thread nD τ).loc main_arg5)) from a6_arg5 m ρ c]
  rfl

theorem w8_v74_0 : W8 m ρ c (Proc.devRef .tc main_v74_0) = Ker.sumRow (h2 m c) :=
  (W8_arr m ρ c 1).trans ((Cert.KernelIdeal.Region3.final_sum (V7 m ρ) c).trans (congrArg Ker.sumRow (w7_v73 m ρ c)))
theorem w8_v74_1 : W8 m ρ c (Proc.devRef .tc main_v74_1) = Ker.sqRow (h2 m c) :=
  (W8_arr m ρ c 2).trans ((Cert.KernelIdeal.Region3.final_sq (V7 m ρ) c).trans (congrArg Ker.sqRow (w7_v73 m ρ c)))

theorem c9_v73 : W9 m ρ c (Proc.devRef .tc main_v73) = W7 m ρ c (Proc.devRef .tc main_v73) :=
  calc W9 m ρ c (Proc.devRef .tc main_v73)
    _ = W8 m ρ c (Proc.devRef .tc main_v73) := StableHlo.after_of_forall_not_mem (b := Proc.devRef .tc main_v73) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v73) := (W8_arr m ρ c 0).trans (((dat3 (V7 m ρ) c).arrAt_in 0 rfl _).trans (A_eq3 (V7 m ρ) c 0))

theorem w9_v73 : W9 m ρ c (Proc.devRef .tc main_v73) = h2 m c := (c9_v73 m ρ c).trans (w7_v73 m ρ c)

attribute [local irreducible] Host.scatterAdd Host.gather Host.reduceAdd W2 W4 W6 W8 W10 in
theorem w9_v76 : W9 m ρ c (Proc.devRef .tc main_v76) = Ker.meanOf (Ker.sumRow (h2 m c)) := by
  show StableHlo.after hostOps4 (W8 m ρ c) (Proc.devRef .tc main_v76) = _
  after_results
  rw [w8_v74_0 m ρ c]
  rfl

attribute [local irreducible] Host.scatterAdd Host.gather Host.reduceAdd W2 W4 W6 W8 W10 in
theorem w9_v85 : W9 m ρ c (Proc.devRef .tc main_v85) = Ker.invstdOf (Ker.sumRow (h2 m c)) (Ker.sqRow (h2 m c)) := by
  show StableHlo.after hostOps4 (W8 m ρ c) (Proc.devRef .tc main_v85) = _
  after_results
  rw [w8_v74_0 m ρ c, w8_v74_1 m ρ c]
  rfl

attribute [local irreducible] Host.scatterAdd Host.gather Host.reduceAdd W2 W4 W6 W8 W10 in
theorem w9_v86 : W9 m ρ c (Proc.devRef .tc main_v86) = Ker.asRow (m ((c : Thread nD τ).loc main_arg8)) := by
  show StableHlo.after hostOps4 (W8 m ρ c) (Proc.devRef .tc main_v86) = _
  after_results
  rw [show W8 m ρ c (Proc.devRef .tc main_arg8) = (m ((c : Thread nD τ).loc main_arg8)) from a8_arg8 m ρ c]
  rfl

attribute [local irreducible] Host.scatterAdd Host.gather Host.reduceAdd W2 W4 W6 W8 W10 in
theorem w9_v87 : W9 m ρ c (Proc.devRef .tc main_v87) = Ker.asRow (m ((c : Thread nD τ).loc main_arg9)) := by
  show StableHlo.after hostOps4 (W8 m ρ c) (Proc.devRef .tc main_v87) = _
  after_results
  rw [show W8 m ρ c (Proc.devRef .tc main_arg9) = (m ((c : Thread nD τ).loc main_arg9)) from a8_arg9 m ρ c]
  rfl

/-! ## The fifth launch: the rectified normalised second layer and its statistics -/

theorem y_eq : Cert.KernelIdeal.Region4.Y (V9 m ρ) c = yy m c := by
  unfold Cert.KernelIdeal.Region4.Y yy
  rw [show V9 m ρ c main_v73 = h2 m c from w9_v73 m ρ c, show V9 m ρ c main_v76 = _ from w9_v76 m ρ c,
    show V9 m ρ c main_v85 = _ from w9_v85 m ρ c, show V9 m ρ c main_v86 = _ from w9_v86 m ρ c,
    show V9 m ρ c main_v87 = _ from w9_v87 m ρ c]

theorem w10_v88_0 : W10 m ρ c (Proc.devRef .tc main_v88_0) = yy m c :=
  (W10_arr m ρ c 5).trans ((Cert.KernelIdeal.Region4.final_y (V9 m ρ) c).trans (y_eq m ρ c))
theorem w10_v88_1 : W10 m ρ c (Proc.devRef .tc main_v88_1) = Ker.sumRow (yy m c) :=
  (W10_arr m ρ c 6).trans ((Cert.KernelIdeal.Region4.final_sum (V9 m ρ) c).trans (congrArg Ker.sumRow (y_eq m ρ c)))
theorem w10_v88_2 : W10 m ρ c (Proc.devRef .tc main_v88_2) = Ker.sqRow (yy m c) :=
  (W10_arr m ρ c 7).trans ((Cert.KernelIdeal.Region4.final_sq (V9 m ρ) c).trans (congrArg Ker.sqRow (y_eq m ρ c)))

theorem c11_v88_0 : W11 m ρ c (Proc.devRef .tc main_v88_0) = W10 m ρ c (Proc.devRef .tc main_v88_0) :=
  calc W11 m ρ c (Proc.devRef .tc main_v88_0)
    _ = W10 m ρ c (Proc.devRef .tc main_v88_0) := StableHlo.after_of_forall_not_mem (b := Proc.devRef .tc main_v88_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem w11_v88_0 : W11 m ρ c (Proc.devRef .tc main_v88_0) = yy m c := (c11_v88_0 m ρ c).trans (w10_v88_0 m ρ c)

attribute [local irreducible] Host.scatterAdd Host.gather Host.reduceAdd W2 W4 W6 W8 W10 in
theorem w11_v90 : W11 m ρ c (Proc.devRef .tc main_v90) = Ker.meanOf (Ker.sumRow (yy m c)) := by
  show StableHlo.after hostOps5 (W10 m ρ c) (Proc.devRef .tc main_v90) = _
  after_results
  rw [w10_v88_1 m ρ c]
  rfl

attribute [local irreducible] Host.scatterAdd Host.gather Host.reduceAdd W2 W4 W6 W8 W10 in
theorem w11_v99 : W11 m ρ c (Proc.devRef .tc main_v99) = Ker.invstdOf (Ker.sumRow (yy m c)) (Ker.sqRow (yy m c)) := by
  show StableHlo.after hostOps5 (W10 m ρ c) (Proc.devRef .tc main_v99) = _
  after_results
  rw [w10_v88_1 m ρ c, w10_v88_2 m ρ c]
  rfl

attribute [local irreducible] Host.scatterAdd Host.gather Host.reduceAdd W2 W4 W6 W8 W10 in
theorem w11_v100 : W11 m ρ c (Proc.devRef .tc main_v100) = Ker.asRow (m ((c : Thread nD τ).loc main_arg10)) := by
  show StableHlo.after hostOps5 (W10 m ρ c) (Proc.devRef .tc main_v100) = _
  after_results
  rw [show W10 m ρ c (Proc.devRef .tc main_arg10) = (m ((c : Thread nD τ).loc main_arg10)) from a10_arg10 m ρ c]
  rfl

attribute [local irreducible] Host.scatterAdd Host.gather Host.reduceAdd W2 W4 W6 W8 W10 in
theorem w11_v101 : W11 m ρ c (Proc.devRef .tc main_v101) = Ker.asRow (m ((c : Thread nD τ).loc main_arg11)) := by
  show StableHlo.after hostOps5 (W10 m ρ c) (Proc.devRef .tc main_v101) = _
  after_results
  rw [show W10 m ρ c (Proc.devRef .tc main_arg11) = (m ((c : Thread nD τ).loc main_arg11)) from a10_arg11 m ρ c]
  rfl

attribute [local irreducible] Host.scatterAdd Host.gather Host.reduceAdd W2 W4 W6 W8 W10 in
theorem w11_v102 : W11 m ρ c (Proc.devRef .tc main_v102) = Ker.asRow40 (m ((c : Thread nD τ).loc main_arg13)) := by
  show StableHlo.after hostOps5 (W10 m ρ c) (Proc.devRef .tc main_v102) = _
  after_results
  rw [show W10 m ρ c (Proc.devRef .tc main_arg13) = (m ((c : Thread nD τ).loc main_arg13)) from a10_arg13 m ρ c]
  rfl

end Cert.KernelIdeal.Tower

end
-- ==== Proof.LibRowOps.lean ====
/-
  Layout operations on arrays of rows, read at an index.

  A row-wise sum, the column-vector forms of a reshape and of a broadcast, the two pieces of a
  concatenation along the last axis, and the plain matrix product into a zero accumulator — each read at
  `(r, c)` as the operand's elements it depends on.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.Lib.RowOps

open Idealize.ShloMosaic Idealize.ShloMosaic.ValueIdx

variable {α : Type}

/-- A length-`a` vector reshaped to a column `[a, 1]` reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast to `[a, b]` reads, at `(r, c)`, the column at `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Two arrays joined along the last axis: a column below the first extent is the first array's. -/
theorem concat_cols_left {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (hc : c.val < b₁) :
    concatenate ⟨2, ![a, b₁ + b₂]⟩ 1 [⟨⟨2, ![a, b₁]⟩, x₁⟩, ⟨⟨2, ![a, b₂]⟩, x₂⟩] h (ix2 r c) = x₁ (ix2 r ⟨c.val, hc⟩) :=
  concatenate_pair_apply_left 1 x₁ x₂ h (ix2 r c) rfl (ix2 r ⟨c.val, hc⟩) (fun b => by
    match b with
    | ⟨0, _⟩ => rfl
    | ⟨1, _⟩ => rfl)

/-- … and a column from the first extent on is the second array's, the first extent less. -/
theorem concat_cols_right {a b₁ b₂ : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b₁ + b₂]⟩ 1) (r : Fin a) (c : Fin (b₁ + b₂)) (c' : Fin b₂)
    (hc : c'.val + b₁ = c.val) :
    concatenate ⟨2, ![a, b₁ + b₂]⟩ 1 [⟨⟨2, ![a, b₁]⟩, x₁⟩, ⟨⟨2, ![a, b₂]⟩, x₂⟩] h (ix2 r c) = x₂ (ix2 r c') :=
  concatenate_pair_apply_right 1 x₁ x₂ h (ix2 r c) rfl rfl (ix2 r c') (fun b hb => by
    match b with
    | ⟨0, _⟩ => rfl
    | ⟨1, _⟩ => exact absurd rfl hb) hc

/-- A length-`b` vector broadcast to a one-row array `[1, b]` along its second axis reads, at `(u, c)`, the vector at `c`. -/
theorem bcastInDim_b_1b {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row array `[1, b]` broadcast to `[a, b]` axis by axis reads, at `(p, c)`, the row at `c`. -/
theorem bcastInDim_1b_ab {a b : ℕ} (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A column `[a, 1]` broadcast to `[a, b]` axis by axis reads, at `(p, c)`, the column at `p`. -/
theorem bcastInDim_a1_ab {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A length-`a` vector broadcast to a column `[a, 1]` along its first axis reads, at `(p, u)`, the vector at `p`. -/
theorem bcastInDim_a_a1 {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A scalar broadcast to any shape reads the scalar everywhere. -/
theorem bcastInDim_scalar {t : Shape} (x : (⟨0, ![]⟩ : Shape).Idx → α) (h : (⟨0, ![]⟩ : Shape).BroadcastsInDim t ![]) (i : t.Idx) :
    broadcastInDim t ![] h x i = x ix0 :=
  broadcastInDim_apply _ h x i ix0 fun ax => ax.elim0

/-- A sum over the last axis of an `[a, b]` array of extended reals, read at `r`: the row's sum. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- The same for a single-precision array whose printed accumulator is the zero pattern, the proof argument typed as printed. -/
theorem rowSum_f32_apply {a b : ℕ} (src : FVec Ideal ⟨2, ![a, b]⟩ .f32)
    (h : (⟨2, ![a, b]⟩ : Shape).Reduces [1] ⟨1, ![a]⟩) (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) :=
  rowSum_apply src _ h hφ hacc r

/-- The plain product of an `m×k` by a `k×n` matrix accumulated into zeros, read at `(a, b)` on the extended reals. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have e : matmul (DotDims.plain m k n) prec A B (constant ⟨2, ![m, n]⟩ .f32 0x00000000#32) (ix2 a b)
      = Host.dotGeneral (DotDims.plain m k n) prec A B (ix2 a b) := by
    show FloatOps.matmul _ prec A B _ (ix2 a b) = FloatOps.dotGeneral _ prec _ A B (ix2 a b)
    rw [Ideal.matmul_constant_zero_apply, Ideal.dotGeneral_apply]
  rw [e]
  exact StackMember.dotGeneral_plain_apply prec A B a b

end Cert.Lib.RowOps

end
-- ==== Proof.KerRegion5.lean ====
/-
  The last kernel launch: tile by tile, the second layer's array is normalised column by column —
  ((h − mean) · invstd) · g + b with the four per-column numbers read from one-row arrays —, multiplied by the
  128×40 class matrix, shifted by the bias row, and every row of forty numbers is replaced by its log-softmax:
  the entries minus the row's maximum, minus the logarithm of the sum of the exponentials of those differences.
  Row r of the result depends on row r of the input only, so the launch leaves the row-wise log-softmax of the
  whole affine image of the normalised array.
-/
import proofs.«124287_j84756884620023_2_alg».proof.Proof.KerRegion2
import proofs.«124287_j84756884620023_2_alg».proof.Proof.LibRowOps
import Idealize.ShloMosaic.Lib.ValueLayout

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.ShloMosaic.Pipeline (Dat Cfg Window)
open Cert.Gcn Cert.KernelIdeal.RegionValue Cert.Lib.RowOps

/-! ## The log-softmax of one row -/

/-- The largest of the numbers z, starting from −∞. -/
def rowMax {b : ℕ} (z : Fin b → EReal) : EReal :=
  (Finset.univ : Finset (Fin b)).fold max (Ideal.ofBits .f32 0xFF800000#32) z

/-- The log-softmax of the numbers z at position j: z j minus the maximum, minus the logarithm of the sum of the
    exponentials of all the entries minus the maximum. -/
def lsm {b : ℕ} (z : Fin b → EReal) (j : Fin b) : EReal :=
  (z j - rowMax z) - Ideal.log (∑ j' : Fin b, Ideal.exp (z j' - rowMax z))

/-- The bit pattern of −∞ is the least extended real. -/
theorem negInf_eq_bot : Ideal.ofBits .f32 0xFF800000#32 = (⊥ : EReal) := by simp [Ideal.ofBits, Ideal.ieee]

/-- A maximum against −∞ changes nothing. -/
theorem max_negInf (x : EReal) : max (Ideal.ofBits .f32 0xFF800000#32) x = x := by
  rw [negInf_eq_bot]; exact max_bot_left x

/-- The reduced index r with the lane k put back is (r, k). -/
theorem lift_row {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax; apply Fin.ext
  match ax with
  | ⟨0, _⟩ => rfl
  | ⟨1, _⟩ => rfl

/-- The vector unit's maximum over the last axis from −∞, read at row r: the row's maximum. -/
theorem rowMax_kernel_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (r : Fin a) :
    multiReduction .maximumf [1] ⟨1, ![a]⟩ src 0xFF800000#32 h hφ hacc (ix1 r) = rowMax fun k : Fin b => src (ix2 r k) := by
  refine (Ideal.multiReduction_maximumf_single src _ h hφ hacc (ix1 r)).trans ?_
  have hf : (src ∘ h.lift (ix1 r)) = fun k : Fin b => src (ix2 r k) := funext fun k => congrArg src (lift_row h r k)
  exact congrArg (fun f => Finset.fold max (Ideal.ofBits .f32 0xFF800000#32) f (Finset.univ : Finset (Fin b))) hf

/-- The host's maximum over the last axis from −∞, read at row r: the row's maximum. -/
theorem rowMax_host_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x (constant (F := Ideal) (⟨0, ![]⟩ : Shape) .f32 0xFF800000#32) h' hu (ix1 r)
      = rowMax fun k : Fin b => x (ix2 r k) := by
  rw [Host.reduce_eq_fold_single FloatOps.maximumf x _ h' h hu]
  have hf : (x ∘ h.lift (ix1 r)) = fun k : Fin b => x (ix2 r k) := funext fun k => congrArg x (lift_row h r k)
  exact congrArg (fun f => Finset.fold max (Ideal.ofBits .f32 0xFF800000#32) f (Finset.univ : Finset (Fin b))) hf

/-- The host's sum over the last axis from zero, read at row r: the row's sum. -/
theorem rowSum_host_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x (constant (F := Ideal) (⟨0, ![]⟩ : Shape) .f32 0x00000000#32) h' hu (ix1 r)
      = ∑ k : Fin b, x (ix2 r k) := by
  show Ideal.hostReduceAdd h' x (Ideal.ofBits .f32 0x00000000#32) (ix1 r) = _
  rw [Ideal.hostReduceAdd_single h' h, Ideal.ofBits_zero_f32, zero_add]
  exact Finset.sum_congr rfl fun k _ => congrArg x (lift_row h r k)

/-- The tail of the tile's arithmetic on an array l of rows of b numbers, as the vector unit performs it: the
    row maxima, the differences, their exponentials' row sums, the logarithms, the final differences. -/
def tail {a b : ℕ} (l : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  subf (subf l (broadcastTo ⟨2, ![a, b]⟩ (shapeCast ⟨2, ![a, 1]⟩
      (multiReduction .maximumf [1] ⟨1, ![a]⟩ l 0xFF800000#32 hr (.inl rfl) rfl) hc) hb))
    (broadcastTo ⟨2, ![a, b]⟩ (log (shapeCast ⟨2, ![a, 1]⟩
      (multiReduction .add [1] ⟨1, ![a]⟩ (exp (subf l (broadcastTo ⟨2, ![a, b]⟩ (shapeCast ⟨2, ![a, 1]⟩
        (multiReduction .maximumf [1] ⟨1, ![a]⟩ l 0xFF800000#32 hr (.inl rfl) rfl) hc) hb))) 0x00000000#32 hr (.inl rfl) rfl) hc)) hb)

/-- That tail at an index is the log-softmax of the index's row. -/
theorem tail_apply {a b : ℕ} (l : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (r : Fin a) (j : Fin b) : tail l hr hc hb (ix2 r j) = lsm (fun j' => l (ix2 r j')) j := by
  have hs : ∀ j' : Fin b, subf l (broadcastTo ⟨2, ![a, b]⟩ (shapeCast ⟨2, ![a, 1]⟩
      (multiReduction .maximumf [1] ⟨1, ![a]⟩ l 0xFF800000#32 hr (.inl rfl) rfl) hc) hb) (ix2 r j')
      = l (ix2 r j') - rowMax fun k : Fin b => l (ix2 r k) := by
    intro j'
    rw [subf_apply, broadcastTo_a1_ab_apply, shapeCast_a_a1_apply, rowMax_kernel_apply]
  unfold tail lsm
  rw [subf_apply, hs j, broadcastTo_a1_ab_apply]
  show _ - Ideal.log (shapeCast ⟨2, ![a, 1]⟩ _ hc (ix2 r (0 : Fin 1))) = _
  rw [shapeCast_a_a1_apply, rowSum_f32_apply]
  refine congrArg (fun s => _ - Ideal.log s) (Finset.sum_congr rfl fun j' _ => ?_)
  show Ideal.exp (subf l _ (ix2 r j')) = _
  rw [hs j']

/-! ## The reference's side: the affine map and the log-softmax at an index -/

section Reference
variable [Cert.ReferenceIdeal.Facts]

/-- The dense product into the forty classes at an index: a sum over the contracted axis. -/
theorem mm40_apply (A : FV Cert.ReferenceIdeal.S50000x128) (W : FV Cert.ReferenceIdeal.S128x40) (r : Fin 50000) (q : Fin 40) :
    Host.dotGeneral Cert.ReferenceIdeal.dot_S50000x128_S128x40_S50000x40_1_0_0_1_n_n none A W (ix2 r q)
      = ∑ k : Fin 128, A (ix2 r k) * W (ix2 k q) := by
  refine DotSum.dotGeneral_eq_sum Cert.ReferenceIdeal.dot_S50000x128_S128x40_S50000x40_1_0_0_1_n_n 128 rfl rfl A W (ix2 r q)
    (fun k => ix2 r k) (fun k => ix2 k q) ?_ ?_
  · intro k; funext a; apply Fin.ext
    match a with
    | ⟨0, _⟩ => rfl
    | ⟨1, _⟩ => rfl
  · intro k; funext a; apply Fin.ext
    match a with
    | ⟨0, _⟩ => rfl
    | ⟨1, _⟩ => rfl

/-- The final affine map with its bias given as one row. -/
def logitsRow (h : FV Cert.ReferenceIdeal.S50000x128) (Wm : FV Cert.ReferenceIdeal.S128x40)
    (brow : FV Cert.ReferenceIdeal.S1x40) : FV Cert.ReferenceIdeal.S50000x40 :=
  addf (Host.dotGeneral Cert.ReferenceIdeal.dot_S50000x128_S128x40_S50000x40_1_0_0_1_n_n none h Wm)
    (broadcastInDim Cert.ReferenceIdeal.S50000x40 ![0, 1] Cert.ReferenceIdeal.Facts₀.bcast_S1x40_S50000x40_0_1 brow)

/-- The reference's affine map is that one at the bias vector laid out as a row. -/
theorem logits_eq (h : FV Cert.ReferenceIdeal.S50000x128) (Wm : FV Cert.ReferenceIdeal.S128x40) (bm : FV Cert.ReferenceIdeal.S40) :
    Ref.logits h Wm bm
      = logitsRow h Wm (broadcastInDim Cert.ReferenceIdeal.S1x40 ![1] Cert.ReferenceIdeal.Facts₀.bcast_S40_S1x40_1 bm) := rfl

/-- The affine map at an index: the sum over k of h(r, k) · W(k, q), plus the bias row's entry q. -/
theorem logitsRow_apply (h : FV Cert.ReferenceIdeal.S50000x128) (Wm : FV Cert.ReferenceIdeal.S128x40)
    (brow : FV Cert.ReferenceIdeal.S1x40) (r : Fin 50000) (q : Fin 40) :
    logitsRow h Wm brow (ix2 r q) = (∑ k : Fin 128, h (ix2 r k) * Wm (ix2 k q)) + brow (ix2 (0 : Fin 1) q) := by
  unfold logitsRow
  exact (addf_apply _ _ _).trans (congrArg₂ (fun u v => u + v) (mm40_apply h Wm r q)
    (bcastInDim_1b_ab brow Cert.ReferenceIdeal.Facts₀.bcast_S1x40_S50000x40_0_1 r q))

/-- The host's logarithm and exponential at an index. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The shapes' reduction witness along the lanes. -/
theorem reduces_rows : (⟨2, ![50000, 40]⟩ : Shape).Reduces [1] ⟨1, ![50000]⟩ := by decide

/-- A number per node repeated along its forty classes, read at (r, j): the node's number. -/
theorem rows40_apply (d : FV Cert.ReferenceIdeal.S50000) (r : Fin 50000) (j : Fin 40) : Ref.rows40 d (ix2 r j) = d (ix1 r) :=
  (bcastInDim_a1_ab _ Cert.ReferenceIdeal.Facts₀.bcast_S50000x1_S50000x40_0_1 r j).trans
    (bcastInDim_a_a1 d Cert.ReferenceIdeal.Facts₀.bcast_S50000_S50000x1_0 r 0)

/-- A row's entries minus the row's maximum, at an index. -/
theorem shifted_apply (l : FV Cert.ReferenceIdeal.S50000x40) (r : Fin 50000) (j : Fin 40) :
    Ref.shifted l (ix2 r j) = l (ix2 r j) - rowMax fun k : Fin 40 => l (ix2 r k) := by
  unfold Ref.shifted
  refine (subf_apply _ _ _).trans (congrArg (fun m => l (ix2 r j) - m) ((rows40_apply _ r j).trans ?_))
  refine (maximumf_apply _ _ _).trans ?_
  exact (congrArg₂ max (bcastInDim_scalar _ Cert.ReferenceIdeal.Facts₀.bcast_S_S50000 (ix1 r))
    (rowMax_host_apply l _ reduces_rows _ r)).trans (max_negInf _)

/-- The reference's log-softmax at an index is the log-softmax of the index's row. -/
theorem logSoftmax_apply (l : FV Cert.ReferenceIdeal.S50000x40) (r : Fin 50000) (j : Fin 40) :
    Ref.logSoftmax l (ix2 r j) = lsm (fun j' => l (ix2 r j')) j := by
  have hsum : Host.reduceAdd (Host.exp (Ref.shifted l)) Ref.zero0 Cert.ReferenceIdeal.Facts₀.reducesTo_S50000x40_S50000_d1
        Cert.ReferenceIdeal.Facts₀.h_S_ (ix1 r)
      = ∑ j' : Fin 40, Ideal.exp (l (ix2 r j') - rowMax fun k : Fin 40 => l (ix2 r k)) :=
    (rowSum_host_apply (Host.exp (Ref.shifted l)) _ reduces_rows _ r).trans
      (Finset.sum_congr rfl fun j' _ => (hostExp_apply _ _).trans (congrArg Ideal.exp (shifted_apply l r j')))
  unfold Ref.logSoftmax lsm
  refine (subf_apply _ _ _).trans (congrArg₂ (fun u v => u - v) (shifted_apply l r j) ?_)
  refine (bcastInDim_a1_ab _ Cert.ReferenceIdeal.Facts₀.bcast_S50000x1_S50000x40_0_1 r j).trans ?_
  exact (hostLog_apply _ _).trans
    (congrArg Ideal.log ((bcastInDim_a_a1 _ Cert.ReferenceIdeal.Facts₀.bcast_S50000_S50000x1_0 r 0).trans hsum))

end Reference

/-! ## One tile -/

/-- One tile's result at an index: the log-softmax of the row of sums over k of the normalised entry (y, k)
    times W(k, ·), plus the bias row. -/
theorem tile_apply (x0 : Vec Ideal S5000x128 .f32) (m s g b : Vec Ideal S1x128 .f32) (W : Vec Ideal S128x40 .f32)
    (bias : Vec Ideal S1x40 .f32) (y : Fin 5000) (j : Fin 40) :
    k5_pay1 (F := Ideal) x0 m s g b W bias (ix2 y j)
      = lsm (fun j' => (∑ k : Fin 128, (((x0 (ix2 y k) - m (ix2 (0 : Fin 1) k)) * s (ix2 (0 : Fin 1) k)) * g (ix2 (0 : Fin 1) k)
          + b (ix2 (0 : Fin 1) k)) * W (ix2 k j')) + bias (ix2 (0 : Fin 1) j')) j := by
  unfold k5_pay1
  refine (tail_apply _ reduces_S5000x40_S5000 shapeCasts_S5000_S5000x1 broadcasts_S5000x1_S5000x40 y j).trans ?_
  refine congrArg (fun z => lsm z j) (funext fun j' => ?_)
  refine (addf_apply _ _ _).trans (congrArg₂ (fun u v => u + v) ?_
    ((broadcastTo_1b_ab_apply _ broadcasts_S1x40_S5000x40 y j').trans (by rw [shapeCast_self])))
  refine (DotSum.matmul_zero_eq_sum dot_S5000x128_S128x40_S5000x40_1_0_0_1_n_n 128 rfl rfl _ _ (ix2 y j')
    (fun k => ix2 y k) (fun k => ix2 k j') ?_ ?_).trans ?_
  · intro k; funext a; apply Fin.ext
    match a with
    | ⟨0, _⟩ => rfl
    | ⟨1, _⟩ => rfl
  · intro k; funext a; apply Fin.ext
    match a with
    | ⟨0, _⟩ => rfl
    | ⟨1, _⟩ => rfl
  · refine Finset.sum_congr rfl fun k _ => ?_
    simp only [truncf_apply, addf_apply, mulf_apply, subf_apply, shapeCast_self, broadcastTo_1b_ab_apply]

/-! ## The launch: which parts of the arrays each grid point reads and writes -/

variable (V : (c : Dev nD) → (b : Ref sig .tc) → Buf (Elt Ideal) ((c : Thread nD τ).loc b))

/-- The tiles' positions, decided over the ten grid points. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- The row of the whole array that row y of tile t is. -/
def rowOf (t : Fin cfg5.N) (y : Fin 5000) : Fin 50000 :=
  ⟨t.val * 5000 + y.val, by have := t.isLt; have hN : cfg5.N = 10 := N_5; have := y.isLt; omega⟩

theorem tile_read (c : Dev nD) (t : Fin cfg5.N) (y : Fin 5000) (k : Fin 128) :
    iblk5 V c 0 t (ix2 y k) = V c main_v88_0 (ix2 (rowOf t y) k) := by
  have e := idx_facts t
  show V c main_v88_0 (((cfg5.win 0).blk t).view.emb (ix2 y k)) = _
  refine congrArg (V c main_v88_0) ?_
  funext a; apply Fin.ext
  match a with
  | ⟨0, _⟩ => show win5_0.index t (0 : Fin 2) * 5000 + 1 * y.val = t.val * 5000 + y.val; omega
  | ⟨1, _⟩ => show win5_0.index t (1 : Fin 2) * 128 + 1 * k.val = k.val; omega

theorem row1_read (c : Dev nD) (t : Fin cfg5.N) (k : Fin 128) : iblk5 V c 1 t (ix2 (0 : Fin 1) k) = V c main_v90 (ix2 (0 : Fin 1) k) := by
  have e := idx_facts t
  show V c main_v90 (((cfg5.win 1).blk t).view.emb (ix2 (0 : Fin 1) k)) = _
  refine congrArg (V c main_v90) ?_
  funext a; apply Fin.ext
  match a with
  | ⟨0, _⟩ => show win5_1.index t (0 : Fin 2) * 1 + 1 * 0 = 0; omega
  | ⟨1, _⟩ => show win5_1.index t (1 : Fin 2) * 128 + 1 * k.val = k.val; omega

theorem row2_read (c : Dev nD) (t : Fin cfg5.N) (k : Fin 128) : iblk5 V c 2 t (ix2 (0 : Fin 1) k) = V c main_v99 (ix2 (0 : Fin 1) k) := by
  have e := idx_facts t
  show V c main_v99 (((cfg5.win 2).blk t).view.emb (ix2 (0 : Fin 1) k)) = _
  refine congrArg (V c main_v99) ?_
  funext a; apply Fin.ext
  match a with
  | ⟨0, _⟩ => show win5_2.index t (0 : Fin 2) * 1 + 1 * 0 = 0; omega
  | ⟨1, _⟩ => show win5_2.index t (1 : Fin 2) * 128 + 1 * k.val = k.val; omega

theorem row3_read (c : Dev nD) (t : Fin cfg5.N) (k : Fin 128) : iblk5 V c 3 t (ix2 (0 : Fin 1) k) = V c main_v100 (ix2 (0 : Fin 1) k) := by
  have e := idx_facts t
  show V c main_v100 (((cfg5.win 3).blk t).view.emb (ix2 (0 : Fin 1) k)) = _
  refine congrArg (V c main_v100) ?_
  funext a; apply Fin.ext
  match a with
  | ⟨0, _⟩ => show win5_3.index t (0 : Fin 2) * 1 + 1 * 0 = 0; omega
  | ⟨1, _⟩ => show win5_3.index t (1 : Fin 2) * 128 + 1 * k.val = k.val; omega

theorem row4_read (c : Dev nD) (t : Fin cfg5.N) (k : Fin 128) : iblk5 V c 4 t (ix2 (0 : Fin 1) k) = V c main_v101 (ix2 (0 : Fin 1) k) := by
  have e := idx_facts t
  show V c main_v101 (((cfg5.win 4).blk t).view.emb (ix2 (0 : Fin 1) k)) = _
  refine congrArg (V c main_v101) ?_
  funext a; apply Fin.ext
  match a with
  | ⟨0, _⟩ => show win5_4.index t (0 : Fin 2) * 1 + 1 * 0 = 0; omega
  | ⟨1, _⟩ => show win5_4.index t (1 : Fin 2) * 128 + 1 * k.val = k.val; omega

theorem weights_read (c : Dev nD) (t : Fin cfg5.N) (k : Fin 128) (q : Fin 40) : iblk5 V c 5 t (ix2 k q) = V c main_arg12 (ix2 k q) := by
  have e := idx_facts t
  show V c main_arg12 (((cfg5.win 5).blk t).view.emb (ix2 k q)) = _
  refine congrArg (V c main_arg12) ?_
  funext a; apply Fin.ext
  match a with
  | ⟨0, _⟩ => show win5_5.index t (0 : Fin 2) * 128 + 1 * k.val = k.val; omega
  | ⟨1, _⟩ => show win5_5.index t (1 : Fin 2) * 40 + 1 * q.val = q.val; omega

theorem bias_read (c : Dev nD) (t : Fin cfg5.N) (q : Fin 40) : iblk5 V c 6 t (ix2 (0 : Fin 1) q) = V c main_v102 (ix2 (0 : Fin 1) q) := by
  have e := idx_facts t
  show V c main_v102 (((cfg5.win 6).blk t).view.emb (ix2 (0 : Fin 1) q)) = _
  refine congrArg (V c main_v102) ?_
  funext a; apply Fin.ext
  match a with
  | ⟨0, _⟩ => show win5_6.index t (0 : Fin 2) * 1 + 1 * 0 = 0; omega
  | ⟨1, _⟩ => show win5_6.index t (1 : Fin 2) * 40 + 1 * q.val = q.val; omega

theorem out_emb (t : Fin cfg5.N) (y : Fin 5000) (q : Fin 40) :
    ((cfg5.win 7).blk t).view.emb (ix2 y q) = ix2 (rowOf t y) q := by
  have e := idx_facts t
  funext a; apply Fin.ext
  match a with
  | ⟨0, _⟩ => show win5_7.index t (0 : Fin 2) * 5000 + 1 * y.val = t.val * 5000 + y.val; omega
  | ⟨1, _⟩ => show win5_7.index t (1 : Fin 2) * 40 + 1 * q.val = q.val; omega

/-- The array the launch leaves, as a function of the arrays it was launched on. -/
def result (c : Dev nD) : FV S50000x40 :=
  Ref.logSoftmax (logitsRow (Ker.bnApply (V c main_v88_0) (V c main_v90) (V c main_v99) (V c main_v100) (V c main_v101))
    (V c main_arg12) (V c main_v102))

attribute [local irreducible] Cert.Gcn.Ref.logSoftmax Cert.KernelIdeal.Region5.logitsRow in
/-- What point t writes back is tile t of that array. -/
theorem flushed (c : Dev nD) (t : Fin cfg5.N) :
    (dat5 V c).flushed 7 t = ((cfg5.win 7).blk t).view.read (Elt Ideal) (result V c) := by
  show (cfg5.win 7).cut (grid5.coords t) ((dat5 V c).after 7 t) = _
  rw [after5_7]
  unfold out5_7
  rw [View.canon_unit_zero hz2]
  simp only [View.ld_unit_zero (S := S5000x128) hz2, View.ld_unit_zero (S := S128x40) hz2, View.ld_unit_zero (S := S1x128) hz2,
    View.ld_unit_zero (S := S1x40) hz2]
  funext j
  obtain ⟨y, q, rfl⟩ : ∃ (y : Fin 5000) (q : Fin 40), j = ix2 y q := ⟨j 0, j 1, eq_ix2 j⟩
  show k5_pay1 (F := Ideal) (iblk5 V c 0 t) (iblk5 V c 1 t) (iblk5 V c 2 t) (iblk5 V c 3 t) (iblk5 V c 4 t) (iblk5 V c 5 t)
      (iblk5 V c 6 t) (ix2 y q)
    = result V c (((cfg5.win 7).blk t).view.emb (ix2 y q))
  rw [out_emb t y q]
  unfold result
  refine (tile_apply _ _ _ _ _ _ _ y q).trans ((logSoftmax_apply _ _ q).trans ?_).symm
  refine congrArg (fun z => lsm z q) (funext fun j' => ?_)
  refine (logitsRow_apply _ _ _ _ j').trans ?_
  rw [bias_read V c t j']
  refine congrArg (fun v => v + V c main_v102 (ix2 (0 : Fin 1) j')) (Finset.sum_congr rfl fun k _ => ?_)
  rw [Region2.bnApply_apply, tile_read V c t y k, row1_read V c t k, row2_read V c t k, row3_read V c t k, row4_read V c t k,
    weights_read V c t k j']

theorem mem_blk (t : Fin cfg5.N) (i : S50000x40.Idx) :
    i ∈ ((cfg5.win 7).blk t).view.set ↔ ∀ a : Fin 2, win5_7.index t a * S5000x40.size a ≤ (i a).val ∧ (i a).val < win5_7.index t a * S5000x40.size a + S5000x40.size a := by
  show i ∈ ((View.whole main_v103).slice (win5_7.rect t)).set ↔ _
  rw [View.set_slice_whole, Rect.mem_set_unit]
  exact Iff.rfl

theorem cover (i : S50000x40.Idx) :
    ∃ t : Fin cfg5.N, (cfg5.win 7).flush t = true ∧ i ∈ ((cfg5.win 7).blk t).view.set := by
  have hi0 : (i 0).val < 50000 := (i 0).isLt
  have hi1 : (i 1).val < 40 := (i 1).isLt
  have hN : cfg5.N = 10 := N_5
  let t : Fin cfg5.N := ⟨(i 0).val / 5000, by rw [hN]; omega⟩
  have e := idx_facts t
  have ht : t.val = (i 0).val / 5000 := rfl
  refine ⟨t, flush5_7 t, ?_⟩
  rw [mem_blk]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 40 ≤ (i 1).val ∧ (i 1).val < win5_7.index t (1 : Fin 2) * 40 + 40; omega

/-- The launch leaves the row-wise log-softmax of the affine image of the normalised array. -/
theorem final (c : Dev nD) : (dat5 V c).arrAt 7 cfg5.N = result V c :=
  (dat5 V c).arrAt_eq_of_cover 7 _ (fun t _ => flushed V c t) cover

end Cert.KernelIdeal.Region5

end
-- ==== Proof.LibRowCast.lean ====
/-
  A vector of n entries as a one-row matrix, two spellings: the cast of the vector to the shape [1, n], and the
  broadcast of the vector along axis 1 into that shape. Both read the vector's entry q at (0, q).
-/
import Idealize.ShloMosaic.Lib.Pipeline.Value
import Idealize.ShloMosaic.Lib.ValueIdx

namespace Idealize.ShloMosaic.RowCast

open Idealize.ShloMosaic Idealize.ShloMosaic.ValueIdx

/-- The cast of a vector to one row is its broadcast along the row's axis. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have hi : i = ix2 (0 : Fin 1) (i 1 : Fin n) := by
    funext a
    match a with
    | ⟨0, _⟩ => exact Fin.ext (Nat.lt_one_iff.mp (i 0).isLt)
    | ⟨1, _⟩ => rfl
  rw [hi]
  have e2 := shapeCast_apply x h1 (ix2 (0 : Fin 1) (i 1 : Fin n)) (ix1 (i 1 : Fin n)) (by
    rw [Shape.rowMajor_val_two, Shape.rowMajor_val_one]; show (i 1).val = 0 * n + (i 1).val; omega)
  have e3 := broadcastInDim_apply ![1] hd x (ix2 (0 : Fin 1) (i 1 : Fin n)) (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast
-- ==== Proof.KerOut.lean ====
/-
  The kernel program's result as one function of its fourteen arguments: the last launch reads the rectified
  normalised second layer, its statistics and the last scale, shift, weights and bias, and leaves the row-wise
  log-softmax of the normalised layer's affine image — the network as the kernel program computes it.
-/
import proofs.«124287_j84756884620023_2_alg».proof.Proof.KerTower
import proofs.«124287_j84756884620023_2_alg».proof.Proof.KerRegion5
import proofs.«124287_j84756884620023_2_alg».proof.Proof.LibRowCast

set_option maxRecDepth 16384

noncomputable section

namespace Cert.KernelIdeal.Tower

open Cert.KernelIdeal Cert.KernelIdeal.Gen
open Idealize.ShloMosaic Idealize.ShloMosaic.TcCoe Idealize.ShloMosaic.ValueIdx Idealize.ShloMosaic.StableHlo Idealize.SL.Sem
open Cert.Gcn

variable (m : (ℓ : Loc nD τ sig) → Buf (Elt Ideal) ℓ) (ρ : Dev nD → PrngReg) (c : Dev nD)

/-- A vector of 40 as one row, by a cast or by a broadcast along the row's axis: the same row. -/
theorem asRow40_eq (bm : FV S40) :
    Ker.asRow40 bm = broadcastInDim Cert.ReferenceIdeal.S1x40 ![1] Cert.ReferenceIdeal.Facts₀.bcast_S40_S1x40_1 bm :=
  RowCast.shapeCast_row_eq_broadcastInDim bm _ _

attribute [local irreducible] Cert.Gcn.Ref.logSoftmax Cert.Gcn.Ref.mm Cert.Gcn.Ker.conv Cert.Gcn.Ker.sumRow Cert.Gcn.Ker.sqRow in
/-- The result array after the last launch. -/
theorem w12_v103 : W12 m ρ c (Proc.devRef .tc main_v103) = Mix.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W12_arr m ρ c 7).trans ((Cert.KernelIdeal.Region5.final (V11 m ρ) c).trans ?_)
  unfold Cert.KernelIdeal.Region5.result
  rw [show V11 m ρ c main_v88_0 = yy m c from w11_v88_0 m ρ c, show V11 m ρ c main_v90 = _ from w11_v90 m ρ c,
    show V11 m ρ c main_v99 = _ from w11_v99 m ρ c, show V11 m ρ c main_v100 = _ from w11_v100 m ρ c,
    show V11 m ρ c main_v101 = _ from w11_v101 m ρ c, show V11 m ρ c main_arg12 = (m ((c : Thread nD τ).loc main_arg12)) from a11_arg12 m ρ c,
    show V11 m ρ c main_v102 = _ from w11_v102 m ρ c, asRow40_eq]
  unfold Mix.kerOut Mix.bnOwn
  rw [Cert.KernelIdeal.Region5.logits_eq]
  rfl

/-- Every weakly fair execution of the idealized kernel program terminates without a fault, with the result array at
    the network's value of the arguments and the arguments unchanged. -/
theorem run_kerOut : θ_run defs (onTc (τ := τ) (main (F := Ideal))) ⟨m, fun _ => 0, ρ⟩ (fun r => ∀ c : Dev nD,
      r.2.mem ((c.tc : Thread nD τ).loc main_v103) = Mix.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (w12_v103 m ρ c), (h c).2⟩)
    (Cert.KernelIdeal.RunValue.run_result (F := Ideal) m ρ)

end Cert.KernelIdeal.Tower

end
-- ==== Proof.RefRun.lean ====
/-
  The reference program's run, read back. Its @main is a straight line of tensor operations once the functions it
  calls (the variance, with the select inside it; the rectifier; the row-wise log-softmax) are put in place of their
  calls, each over that call's own buffers: `ops` lists those operations in program order, in consecutive stretches
  that end where a stage of the network ends (the inverse root degrees and the first dense product; the first
  graph-convolution layer; its normalisation and rectifier; the second product and layer; its normalisation and
  rectifier; the last normalisation; the affine map and the log-softmax). `main_eq` says @main is that line,
  `run_main` that every weakly fair execution ends with each buffer at the fold of the operations over the launch
  contents, and `argK_eq` that no operation writes an argument.
-/
import proofs.«124287_j84756884620023_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The edges' sources and destinations, the inverse root degree of every node, and the first dense product. Operations 1 … 15 of 259. -/
abbrev opsA : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v8 main_v7 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.binary main_arg0 main_arg2 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The first graph-convolution layer on that product: gathered rows weighted per edge, summed at the destinations, the self-loop term, the bias. Operations 16 … 58 of 259. -/
abbrev opsB : List (HloOp τ sig (Elt F)) :=
  [
    StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v1 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v14 (broadcastInDim S800000 ![] bcast_S_S800000 : (⟨S_, .i32⟩ : BufTy).Contents (Elt F) → (⟨S800000, .i32⟩ : BufTy).Contents (Elt F)),
    StableHlo.binary main_v1 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_v10 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v19 (broadcastInDim S800000 ![] bcast_S_S800000 : (⟨S_, .i32⟩ : BufTy).Contents (Elt F) → (⟨S800000, .i32⟩ : BufTy).Contents (Elt F)),
    StableHlo.binary main_v3 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v21 (broadcastInDim S800000 ![] bcast_S_S800000 : (⟨S_, .i32⟩ : BufTy).Contents (Elt F) → (⟨S800000, .i32⟩ : BufTy).Contents (Elt F)),
    StableHlo.binary main_v3 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v10 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v18 main_v25 main_v26 (mulf : (⟨S800000, .f32⟩ : BufTy).Contents (Elt F) → (⟨S800000, .f32⟩ : BufTy).Contents (Elt F) → (⟨S800000, .f32⟩ : BufTy).Contents (Elt F)),
    StableHlo.nullary main_c_5 (constantI S_ 32 0#32),
    StableHlo.unary main_c_5 main_v27 (broadcastInDim S800000 ![] bcast_S_S800000 : (⟨S_, .i32⟩ : BufTy).Contents (Elt F) → (⟨S800000, .i32⟩ : BufTy).Contents (Elt F)),
    StableHlo.binary main_v1 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v29 (broadcastInDim S800000 ![] bcast_S_S800000 : (⟨S_, .i32⟩ : BufTy).Contents (Elt F) → (⟨S800000, .i32⟩ : BufTy).Contents (Elt F)),
    StableHlo.binary main_v1 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v11 main_v32 main_v33 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v26 main_v34 (broadcastInDim S800000x1 ![0] bcast_S800000_S800000x1_0 : (⟨S800000, .f32⟩ : BufTy).Contents (Elt F) → (⟨S800000x1, .f32⟩ : BufTy).Contents (Elt F)),
    StableHlo.unary main_v34 main_v35 (broadcastInDim S800000x128 ![0, 1] bcast_S800000x1_S800000x128_0_1 : (⟨S800000x1, .f32⟩ : BufTy).Contents (Elt F) → (⟨S800000x128, .f32⟩ : BufTy).Contents (Elt F)),
    StableHlo.binary main_v33 main_v35 main_v36 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v40 (mulf : (⟨S50000, .f32⟩ : BufTy).Contents (Elt F) → (⟨S50000, .f32⟩ : BufTy).Contents (Elt F) → (⟨S50000, .f32⟩ : BufTy).Contents (Elt F)),
    StableHlo.unary main_v40 main_v41 (broadcastInDim S50000x1 ![0] bcast_S50000_S50000x1_0 : (⟨S50000, .f32⟩ : BufTy).Contents (Elt F) → (⟨S50000x1, .f32⟩ : BufTy).Contents (Elt F)),
    StableHlo.unary main_v41 main_v42 (broadcastInDim S50000x128 ![0, 1] bcast_S50000x1_S50000x128_0_1 : (⟨S50000x1, .f32⟩ : BufTy).Contents (Elt F) → (⟨S50000x128, .f32⟩ : BufTy).Contents (Elt F)),
    StableHlo.binary main_v11 main_v42 main_v43 (mulf : (⟨S50000x128, .f32⟩ : BufTy).Contents (Elt F) → (⟨S50000x128, .f32⟩ : BufTy).Contents (Elt F) → (⟨S50000x128, .f32⟩ : BufTy).Contents (Elt F)),
    StableHlo.binary main_v39 main_v43 main_v44 (addf : (⟨S50000x128, .f32⟩ : BufTy).Contents (Elt F) → (⟨S50000x128, .f32⟩ : BufTy).Contents (Elt F) → (⟨S50000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)) ]

/-- The column sums of the first layer's output (the first step of its mean). Operations 59 … 60 of 259. -/
abbrev opsC1 : List (HloOp τ sig (Elt F)) :=
  [
    StableHlo.nullary main_cst_8 (constant S_ .f32 0x00000000#32),
    StableHlo.binary main_v47 main_cst_8 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

/-- The first normalisation — mean, the variance function with its select, scale and shift — and the rectifier. Operations 61 … 105 of 259. -/
abbrev opsC2 : List (HloOp τ sig (Elt F)) :=
  [
    StableHlo.nullary main_cst_9 (constant S_ .f32 0x47435000#32),
    StableHlo.unary main_cst_9 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    TRef.nullary main_call0.cst (constant S_ .f32 0x00000000#32),
    TRef.binary (.of main_v47 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v47 : TRef sig ⟨S50000x128, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v53 main_v54 (subf : (⟨S50000x128, .f32⟩ : BufTy).Contents (Elt F) → (⟨S50000x128, .f32⟩ : BufTy).Contents (Elt F) → (⟨S50000x128, .f32⟩ : BufTy).Contents (Elt F)),
    StableHlo.unary main_arg6 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v54 main_v57 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v58 (broadcastInDim S128 ![] bcast_S_S128 : (⟨S_, .f32⟩ : BufTy).Contents (Elt F) → (⟨S128, .f32⟩ : BufTy).Contents (Elt F)),
    StableHlo.binary main_v51 main_v58 main_v59 (addf : (⟨S128, .f32⟩ : BufTy).Contents (Elt F) → (⟨S128, .f32⟩ : BufTy).Contents (Elt F) → (⟨S128, .f32⟩ : BufTy).Contents (Elt F)),
    StableHlo.unary main_v59 main_v60 (Host.rsqrt : (⟨S128, .f32⟩ : BufTy).Contents (Elt F) → (⟨S128, .f32⟩ : BufTy).Contents (Elt F)),
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg7 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v66 : TRef sig ⟨S50000x128, .f32⟩) main_call1.v0 main_call1.v1 maximumf ]

/-- The second dense product and the second layer up to the squared inverse root degrees as a column. Operations 106 … 143 of 259. -/
abbrev opsD1 : List (HloOp τ sig (Elt F)) :=
  [
    StableHlo.binary main_v67 main_arg4 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v69 (broadcastInDim S800000 ![] bcast_S_S800000 : (⟨S_, .i32⟩ : BufTy).Contents (Elt F) → (⟨S800000, .i32⟩ : BufTy).Contents (Elt F)),
    StableHlo.binary main_v1 main_v69 main_v70 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v71 (broadcastInDim S800000 ![] bcast_S_S800000 : (⟨S_, .i32⟩ : BufTy).Contents (Elt F) → (⟨S800000, .i32⟩ : BufTy).Contents (Elt F)),
    StableHlo.binary main_v1 main_v71 main_v72 (addi : (⟨S800000, .i32⟩ : BufTy).Contents (Elt F) → (⟨S800000, .i32⟩ : BufTy).Contents (Elt F) → (⟨S800000, .i32⟩ : BufTy).Contents (Elt F)),
    StableHlo.ternary main_v70 main_v72 main_v1 main_v73 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v73 main_v74 (broadcastInDim S800000x1 ![0] bcast_S800000_S800000x1_0 : (⟨S800000, .i32⟩ : BufTy).Contents (Elt F) → (⟨S800000x1, .i32⟩ : BufTy).Contents (Elt F)),
    StableHlo.binary main_v10 main_v74 main_v75 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_14 (constantI S_ 32 0#32),
    StableHlo.unary main_c_14 main_v76 (broadcastInDim S800000 ![] bcast_S_S800000 : (⟨S_, .i32⟩ : BufTy).Contents (Elt F) → (⟨S800000, .i32⟩ : BufTy).Contents (Elt F)),
    StableHlo.binary main_v3 main_v76 main_v77 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v78 (broadcastInDim S800000 ![] bcast_S_S800000 : (⟨S_, .i32⟩ : BufTy).Contents (Elt F) → (⟨S800000, .i32⟩ : BufTy).Contents (Elt F)),
    StableHlo.binary main_v3 main_v78 main_v79 (addi : (⟨S800000, .i32⟩ : BufTy).Contents (Elt F) → (⟨S800000, .i32⟩ : BufTy).Contents (Elt F) → (⟨S800000, .i32⟩ : BufTy).Contents (Elt F)),
    StableHlo.ternary main_v77 main_v79 main_v3 main_v80 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v80 main_v81 (broadcastInDim S800000x1 ![0] bcast_S800000_S800000x1_0 : (⟨S800000, .i32⟩ : BufTy).Contents (Elt F) → (⟨S800000x1, .i32⟩ : BufTy).Contents (Elt F)),
    StableHlo.binary main_v10 main_v81 main_v82 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v75 main_v82 main_v83 (mulf : (⟨S800000, .f32⟩ : BufTy).Contents (Elt F) → (⟨S800000, .f32⟩ : BufTy).Contents (Elt F) → (⟨S800000, .f32⟩ : BufTy).Contents (Elt F)),
    StableHlo.nullary main_c_16 (constantI S_ 32 0#32),
    StableHlo.unary main_c_16 main_v84 (broadcastInDim S800000 ![] bcast_S_S800000 : (⟨S_, .i32⟩ : BufTy).Contents (Elt F) → (⟨S800000, .i32⟩ : BufTy).Contents (Elt F)),
    StableHlo.binary main_v1 main_v84 main_v85 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v86 (broadcastInDim S800000 ![] bcast_S_S800000 : (⟨S_, .i32⟩ : BufTy).Contents (Elt F) → (⟨S800000, .i32⟩ : BufTy).Contents (Elt F)),
    StableHlo.binary main_v1 main_v86 main_v87 (addi : (⟨S800000, .i32⟩ : BufTy).Contents (Elt F) → (⟨S800000, .i32⟩ : BufTy).Contents (Elt F) → (⟨S800000, .i32⟩ : BufTy).Contents (Elt F)),
    StableHlo.ternary main_v85 main_v87 main_v1 main_v88 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v88 main_v89 (broadcastInDim S800000x1 ![0] bcast_S800000_S800000x1_0 : (⟨S800000, .i32⟩ : BufTy).Contents (Elt F) → (⟨S800000x1, .i32⟩ : BufTy).Contents (Elt F)),
    StableHlo.binary main_v68 main_v89 main_v90 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v83 main_v91 (broadcastInDim S800000x1 ![0] bcast_S800000_S800000x1_0 : (⟨S800000, .f32⟩ : BufTy).Contents (Elt F) → (⟨S800000x1, .f32⟩ : BufTy).Contents (Elt F)),
    StableHlo.unary main_v91 main_v92 (broadcastInDim S800000x128 ![0, 1] bcast_S800000x1_S800000x128_0_1 : (⟨S800000x1, .f32⟩ : BufTy).Contents (Elt F) → (⟨S800000x128, .f32⟩ : BufTy).Contents (Elt F)),
    StableHlo.binary main_v90 main_v92 main_v93 (mulf : (⟨S800000x128, .f32⟩ : BufTy).Contents (Elt F) → (⟨S800000x128, .f32⟩ : BufTy).Contents (Elt F) → (⟨S800000x128, .f32⟩ : BufTy).Contents (Elt F)),
    StableHlo.nullary main_cst_18 (constant S_ .f32 0x00000000#32),
    StableHlo.unary main_cst_18 main_v94 (broadcastInDim S50000x128 ![] bcast_S_S50000x128 : (⟨S_, .f32⟩ : BufTy).Contents (Elt F) → (⟨S50000x128, .f32⟩ : BufTy).Contents (Elt F)),
    StableHlo.unary main_v3 main_v95 (broadcastInDim S800000x1 ![0] bcast_S800000_S800000x1_0 : (⟨S800000, .i32⟩ : BufTy).Contents (Elt F) → (⟨S800000x1, .i32⟩ : BufTy).Contents (Elt F)),
    StableHlo.ternary main_v94 main_v95 main_v93 main_v96 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v97 (mulf : (⟨S50000, .f32⟩ : BufTy).Contents (Elt F) → (⟨S50000, .f32⟩ : BufTy).Contents (Elt F) → (⟨S50000, .f32⟩ : BufTy).Contents (Elt F)),
    StableHlo.unary main_v97 main_v98 (broadcastInDim S50000x1 ![0] bcast_S50000_S50000x1_0 : (⟨S50000, .f32⟩ : BufTy).Contents (Elt F) → (⟨S50000x1, .f32⟩ : BufTy).Contents (Elt F)) ]

/-- The rest of the second layer: the self-loop term and the bias. Operations 144 … 149 of 259. -/
abbrev opsD2 : List (HloOp τ sig (Elt F)) :=
  [
    StableHlo.unary main_v98 main_v99 (broadcastInDim S50000x128 ![0, 1] bcast_S50000x1_S50000x128_0_1 : (⟨S50000x1, .f32⟩ : BufTy).Contents (Elt F) → (⟨S50000x128, .f32⟩ : BufTy).Contents (Elt F)),
    StableHlo.binary main_v68 main_v99 main_v100 (mulf : (⟨S50000x128, .f32⟩ : BufTy).Contents (Elt F) → (⟨S50000x128, .f32⟩ : BufTy).Contents (Elt F) → (⟨S50000x128, .f32⟩ : BufTy).Contents (Elt F)),
    StableHlo.binary main_v96 main_v100 main_v101 (addf : (⟨S50000x128, .f32⟩ : BufTy).Contents (Elt F) → (⟨S50000x128, .f32⟩ : BufTy).Contents (Elt F) → (⟨S50000x128, .f32⟩ : BufTy).Contents (Elt F)),
    StableHlo.unary main_arg5 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)) ]

/-- The second normalisation and the rectifier. Operations 150 … 196 of 259. -/
abbrev opsE : List (HloOp τ sig (Elt F)) :=
  [
    StableHlo.nullary main_cst_19 (constant S_ .f32 0x00000000#32),
    StableHlo.binary main_v104 main_cst_19 main_v105 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v106 (broadcastInDim S128 ![] bcast_S_S128 : (⟨S_, .f32⟩ : BufTy).Contents (Elt F) → (⟨S128, .f32⟩ : BufTy).Contents (Elt F)),
    StableHlo.binary main_v105 main_v106 main_v107 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    TRef.nullary main_call2.cst (constant S_ .f32 0x00000000#32),
    TRef.binary (.of main_v104 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v104 : TRef sig ⟨S50000x128, .f32⟩) main_call2.v4 main_call2.v5 subf,
    TRef.binary main_call2.v5 main_call2.v5 main_call2.v6 mulf,
    TRef.unary (.of main_c_21 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    StableHlo.unary main_v107 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v104 main_v110 main_v111 (subf : (⟨S50000x128, .f32⟩ : BufTy).Contents (Elt F) → (⟨S50000x128, .f32⟩ : BufTy).Contents (Elt F) → (⟨S50000x128, .f32⟩ : BufTy).Contents (Elt F)),
    StableHlo.unary main_arg8 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v113 main_v111 main_v114 (mulf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v115 (broadcastInDim S128 ![] bcast_S_S128 : (⟨S_, .f32⟩ : BufTy).Contents (Elt F) → (⟨S128, .f32⟩ : BufTy).Contents (Elt F)),
    StableHlo.binary main_v108 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v119 main_v120 (mulf : (⟨S50000x128, .f32⟩ : BufTy).Contents (Elt F) → (⟨S50000x128, .f32⟩ : BufTy).Contents (Elt F) → (⟨S50000x128, .f32⟩ : BufTy).Contents (Elt F)),
    StableHlo.unary main_arg9 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v122 main_v123 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v123 : TRef sig ⟨S50000x128, .f32⟩) main_call3.v0 main_call3.v1 maximumf ]

/-- The third normalisation. Operations 197 … 240 of 259. -/
abbrev opsF : List (HloOp τ sig (Elt F)) :=
  [
    StableHlo.nullary main_cst_23 (constant S_ .f32 0x00000000#32),
    StableHlo.binary main_v124 main_cst_23 main_v125 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v126 (broadcastInDim S128 ![] bcast_S_S128 : (⟨S_, .f32⟩ : BufTy).Contents (Elt F) → (⟨S128, .f32⟩ : BufTy).Contents (Elt F)),
    StableHlo.binary main_v125 main_v126 main_v127 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    TRef.nullary main_call4.cst (constant S_ .f32 0x00000000#32),
    TRef.binary (.of main_v124 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v124 : TRef sig ⟨S50000x128, .f32⟩) main_call4.v4 main_call4.v5 subf,
    TRef.binary main_call4.v5 main_call4.v5 main_call4.v6 mulf,
    TRef.unary (.of main_c_25 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    StableHlo.unary main_v127 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v130 main_v131 (subf : (⟨S50000x128, .f32⟩ : BufTy).Contents (Elt F) → (⟨S50000x128, .f32⟩ : BufTy).Contents (Elt F) → (⟨S50000x128, .f32⟩ : BufTy).Contents (Elt F)),
    StableHlo.unary main_arg10 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v131 main_v134 (mulf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v135 (broadcastInDim S128 ![] bcast_S_S128 : (⟨S_, .f32⟩ : BufTy).Contents (Elt F) → (⟨S128, .f32⟩ : BufTy).Contents (Elt F)),
    StableHlo.binary main_v128 main_v135 main_v136 (addf : (⟨S128, .f32⟩ : BufTy).Contents (Elt F) → (⟨S128, .f32⟩ : BufTy).Contents (Elt F) → (⟨S128, .f32⟩ : BufTy).Contents (Elt F)),
    StableHlo.unary main_v136 main_v137 (Host.rsqrt : (⟨S128, .f32⟩ : BufTy).Contents (Elt F) → (⟨S128, .f32⟩ : BufTy).Contents (Elt F)),
    StableHlo.unary main_v137 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v139 main_v140 (mulf : (⟨S50000x128, .f32⟩ : BufTy).Contents (Elt F) → (⟨S50000x128, .f32⟩ : BufTy).Contents (Elt F) → (⟨S50000x128, .f32⟩ : BufTy).Contents (Elt F)),
    StableHlo.unary main_arg11 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v142 main_v143 (addf : (⟨S50000x128, .f32⟩ : BufTy).Contents (Elt F) → (⟨S50000x128, .f32⟩ : BufTy).Contents (Elt F) → (⟨S50000x128, .f32⟩ : BufTy).Contents (Elt F)) ]

/-- The affine map into the classes and the row-wise log-softmax. Operations 241 … 259 of 259. -/
abbrev opsG : List (HloOp τ sig (Elt F)) :=
  [
    StableHlo.binary main_v143 main_arg12 main_v144 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg13 main_v145 (broadcastInDim S1x40 ![1] bcast_S40_S1x40_1 : (⟨S40, .f32⟩ : BufTy).Contents (Elt F) → (⟨S1x40, .f32⟩ : BufTy).Contents (Elt F)),
    StableHlo.unary main_v145 main_v146 (broadcastInDim S50000x40 ![0, 1] bcast_S1x40_S50000x40_0_1 : (⟨S1x40, .f32⟩ : BufTy).Contents (Elt F) → (⟨S50000x40, .f32⟩ : BufTy).Contents (Elt F)),
    StableHlo.binary main_v144 main_v146 main_v147 (addf : (⟨S50000x40, .f32⟩ : BufTy).Contents (Elt F) → (⟨S50000x40, .f32⟩ : BufTy).Contents (Elt F) → (⟨S50000x40, .f32⟩ : BufTy).Contents (Elt F)),
    TRef.nullary main_call5.cst (constant S_ .f32 0xFF800000#32),
    TRef.binary (.of main_v147 : TRef sig ⟨S50000x40, .f32⟩) main_call5.cst main_call5.v0 (fun x v => Host.reduce FloatOps.maximumf x v reducesTo_S50000x40_S50000_d1 h_S_),
    TRef.nullary main_call5.cst_0 (constant S_ .f32 0xFF800000#32),
    TRef.unary main_call5.cst_0 main_call5.v1 (broadcastInDim S50000 ![] bcast_S_S50000),
    TRef.binary main_call5.v1 main_call5.v0 main_call5.v2 maximumf,
    TRef.unary main_call5.v2 main_call5.v3 (broadcastInDim S50000x1 ![0] bcast_S50000_S50000x1_0),
    TRef.unary main_call5.v3 main_call5.v4 (broadcastInDim S50000x40 ![0, 1] bcast_S50000x1_S50000x40_0_1),
    TRef.binary (.of main_v147 : TRef sig ⟨S50000x40, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S50000x40_S50000_d1 h_S_),
    TRef.unary main_call5.v7 main_call5.v8 (broadcastInDim S50000x1 ![0] bcast_S50000_S50000x1_0),
    TRef.unary main_call5.v8 main_call5.v9 Host.log,
    TRef.unary main_call5.v9 main_call5.v10 (broadcastInDim S50000x40 ![0, 1] bcast_S50000x1_S50000x40_0_1),
    TRef.binary main_call5.v5 main_call5.v10 main_call5.v11 subf ]

/-- The operations of @main's first window of statements. -/
abbrev ops0 : List (HloOp τ sig (Elt F)) := opsA ++ (opsB ++ opsC1)
/-- Those of its second window, the variance and the rectifier called there included. -/
abbrev ops1 : List (HloOp τ sig (Elt F)) := opsC2 ++ opsD1
/-- Those of its third window, its four calls included. -/
abbrev ops2 : List (HloOp τ sig (Elt F)) := opsD2 ++ (opsE ++ (opsF ++ opsG))

/-- @main's 259 operations in order, every call's operations in the call's place over that call's buffers. -/
abbrev ops : List (HloOp τ sig (Elt F)) := ops0 ++ (ops1 ++ ops2)

-- sixty binds a window: the unfolding recurses once per statement
set_option maxRecDepth 8192 in
/-- The first window of @main's statements is a straight line: it calls nothing. -/
theorem part0_eq (c : Dev nD) : main_part0 (F := F) c = seq ops0 := rfl

set_option maxRecDepth 8192 in
/-- The second window: the variance (with the select it calls) and the rectifier unfolded at their calls and their
    records at the fields, both sides are one chain of steps once sequencing is reassociated. -/
theorem part1_eq (c : Dev nD) : main_part1 (F := F) c = seq ops1 := by
  simp only [main_part1, fn_var.body, fn_where.body, fn_relu.body, bind_assoc, pure_bind]
  rfl

set_option maxRecDepth 8192 in
/-- The third window, likewise, with the log-softmax. -/
theorem part2_eq (c : Dev nD) : main_part2 (F := F) c = seq ops2 := by
  simp only [main_part2, fn_var.body, fn_where.body, fn_relu.body, fn_log_softmax.body, bind_assoc, pure_bind]
  rfl

/-- @main is the whole line: its three windows one after the other are the concatenation run as one. -/
theorem main_eq (c : Dev nD) : main (F := F) c = seq ops := by
  have h : (seq (ops (F := F)) : Prog (TpuEff nD τ sig (Elt F) (Pipeline.Sig Λ₀ (Fin 0) fun p => (pcfgs (F := F) p).Adm) .tc) PUnit)
      = (seq ops0 >>= fun _ => seq ops1 >>= fun _ => seq ops2) :=
    (seq_append ops0 (ops1 ++ ops2)).trans (congrArg (fun k => seq ops0 >>= fun _ => k) (seq_append ops1 ops2))
  rw [h, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub ..⟩
set_option maxRecDepth 8192 in
theorem opsA_fresh : (opsA : List (HloOp τ sig (Elt F))).Forall fun op => op.fresh = ∅ :=
  ⟨rfl, rfl, rfl, rfl, rfl, rfl, rfl, rfl, rfl, rfl, rfl, rfl, rfl, rfl, rfl⟩

set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..,
    unary_bufs_sub .., unary_bufs_sub .., binary_bufs_sub .., binary_bufs_sub .., unary_bufs_sub .., unary_bufs_sub ..,
    binary_bufs_sub ..⟩
set_option maxRecDepth 8192 in
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsC1_sub : (opsC1 : List (HloOp τ sig (Elt F))).Forall fun op => op.bufs ⊆ tcRefs τ sig :=
  ⟨nullary_bufs_sub .., binary_bufs_sub ..⟩
set_option maxRecDepth 8192 in
theorem opsC1_fresh : (opsC1 : List (HloOp τ sig (Elt F))).Forall fun op => op.fresh = ∅ :=
  ⟨rfl, rfl⟩

set_option maxRecDepth 8192 in
theorem opsC2_sub : (opsC2 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub ..⟩
set_option maxRecDepth 8192 in
theorem opsC2_fresh : (opsC2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsD1_sub : (opsD1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    binary_bufs_sub .., unary_bufs_sub ..⟩
set_option maxRecDepth 8192 in
theorem opsD1_fresh : (opsD1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsD2_sub : (opsD2 : List (HloOp τ sig (Elt F))).Forall fun op => op.bufs ⊆ tcRefs τ sig :=
  ⟨unary_bufs_sub .., binary_bufs_sub .., binary_bufs_sub .., unary_bufs_sub .., unary_bufs_sub .., binary_bufs_sub ..⟩
set_option maxRecDepth 8192 in
theorem opsD2_fresh : (opsD2 : List (HloOp τ sig (Elt F))).Forall fun op => op.fresh = ∅ :=
  ⟨rfl, rfl, rfl, rfl, rfl, rfl⟩

set_option maxRecDepth 8192 in
theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub ..⟩
set_option maxRecDepth 8192 in
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsF_sub : (opsF : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub ..⟩
set_option maxRecDepth 8192 in
theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsG_sub : (opsG : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., unary_bufs_sub ..,
    binary_bufs_sub ..⟩
set_option maxRecDepth 8192 in
theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_iff_forall_mem.mpr fun op h => by
    simp only [ops, ops0, ops1, ops2, List.mem_append, or_assoc] at h
    rcases h with h | h | h | h | h | h | h | h | h
    exacts [List.forall_iff_forall_mem.mp opsA_sub op h, List.forall_iff_forall_mem.mp opsB_sub op h, List.forall_iff_forall_mem.mp opsC1_sub op h, List.forall_iff_forall_mem.mp opsC2_sub op h, List.forall_iff_forall_mem.mp opsD1_sub op h, List.forall_iff_forall_mem.mp opsD2_sub op h, List.forall_iff_forall_mem.mp opsE_sub op h, List.forall_iff_forall_mem.mp opsF_sub op h, List.forall_iff_forall_mem.mp opsG_sub op h]

/-- Every operation determines its results. -/
theorem ops_fresh : ∀ op ∈ (ops : List (HloOp τ sig (Elt F))), op.fresh = ∅ := fun op h => by
    simp only [ops, ops0, ops1, ops2, List.mem_append, or_assoc] at h
    rcases h with h | h | h | h | h | h | h | h | h
    exacts [List.forall_iff_forall_mem.mp opsA_fresh op h, List.forall_iff_forall_mem.mp opsB_fresh op h, List.forall_iff_forall_mem.mp opsC1_fresh op h, List.forall_iff_forall_mem.mp opsC2_fresh op h, List.forall_iff_forall_mem.mp opsD1_fresh op h, List.forall_iff_forall_mem.mp opsD2_fresh op h, List.forall_iff_forall_mem.mp opsE_fresh op h, List.forall_iff_forall_mem.mp opsF_fresh op h, List.forall_iff_forall_mem.mp opsG_fresh op h]

/-- At the compiled mesh, for any float values, from any memory with zero counters: every weakly fair execution of @main
    on the TensorCore terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each stretch leaves alone

No operation writes an argument, and the stretches between the first and the second layer leave the edges' endpoints and
the inverse root degrees alone: each such buffer holds after a stretch what it held before it. -/

set_option maxRecDepth 8192 in
theorem keepA_arg0 (W : Valuation τ sig (Elt F)) :
    after opsA W (Proc.devRef .tc main_arg0) = W (Proc.devRef .tc main_arg0) := by
  simp only [opsA]
  after_results_simp

set_option maxRecDepth 8192 in
theorem keepA_arg1 (W : Valuation τ sig (Elt F)) :
    after opsA W (Proc.devRef .tc main_arg1) = W (Proc.devRef .tc main_arg1) := by
  simp only [opsA]
  after_results_simp

set_option maxRecDepth 8192 in
theorem keepA_arg2 (W : Valuation τ sig (Elt F)) :
    after opsA W (Proc.devRef .tc main_arg2) = W (Proc.devRef .tc main_arg2) := by
  simp only [opsA]
  after_results_simp

set_option maxRecDepth 8192 in
theorem keepA_arg3 (W : Valuation τ sig (Elt F)) :
    after opsA W (Proc.devRef .tc main_arg3) = W (Proc.devRef .tc main_arg3) := by
  simp only [opsA]
  after_results_simp

set_option maxRecDepth 8192 in
theorem keepA_arg4 (W : Valuation τ sig (Elt F)) :
    after opsA W (Proc.devRef .tc main_arg4) = W (Proc.devRef .tc main_arg4) := by
  simp only [opsA]
  after_results_simp

set_option maxRecDepth 8192 in
theorem keepA_arg5 (W : Valuation τ sig (Elt F)) :
    after opsA W (Proc.devRef .tc main_arg5) = W (Proc.devRef .tc main_arg5) := by
  simp only [opsA]
  after_results_simp

set_option maxRecDepth 8192 in
theorem keepA_arg6 (W : Valuation τ sig (Elt F)) :
    after opsA W (Proc.devRef .tc main_arg6) = W (Proc.devRef .tc main_arg6) := by
  simp only [opsA]
  after_results_simp

set_option maxRecDepth 8192 in
theorem keepA_arg7 (W : Valuation τ sig (Elt F)) :
    after opsA W (Proc.devRef .tc main_arg7) = W (Proc.devRef .tc main_arg7) := by
  simp only [opsA]
  after_results_simp

set_option maxRecDepth 8192 in
theorem keepA_arg8 (W : Valuation τ sig (Elt F)) :
    after opsA W (Proc.devRef .tc main_arg8) = W (Proc.devRef .tc main_arg8) := by
  simp only [opsA]
  after_results_simp

set_option maxRecDepth 8192 in
theorem keepA_arg9 (W : Valuation τ sig (Elt F)) :
    after opsA W (Proc.devRef .tc main_arg9) = W (Proc.devRef .tc main_arg9) := by
  simp only [opsA]
  after_results_simp

set_option maxRecDepth 8192 in
theorem keepA_arg10 (W : Valuation τ sig (Elt F)) :
    after opsA W (Proc.devRef .tc main_arg10) = W (Proc.devRef .tc main_arg10) := by
  simp only [opsA]
  after_results_simp

set_option maxRecDepth 8192 in
theorem keepA_arg11 (W : Valuation τ sig (Elt F)) :
    after opsA W (Proc.devRef .tc main_arg11) = W (Proc.devRef .tc main_arg11) := by
  simp only [opsA]
  after_results_simp

set_option maxRecDepth 8192 in
theorem keepA_arg12 (W : Valuation τ sig (Elt F)) :
    after opsA W (Proc.devRef .tc main_arg12) = W (Proc.devRef .tc main_arg12) := by
  simp only [opsA]
  after_results_simp

set_option maxRecDepth 8192 in
theorem keepA_arg13 (W : Valuation τ sig (Elt F)) :
    after opsA W (Proc.devRef .tc main_arg13) = W (Proc.devRef .tc main_arg13) := by
  simp only [opsA]
  after_results_simp

set_option maxRecDepth 8192 in
theorem keepB_arg0 (W : Valuation τ sig (Elt F)) :
    after opsB W (Proc.devRef .tc main_arg0) = W (Proc.devRef .tc main_arg0) := by
  simp only [opsB]
  after_results_simp

set_option maxRecDepth 8192 in
theorem keepB_arg1 (W : Valuation τ sig (Elt F)) :
    after opsB W (Proc.devRef .tc main_arg1) = W (Proc.devRef .tc main_arg1) := by
  simp only [opsB]
  after_results_simp

set_option maxRecDepth 8192 in
theorem keepB_arg2 (W : Valuation τ sig (Elt F)) :
    after opsB W (Proc.devRef .tc main_arg2) = W (Proc.devRef .tc main_arg2) := by
  simp only [opsB]
  after_results_simp

set_option maxRecDepth 8192 in
theorem keepB_arg3 (W : Valuation τ sig (Elt F)) :
    after opsB W (Proc.devRef .tc main_arg3) = W (Proc.devRef .tc main_arg3) := by
  simp only [opsB]
  after_results_simp

set_option maxRecDepth 8192 in
theorem keepB_arg4 (W : Valuation τ sig (Elt F)) :
    after opsB W (Proc.devRef .tc main_arg4) = W (Proc.devRef .tc main_arg4) := by
  simp only [opsB]
  after_results_simp

set_option maxRecDepth 8192 in
theorem keepB_arg5 (W : Valuation τ sig (Elt F)) :
    after opsB W (Proc.devRef .tc main_arg5) = W (Proc.devRef .tc main_arg5) := by
  simp only [opsB]
  after_results_simp

set_option maxRecDepth 8192 in
theorem keepB_arg6 (W : Valuation τ sig (Elt F)) :
    after opsB W (Proc.devRef .tc main_arg6) = W (Proc.devRef .tc main_arg6) := by
  simp only [opsB]
  after_results_simp

set_option maxRecDepth 8192 in
theorem keepB_arg7 (W : Valuation τ sig (Elt F)) :
    after opsB W (Proc.devRef .tc main_arg7) = W (Proc.devRef .tc main_arg7) := by
  simp only [opsB]
  after_results_simp

set_option maxRecDepth 8192 in
theorem keepB_arg8 (W : Valuation τ sig (Elt F)) :
    after opsB W (Proc.devRef .tc main_arg8) = W (Proc.devRef .tc main_arg8) := by
  simp only [opsB]
  after_results_simp

set_option maxRecDepth 8192 in
theorem keepB_arg9 (W : Valuation τ sig (Elt F)) :
    after opsB W (Proc.devRef .tc main_arg9) = W (Proc.devRef .tc main_arg9) := by
  simp only [opsB]
  after_results_simp

set_option maxRecDepth 8192 in
theorem keepB_arg10 (W : Valuation τ sig (Elt F)) :
    after opsB W (Proc.devRef .tc main_arg10) = W (Proc.devRef .tc main_arg10) := by
  simp only [opsB]
  after_results_simp

set_option maxRecDepth 8192 in
theorem keepB_arg11 (W : Valuation τ sig (Elt F)) :
    after opsB W (Proc.devRef .tc main_arg11) = W (Proc.devRef .tc main_arg11) := by
  simp only [opsB]
  after_results_simp

set_option maxRecDepth 8192 in
theorem keepB_arg12 (W : Valuation τ sig (Elt F)) :
    after opsB W (Proc.devRef .tc main_arg12) = W (Proc.devRef .tc main_arg12) := by
  simp only [opsB]
  after_results_simp

set_option maxRecDepth 8192 in
theorem keepB_arg13 (W : Valuation τ sig (Elt F)) :
    after opsB W (Proc.devRef .tc main_arg13) = W (Proc.devRef .tc main_arg13) := by
  simp only [opsB]
  after_results_simp

set_option maxRecDepth 8192 in
theorem keepC1_arg0 (W : Valuation τ sig (Elt F)) :
    after opsC1 W (Proc.devRef .tc main_arg0) = W (Proc.devRef .tc main_arg0) := by
  simp only [opsC1]
  after_results_simp

set_option maxRecDepth 8192 in
theorem keepC1_arg1 (W : Valuation τ sig (Elt F)) :
    after opsC1 W (Proc.devRef .tc main_arg1) = W (Proc.devRef .tc main_arg1) := by
  simp only [opsC1]
  after_results_simp

set_option maxRecDepth 8192 in
theorem keepC1_arg2 (W : Valuation τ sig (Elt F)) :
    after opsC1 W (Proc.devRef .tc main_arg2) = W (Proc.devRef .tc main_arg2) := by
  simp only [opsC1]
  after_results_simp

set_option maxRecDepth 8192 in
theorem keepC1_arg3 (W : Valuation τ sig (Elt F)) :
    after opsC1 W (Proc.devRef .tc main_arg3) = W (Proc.devRef .tc main_arg3) := by
  simp only [opsC1]
  after_results_simp

set_option maxRecDepth 8192 in
theorem keepC1_arg4 (W : Valuation τ sig (Elt F)) :
    after opsC1 W (Proc.devRef .tc main_arg4) = W (Proc.devRef .tc main_arg4) := by
  simp only [opsC1]
  after_results_simp

set_option maxRecDepth 8192 in
theorem keepC1_arg5 (W : Valuation τ sig (Elt F)) :
    after opsC1 W (Proc.devRef .tc main_arg5) = W (Proc.devRef .tc main_arg5) := by
  simp only [opsC1]
  after_results_simp

set_option maxRecDepth 8192 in
theorem keepC1_arg6 (W : Valuation τ sig (Elt F)) :
    after opsC1 W (Proc.devRef .tc main_arg6) = W (Proc.devRef .tc main_arg6) := by
  simp only [opsC1]
  after_results_simp

set_option maxRecDepth 8192 in
theorem keepC1_arg7 (W : Valuation τ sig (Elt F)) :
    after opsC1 W (Proc.devRef .tc main_arg7) = W (Proc.devRef .tc main_arg7) := by
  simp only [opsC1]
  after_results_simp

set_option maxRecDepth 8192 in
theorem keepC1_arg8 (W : Valuation τ sig (Elt F)) :
    after opsC1 W (Proc.devRef .tc main_arg8) = W (Proc.devRef .tc main_arg8) := by
  simp only [opsC1]
  after_results_simp

set_option maxRecDepth 8192 in
theorem keepC1_arg9 (W : Valuation τ sig (Elt F)) :
    after opsC1 W (Proc.devRef .tc main_arg9) = W (Proc.devRef .tc main_arg9) := by
  simp only [opsC1]
  after_results_simp

set_option maxRecDepth 8192 in
theorem keepC1_arg10 (W : Valuation τ sig (Elt F)) :
    after opsC1 W (Proc.devRef .tc main_arg10) = W (Proc.devRef .tc main_arg10) := by
  simp only [opsC1]
  after_results_simp

set_option maxRecDepth 8192 in
theorem keepC1_arg11 (W : Valuation τ sig (Elt F)) :
    after opsC1 W (Proc.devRef .tc main_arg11) = W (Proc.devRef .tc main_arg11) := by
  simp only [opsC1]
  after_results_simp

set_option maxRecDepth 8192 in
theorem keepC1_arg12 (W : Valuation τ sig (Elt F)) :
    after opsC1 W (Proc.devRef .tc main_arg12) = W (Proc.devRef .tc main_arg12) := by
  simp only [opsC1]
  after_results_simp

set_option maxRecDepth 8192 in
theorem keepC1_arg13 (W : Valuation τ sig (Elt F)) :
    after opsC1 W (Proc.devRef .tc main_arg13) = W (Proc.devRef .tc main_arg13) := by
  simp only [opsC1]
  after_results_simp

set_option maxRecDepth 8192 in
theorem keepC2_arg0 (W : Valuation τ sig (Elt F)) :
    after opsC2 W (Proc.devRef .tc main_arg0) = W (Proc.devRef .tc main_arg0) := by
  simp only [opsC2]
  after_results_simp

set_option maxRecDepth 8192 in
theorem keepC2_arg1 (W : Valuation τ sig (Elt F)) :
    after opsC2 W (Proc.devRef .tc main_arg1) = W (Proc.devRef .tc main_arg1) := by
  simp only [opsC2]
  after_results_simp

set_option maxRecDepth 8192 in
theorem keepC2_arg2 (W : Valuation τ sig (Elt F)) :
    after opsC2 W (Proc.devRef .tc main_arg2) = W (Proc.devRef .tc main_arg2) := by
  simp only [opsC2]
  after_results_simp

set_option maxRecDepth 8192 in
theorem keepC2_arg3 (W : Valuation τ sig (Elt F)) :
    after opsC2 W (Proc.devRef .tc main_arg3) = W (Proc.devRef .tc main_arg3) := by
  simp only [opsC2]
  after_results_simp

set_option maxRecDepth 8192 in
theorem keepC2_arg4 (W : Valuation τ sig (Elt F)) :
    after opsC2 W (Proc.devRef .tc main_arg4) = W (Proc.devRef .tc main_arg4) := by
  simp only [opsC2]
  after_results_simp

set_option maxRecDepth 8192 in
theorem keepC2_arg5 (W : Valuation τ sig (Elt F)) :
    after opsC2 W (Proc.devRef .tc main_arg5) = W (Proc.devRef .tc main_arg5) := by
  simp only [opsC2]
  after_results_simp

set_option maxRecDepth 8192 in
theorem keepC2_arg6 (W : Valuation τ sig (Elt F)) :
    after opsC2 W (Proc.devRef .tc main_arg6) = W (Proc.devRef .tc main_arg6) := by
  simp only [opsC2]
  after_results_simp

set_option maxRecDepth 8192 in
theorem keepC2_arg7 (W : Valuation τ sig (Elt F)) :
    after opsC2 W (Proc.devRef .tc main_arg7) = W (Proc.devRef .tc main_arg7) := by
  simp only [opsC2]
  after_results_simp

set_option maxRecDepth 8192 in
theorem keepC2_arg8 (W : Valuation τ sig (Elt F)) :
    after opsC2 W (Proc.devRef .tc main_arg8) = W (Proc.devRef .tc main_arg8) := by
  simp only [opsC2]
  after_results_simp

set_option maxRecDepth 8192 in
theorem keepC2_arg9 (W : Valuation τ sig (Elt F)) :
    after opsC2 W (Proc.devRef .tc main_arg9) = W (Proc.devRef .tc main_arg9) := by
  simp only [opsC2]
  after_results_simp

set_option maxRecDepth 8192 in
theorem keepC2_arg10 (W : Valuation τ sig (Elt F)) :
    after opsC2 W (Proc.devRef .tc main_arg10) = W (Proc.devRef .tc main_arg10) := by
  simp only [opsC2]
  after_results_simp

set_option maxRecDepth 8192 in
theorem keepC2_arg11 (W : Valuation τ sig (Elt F)) :
    after opsC2 W (Proc.devRef .tc main_arg11) = W (Proc.devRef .tc main_arg11) := by
  simp only [opsC2]
  after_results_simp

set_option maxRecDepth 8192 in
theorem keepC2_arg12 (W : Valuation τ sig (Elt F)) :
    after opsC2 W (Proc.devRef .tc main_arg12) = W (Proc.devRef .tc main_arg12) := by
  simp only [opsC2]
  after_results_simp

set_option maxRecDepth 8192 in
theorem keepC2_arg13 (W : Valuation τ sig (Elt F)) :
    after opsC2 W (Proc.devRef .tc main_arg13) = W (Proc.devRef .tc main_arg13) := by
  simp only [opsC2]
  after_results_simp

set_option maxRecDepth 8192 in
theorem keepD1_arg0 (W : Valuation τ sig (Elt F)) :
    after opsD1 W (Proc.devRef .tc main_arg0) = W (Proc.devRef .tc main_arg0) := by
  simp only [opsD1]
  after_results_simp

set_option maxRecDepth 8192 in
theorem keepD1_arg1 (W : Valuation τ sig (Elt F)) :
    after opsD1 W (Proc.devRef .tc main_arg1) = W (Proc.devRef .tc main_arg1) := by
  simp only [opsD1]
  after_results_simp

set_option maxRecDepth 8192 in
theorem keepD1_arg2 (W : Valuation τ sig (Elt F)) :
    after opsD1 W (Proc.devRef .tc main_arg2) = W (Proc.devRef .tc main_arg2) := by
  simp only [opsD1]
  after_results_simp

set_option maxRecDepth 8192 in
theorem keepD1_arg3 (W : Valuation τ sig (Elt F)) :
    after opsD1 W (Proc.devRef .tc main_arg3) = W (Proc.devRef .tc main_arg3) := by
  simp only [opsD1]
  after_results_simp

set_option maxRecDepth 8192 in
theorem keepD1_arg4 (W : Valuation τ sig (Elt F)) :
    after opsD1 W (Proc.devRef .tc main_arg4) = W (Proc.devRef .tc main_arg4) := by
  simp only [opsD1]
  after_results_simp

set_option maxRecDepth 8192 in
theorem keepD1_arg5 (W : Valuation τ sig (Elt F)) :
    after opsD1 W (Proc.devRef .tc main_arg5) = W (Proc.devRef .tc main_arg5) := by
  simp only [opsD1]
  after_results_simp

set_option maxRecDepth 8192 in
theorem keepD1_arg6 (W : Valuation τ sig (Elt F)) :
    after opsD1 W (Proc.devRef .tc main_arg6) = W (Proc.devRef .tc main_arg6) := by
  simp only [opsD1]
  after_results_simp

set_option maxRecDepth 8192 in
theorem keepD1_arg7 (W : Valuation τ sig (Elt F)) :
    after opsD1 W (Proc.devRef .tc main_arg7) = W (Proc.devRef .tc main_arg7) := by
  simp only [opsD1]
  after_results_simp

set_option maxRecDepth 8192 in
theorem keepD1_arg8 (W : Valuation τ sig (Elt F)) :
    after opsD1 W (Proc.devRef .tc main_arg8) = W (Proc.devRef .tc main_arg8) := by
  simp only [opsD1]
  after_results_simp

set_option maxRecDepth 8192 in
theorem keepD1_arg9 (W : Valuation τ sig (Elt F)) :
    after opsD1 W (Proc.devRef .tc main_arg9) = W (Proc.devRef .tc main_arg9) := by
  simp only [opsD1]
  after_results_simp

set_option maxRecDepth 8192 in
theorem keepD1_arg10 (W : Valuation τ sig (Elt F)) :
    after opsD1 W (Proc.devRef .tc main_arg10) = W (Proc.devRef .tc main_arg10) := by
  simp only [opsD1]
  after_results_simp

set_option maxRecDepth 8192 in
theorem keepD1_arg11 (W : Valuation τ sig (Elt F)) :
    after opsD1 W (Proc.devRef .tc main_arg11) = W (Proc.devRef .tc main_arg11) := by
  simp only [opsD1]
  after_results_simp

set_option maxRecDepth 8192 in
theorem keepD1_arg12 (W : Valuation τ sig (Elt F)) :
    after opsD1 W (Proc.devRef .tc main_arg12) = W (Proc.devRef .tc main_arg12) := by
  simp only [opsD1]
  after_results_simp

set_option maxRecDepth 8192 in
theorem keepD1_arg13 (W : Valuation τ sig (Elt F)) :
    after opsD1 W (Proc.devRef .tc main_arg13) = W (Proc.devRef .tc main_arg13) := by
  simp only [opsD1]
  after_results_simp

set_option maxRecDepth 8192 in
theorem keepD2_arg0 (W : Valuation τ sig (Elt F)) :
    after opsD2 W (Proc.devRef .tc main_arg0) = W (Proc.devRef .tc main_arg0) := by
  simp only [opsD2]
  after_results_simp

set_option maxRecDepth 8192 in
theorem keepD2_arg1 (W : Valuation τ sig (Elt F)) :
    after opsD2 W (Proc.devRef .tc main_arg1) = W (Proc.devRef .tc main_arg1) := by
  simp only [opsD2]
  after_results_simp

set_option maxRecDepth 8192 in
theorem keepD2_arg2 (W : Valuation τ sig (Elt F)) :
    after opsD2 W (Proc.devRef .tc main_arg2) = W (Proc.devRef .tc main_arg2) := by
  simp only [opsD2]
  after_results_simp

set_option maxRecDepth 8192 in
theorem keepD2_arg3 (W : Valuation τ sig (Elt F)) :
    after opsD2 W (Proc.devRef .tc main_arg3) = W (Proc.devRef .tc main_arg3) := by
  simp only [opsD2]
  after_results_simp

set_option maxRecDepth 8192 in
theorem keepD2_arg4 (W : Valuation τ sig (Elt F)) :
    after opsD2 W (Proc.devRef .tc main_arg4) = W (Proc.devRef .tc main_arg4) := by
  simp only [opsD2]
  after_results_simp

set_option maxRecDepth 8192 in
theorem keepD2_arg5 (W : Valuation τ sig (Elt F)) :
    after opsD2 W (Proc.devRef .tc main_arg5) = W (Proc.devRef .tc main_arg5) := by
  simp only [opsD2]
  after_results_simp

set_option maxRecDepth 8192 in
theorem keepD2_arg6 (W : Valuation τ sig (Elt F)) :
    after opsD2 W (Proc.devRef .tc main_arg6) = W (Proc.devRef .tc main_arg6) := by
  simp only [opsD2]
  after_results_simp

set_option maxRecDepth 8192 in
theorem keepD2_arg7 (W : Valuation τ sig (Elt F)) :
    after opsD2 W (Proc.devRef .tc main_arg7) = W (Proc.devRef .tc main_arg7) := by
  simp only [opsD2]
  after_results_simp

set_option maxRecDepth 8192 in
theorem keepD2_arg8 (W : Valuation τ sig (Elt F)) :
    after opsD2 W (Proc.devRef .tc main_arg8) = W (Proc.devRef .tc main_arg8) := by
  simp only [opsD2]
  after_results_simp

set_option maxRecDepth 8192 in
theorem keepD2_arg9 (W : Valuation τ sig (Elt F)) :
    after opsD2 W (Proc.devRef .tc main_arg9) = W (Proc.devRef .tc main_arg9) := by
  simp only [opsD2]
  after_results_simp

set_option maxRecDepth 8192 in
theorem keepD2_arg10 (W : Valuation τ sig (Elt F)) :
    after opsD2 W (Proc.devRef .tc main_arg10) = W (Proc.devRef .tc main_arg10) := by
  simp only [opsD2]
  after_results_simp

set_option maxRecDepth 8192 in
theorem keepD2_arg11 (W : Valuation τ sig (Elt F)) :
    after opsD2 W (Proc.devRef .tc main_arg11) = W (Proc.devRef .tc main_arg11) := by
  simp only [opsD2]
  after_results_simp

set_option maxRecDepth 8192 in
theorem keepD2_arg12 (W : Valuation τ sig (Elt F)) :
    after opsD2 W (Proc.devRef .tc main_arg12) = W (Proc.devRef .tc main_arg12) := by
  simp only [opsD2]
  after_results_simp

set_option maxRecDepth 8192 in
theorem keepD2_arg13 (W : Valuation τ sig (Elt F)) :
    after opsD2 W (Proc.devRef .tc main_arg13) = W (Proc.devRef .tc main_arg13) := by
  simp only [opsD2]
  after_results_simp

set_option maxRecDepth 8192 in
theorem keepE_arg0 (W : Valuation τ sig (Elt F)) :
    after opsE W (Proc.devRef .tc main_arg0) = W (Proc.devRef .tc main_arg0) := by
  simp only [opsE]
  after_results_simp

set_option maxRecDepth 8192 in
theorem keepE_arg1 (W : Valuation τ sig (Elt F)) :
    after opsE W (Proc.devRef .tc main_arg1) = W (Proc.devRef .tc main_arg1) := by
  simp only [opsE]
  after_results_simp

set_option maxRecDepth 8192 in
theorem keepE_arg2 (W : Valuation τ sig (Elt F)) :
    after opsE W (Proc.devRef .tc main_arg2) = W (Proc.devRef .tc main_arg2) := by
  simp only [opsE]
  after_results_simp

set_option maxRecDepth 8192 in
theorem keepE_arg3 (W : Valuation τ sig (Elt F)) :
    after opsE W (Proc.devRef .tc main_arg3) = W (Proc.devRef .tc main_arg3) := by
  simp only [opsE]
  after_results_simp

set_option maxRecDepth 8192 in
theorem keepE_arg4 (W : Valuation τ sig (Elt F)) :
    after opsE W (Proc.devRef .tc main_arg4) = W (Proc.devRef .tc main_arg4) := by
  simp only [opsE]
  after_results_simp

set_option maxRecDepth 8192 in
theorem keepE_arg5 (W : Valuation τ sig (Elt F)) :
    after opsE W (Proc.devRef .tc main_arg5) = W (Proc.devRef .tc main_arg5) := by
  simp only [opsE]
  after_results_simp

set_option maxRecDepth 8192 in
theorem keepE_arg6 (W : Valuation τ sig (Elt F)) :
    after opsE W (Proc.devRef .tc main_arg6) = W (Proc.devRef .tc main_arg6) := by
  simp only [opsE]
  after_results_simp

set_option maxRecDepth 8192 in
theorem keepE_arg7 (W : Valuation τ sig (Elt F)) :
    after opsE W (Proc.devRef .tc main_arg7) = W (Proc.devRef .tc main_arg7) := by
  simp only [opsE]
  after_results_simp

set_option maxRecDepth 8192 in
theorem keepE_arg8 (W : Valuation τ sig (Elt F)) :
    after opsE W (Proc.devRef .tc main_arg8) = W (Proc.devRef .tc main_arg8) := by
  simp only [opsE]
  after_results_simp

set_option maxRecDepth 8192 in
theorem keepE_arg9 (W : Valuation τ sig (Elt F)) :
    after opsE W (Proc.devRef .tc main_arg9) = W (Proc.devRef .tc main_arg9) := by
  simp only [opsE]
  after_results_simp

set_option maxRecDepth 8192 in
theorem keepE_arg10 (W : Valuation τ sig (Elt F)) :
    after opsE W (Proc.devRef .tc main_arg10) = W (Proc.devRef .tc main_arg10) := by
  simp only [opsE]
  after_results_simp

set_option maxRecDepth 8192 in
theorem keepE_arg11 (W : Valuation τ sig (Elt F)) :
    after opsE W (Proc.devRef .tc main_arg11) = W (Proc.devRef .tc main_arg11) := by
  simp only [opsE]
  after_results_simp

set_option maxRecDepth 8192 in
theorem keepE_arg12 (W : Valuation τ sig (Elt F)) :
    after opsE W (Proc.devRef .tc main_arg12) = W (Proc.devRef .tc main_arg12) := by
  simp only [opsE]
  after_results_simp

set_option maxRecDepth 8192 in
theorem keepE_arg13 (W : Valuation τ sig (Elt F)) :
    after opsE W (Proc.devRef .tc main_arg13) = W (Proc.devRef .tc main_arg13) := by
  simp only [opsE]
  after_results_simp

set_option maxRecDepth 8192 in
theorem keepF_arg0 (W : Valuation τ sig (Elt F)) :
    after opsF W (Proc.devRef .tc main_arg0) = W (Proc.devRef .tc main_arg0) := by
  simp only [opsF]
  after_results_simp

set_option maxRecDepth 8192 in
theorem keepF_arg1 (W : Valuation τ sig (Elt F)) :
    after opsF W (Proc.devRef .tc main_arg1) = W (Proc.devRef .tc main_arg1) := by
  simp only [opsF]
  after_results_simp

set_option maxRecDepth 8192 in
theorem keepF_arg2 (W : Valuation τ sig (Elt F)) :
    after opsF W (Proc.devRef .tc main_arg2) = W (Proc.devRef .tc main_arg2) := by
  simp only [opsF]
  after_results_simp

set_option maxRecDepth 8192 in
theorem keepF_arg3 (W : Valuation τ sig (Elt F)) :
    after opsF W (Proc.devRef .tc main_arg3) = W (Proc.devRef .tc main_arg3) := by
  simp only [opsF]
  after_results_simp

set_option maxRecDepth 8192 in
theorem keepF_arg4 (W : Valuation τ sig (Elt F)) :
    after opsF W (Proc.devRef .tc main_arg4) = W (Proc.devRef .tc main_arg4) := by
  simp only [opsF]
  after_results_simp

set_option maxRecDepth 8192 in
theorem keepF_arg5 (W : Valuation τ sig (Elt F)) :
    after opsF W (Proc.devRef .tc main_arg5) = W (Proc.devRef .tc main_arg5) := by
  simp only [opsF]
  after_results_simp

set_option maxRecDepth 8192 in
theorem keepF_arg6 (W : Valuation τ sig (Elt F)) :
    after opsF W (Proc.devRef .tc main_arg6) = W (Proc.devRef .tc main_arg6) := by
  simp only [opsF]
  after_results_simp

set_option maxRecDepth 8192 in
theorem keepF_arg7 (W : Valuation τ sig (Elt F)) :
    after opsF W (Proc.devRef .tc main_arg7) = W (Proc.devRef .tc main_arg7) := by
  simp only [opsF]
  after_results_simp

set_option maxRecDepth 8192 in
theorem keepF_arg8 (W : Valuation τ sig (Elt F)) :
    after opsF W (Proc.devRef .tc main_arg8) = W (Proc.devRef .tc main_arg8) := by
  simp only [opsF]
  after_results_simp

set_option maxRecDepth 8192 in
theorem keepF_arg9 (W : Valuation τ sig (Elt F)) :
    after opsF W (Proc.devRef .tc main_arg9) = W (Proc.devRef .tc main_arg9) := by
  simp only [opsF]
  after_results_simp

set_option maxRecDepth 8192 in
theorem keepF_arg10 (W : Valuation τ sig (Elt F)) :
    after opsF W (Proc.devRef .tc main_arg10) = W (Proc.devRef .tc main_arg10) := by
  simp only [opsF]
  after_results_simp

set_option maxRecDepth 8192 in
theorem keepF_arg11 (W : Valuation τ sig (Elt F)) :
    after opsF W (Proc.devRef .tc main_arg11) = W (Proc.devRef .tc main_arg11) := by
  simp only [opsF]
  after_results_simp

set_option maxRecDepth 8192 in
theorem keepF_arg12 (W : Valuation τ sig (Elt F)) :
    after opsF W (Proc.devRef .tc main_arg12) = W (Proc.devRef .tc main_arg12) := by
  simp only [opsF]
  after_results_simp

set_option maxRecDepth 8192 in
theorem keepF_arg13 (W : Valuation τ sig (Elt F)) :
    after opsF W (Proc.devRef .tc main_arg13) = W (Proc.devRef .tc main_arg13) := by
  simp only [opsF]
  after_results_simp

set_option maxRecDepth 8192 in
theorem keepG_arg0 (W : Valuation τ sig (Elt F)) :
    after opsG W (Proc.devRef .tc main_arg0) = W (Proc.devRef .tc main_arg0) := by
  simp only [opsG]
  after_results_simp

set_option maxRecDepth 8192 in
theorem keepG_arg1 (W : Valuation τ sig (Elt F)) :
    after opsG W (Proc.devRef .tc main_arg1) = W (Proc.devRef .tc main_arg1) := by
  simp only [opsG]
  after_results_simp

set_option maxRecDepth 8192 in
theorem keepG_arg2 (W : Valuation τ sig (Elt F)) :
    after opsG W (Proc.devRef .tc main_arg2) = W (Proc.devRef .tc main_arg2) := by
  simp only [opsG]
  after_results_simp

set_option maxRecDepth 8192 in
theorem keepG_arg3 (W : Valuation τ sig (Elt F)) :
    after opsG W (Proc.devRef .tc main_arg3) = W (Proc.devRef .tc main_arg3) := by
  simp only [opsG]
  after_results_simp

set_option maxRecDepth 8192 in
theorem keepG_arg4 (W : Valuation τ sig (Elt F)) :
    after opsG W (Proc.devRef .tc main_arg4) = W (Proc.devRef .tc main_arg4) := by
  simp only [opsG]
  after_results_simp

set_option maxRecDepth 8192 in
theorem keepG_arg5 (W : Valuation τ sig (Elt F)) :
    after opsG W (Proc.devRef .tc main_arg5) = W (Proc.devRef .tc main_arg5) := by
  simp only [opsG]
  after_results_simp

set_option maxRecDepth 8192 in
theorem keepG_arg6 (W : Valuation τ sig (Elt F)) :
    after opsG W (Proc.devRef .tc main_arg6) = W (Proc.devRef .tc main_arg6) := by
  simp only [opsG]
  after_results_simp

set_option maxRecDepth 8192 in
theorem keepG_arg7 (W : Valuation τ sig (Elt F)) :
    after opsG W (Proc.devRef .tc main_arg7) = W (Proc.devRef .tc main_arg7) := by
  simp only [opsG]
  after_results_simp

set_option maxRecDepth 8192 in
theorem keepG_arg8 (W : Valuation τ sig (Elt F)) :
    after opsG W (Proc.devRef .tc main_arg8) = W (Proc.devRef .tc main_arg8) := by
  simp only [opsG]
  after_results_simp

set_option maxRecDepth 8192 in
theorem keepG_arg9 (W : Valuation τ sig (Elt F)) :
    after opsG W (Proc.devRef .tc main_arg9) = W (Proc.devRef .tc main_arg9) := by
  simp only [opsG]
  after_results_simp

set_option maxRecDepth 8192 in
theorem keepG_arg10 (W : Valuation τ sig (Elt F)) :
    after opsG W (Proc.devRef .tc main_arg10) = W (Proc.devRef .tc main_arg10) := by
  simp only [opsG]
  after_results_simp

set_option maxRecDepth 8192 in
theorem keepG_arg11 (W : Valuation τ sig (Elt F)) :
    after opsG W (Proc.devRef .tc main_arg11) = W (Proc.devRef .tc main_arg11) := by
  simp only [opsG]
  after_results_simp

set_option maxRecDepth 8192 in
theorem keepG_arg12 (W : Valuation τ sig (Elt F)) :
    after opsG W (Proc.devRef .tc main_arg12) = W (Proc.devRef .tc main_arg12) := by
  simp only [opsG]
  after_results_simp

set_option maxRecDepth 8192 in
theorem keepG_arg13 (W : Valuation τ sig (Elt F)) :
    after opsG W (Proc.devRef .tc main_arg13) = W (Proc.devRef .tc main_arg13) := by
  simp only [opsG]
  after_results_simp

set_option maxRecDepth 8192 in
theorem keepB_v1 (W : Valuation τ sig (Elt F)) :
    after opsB W (Proc.devRef .tc main_v1) = W (Proc.devRef .tc main_v1) := by
  simp only [opsB]
  after_results_simp

set_option maxRecDepth 8192 in
theorem keepB_v3 (W : Valuation τ sig (Elt F)) :
    after opsB W (Proc.devRef .tc main_v3) = W (Proc.devRef .tc main_v3) := by
  simp only [opsB]
  after_results_simp

set_option maxRecDepth 8192 in
theorem keepB_v10 (W : Valuation τ sig (Elt F)) :
    after opsB W (Proc.devRef .tc main_v10) = W (Proc.devRef .tc main_v10) := by
  simp only [opsB]
  after_results_simp

set_option maxRecDepth 8192 in
theorem keepC1_v1 (W : Valuation τ sig (Elt F)) :
    after opsC1 W (Proc.devRef .tc main_v1) = W (Proc.devRef .tc main_v1) := by
  simp only [opsC1]
  after_results_simp

set_option maxRecDepth 8192 in
theorem keepC1_v3 (W : Valuation τ sig (Elt F)) :
    after opsC1 W (Proc.devRef .tc main_v3) = W (Proc.devRef .tc main_v3) := by
  simp only [opsC1]
  after_results_simp

set_option maxRecDepth 8192 in
theorem keepC1_v10 (W : Valuation τ sig (Elt F)) :
    after opsC1 W (Proc.devRef .tc main_v10) = W (Proc.devRef .tc main_v10) := by
  simp only [opsC1]
  after_results_simp

set_option maxRecDepth 8192 in
theorem keepC2_v1 (W : Valuation τ sig (Elt F)) :
    after opsC2 W (Proc.devRef .tc main_v1) = W (Proc.devRef .tc main_v1) := by
  simp only [opsC2]
  after_results_simp

set_option maxRecDepth 8192 in
theorem keepC2_v3 (W : Valuation τ sig (Elt F)) :
    after opsC2 W (Proc.devRef .tc main_v3) = W (Proc.devRef .tc main_v3) := by
  simp only [opsC2]
  after_results_simp

set_option maxRecDepth 8192 in
theorem keepC2_v10 (W : Valuation τ sig (Elt F)) :
    after opsC2 W (Proc.devRef .tc main_v10) = W (Proc.devRef .tc main_v10) := by
  simp only [opsC2]
  after_results_simp

/-- Two lines run one after the other leave what their concatenation leaves. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The arguments are unchanged -/

theorem arg0_eq (V : Valuation τ sig (Elt F)) :
    after ops V (main_arg0 : DevRef τ sig) = V (main_arg0 : DevRef τ sig) := by
  simp only [ops, ops0, ops1, ops2, after_app]
  rw [keepG_arg0, keepF_arg0, keepE_arg0, keepD2_arg0, keepD1_arg0, keepC2_arg0, keepC1_arg0, keepB_arg0, keepA_arg0]

theorem arg1_eq (V : Valuation τ sig (Elt F)) :
    after ops V (main_arg1 : DevRef τ sig) = V (main_arg1 : DevRef τ sig) := by
  simp only [ops, ops0, ops1, ops2, after_app]
  rw [keepG_arg1, keepF_arg1, keepE_arg1, keepD2_arg1, keepD1_arg1, keepC2_arg1, keepC1_arg1, keepB_arg1, keepA_arg1]

theorem arg2_eq (V : Valuation τ sig (Elt F)) :
    after ops V (main_arg2 : DevRef τ sig) = V (main_arg2 : DevRef τ sig) := by
  simp only [ops, ops0, ops1, ops2, after_app]
  rw [keepG_arg2, keepF_arg2, keepE_arg2, keepD2_arg2, keepD1_arg2, keepC2_arg2, keepC1_arg2, keepB_arg2, keepA_arg2]

theorem arg3_eq (V : Valuation τ sig (Elt F)) :
    after ops V (main_arg3 : DevRef τ sig) = V (main_arg3 : DevRef τ sig) := by
  simp only [ops, ops0, ops1, ops2, after_app]
  rw [keepG_arg3, keepF_arg3, keepE_arg3, keepD2_arg3, keepD1_arg3, keepC2_arg3, keepC1_arg3, keepB_arg3, keepA_arg3]

theorem arg4_eq (V : Valuation τ sig (Elt F)) :
    after ops V (main_arg4 : DevRef τ sig) = V (main_arg4 : DevRef τ sig) := by
  simp only [ops, ops0, ops1, ops2, after_app]
  rw [keepG_arg4, keepF_arg4, keepE_arg4, keepD2_arg4, keepD1_arg4, keepC2_arg4, keepC1_arg4, keepB_arg4, keepA_arg4]

theorem arg5_eq (V : Valuation τ sig (Elt F)) :
    after ops V (main_arg5 : DevRef τ sig) = V (main_arg5 : DevRef τ sig) := by
  simp only [ops, ops0, ops1, ops2, after_app]
  rw [keepG_arg5, keepF_arg5, keepE_arg5, keepD2_arg5, keepD1_arg5, keepC2_arg5, keepC1_arg5, keepB_arg5, keepA_arg5]

theorem arg6_eq (V : Valuation τ sig (Elt F)) :
    after ops V (main_arg6 : DevRef τ sig) = V (main_arg6 : DevRef τ sig) := by
  simp only [ops, ops0, ops1, ops2, after_app]
  rw [keepG_arg6, keepF_arg6, keepE_arg6, keepD2_arg6, keepD1_arg6, keepC2_arg6, keepC1_arg6, keepB_arg6, keepA_arg6]

theorem arg7_eq (V : Valuation τ sig (Elt F)) :
    after ops V (main_arg7 : DevRef τ sig) = V (main_arg7 : DevRef τ sig) := by
  simp only [ops, ops0, ops1, ops2, after_app]
  rw [keepG_arg7, keepF_arg7, keepE_arg7, keepD2_arg7, keepD1_arg7, keepC2_arg7, keepC1_arg7, keepB_arg7, keepA_arg7]

theorem arg8_eq (V : Valuation τ sig (Elt F)) :
    after ops V (main_arg8 : DevRef τ sig) = V (main_arg8 : DevRef τ sig) := by
  simp only [ops, ops0, ops1, ops2, after_app]
  rw [keepG_arg8, keepF_arg8, keepE_arg8, keepD2_arg8, keepD1_arg8, keepC2_arg8, keepC1_arg8, keepB_arg8, keepA_arg8]

theorem arg9_eq (V : Valuation τ sig (Elt F)) :
    after ops V (main_arg9 : DevRef τ sig) = V (main_arg9 : DevRef τ sig) := by
  simp only [ops, ops0, ops1, ops2, after_app]
  rw [keepG_arg9, keepF_arg9, keepE_arg9, keepD2_arg9, keepD1_arg9, keepC2_arg9, keepC1_arg9, keepB_arg9, keepA_arg9]

theorem arg10_eq (V : Valuation τ sig (Elt F)) :
    after ops V (main_arg10 : DevRef τ sig) = V (main_arg10 : DevRef τ sig) := by
  simp only [ops, ops0, ops1, ops2, after_app]
  rw [keepG_arg10, keepF_arg10, keepE_arg10, keepD2_arg10, keepD1_arg10, keepC2_arg10, keepC1_arg10, keepB_arg10, keepA_arg10]

theorem arg11_eq (V : Valuation τ sig (Elt F)) :
    after ops V (main_arg11 : DevRef τ sig) = V (main_arg11 : DevRef τ sig) := by
  simp only [ops, ops0, ops1, ops2, after_app]
  rw [keepG_arg11, keepF_arg11, keepE_arg11, keepD2_arg11, keepD1_arg11, keepC2_arg11, keepC1_arg11, keepB_arg11, keepA_arg11]

theorem arg12_eq (V : Valuation τ sig (Elt F)) :
    after ops V (main_arg12 : DevRef τ sig) = V (main_arg12 : DevRef τ sig) := by
  simp only [ops, ops0, ops1, ops2, after_app]
  rw [keepG_arg12, keepF_arg12, keepE_arg12, keepD2_arg12, keepD1_arg12, keepC2_arg12, keepC1_arg12, keepB_arg12, keepA_arg12]

theorem arg13_eq (V : Valuation τ sig (Elt F)) :
    after ops V (main_arg13 : DevRef τ sig) = V (main_arg13 : DevRef τ sig) := by
  simp only [ops, ops0, ops1, ops2, after_app]
  rw [keepG_arg13, keepF_arg13, keepE_arg13, keepD2_arg13, keepD1_arg13, keepC2_arg13, keepC1_arg13, keepB_arg13, keepA_arg13]

end Cert.ReferenceIdeal.RefValue

end
-- ==== Proof.RefOut.lean ====
/-
  The reference's result is the network function. The buffer contents are followed stage by stage: after the
  stretch of operations that ends a stage, the stage's output buffer holds the stage function of the arguments'
  launch contents (`Cert.Gcn.Ref`: degrees and dense product, graph-convolution layer, batch normalisation and
  rectifier, again, the last normalisation, the affine map and the log-softmax), and the buffers a later stage still
  reads hold what they held. Each stage is read off its own stretch with the earlier stages' outputs as opaque
  values, so no term ever holds more than one stage's operations. `out_eq` composes the stages into
  `Cert.Gcn.Ref.out`; `run` is the program's run with that result and the arguments unchanged.
-/
import proofs.«124287_j84756884620023_2_alg».proof.Proof.RefRun
import proofs.«124287_j84756884620023_2_alg».proof.Proof.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

-- every array operation is compared as a whole, never opened: the stage equations do not look inside one (what is unfolded
-- is the stages' own definitions, and the identity conversions around a called function's operations)
attribute [local irreducible] Host.reduce Host.reduceAdd Host.gather Host.scatterAdd Host.divf Host.rsqrt Host.exp Host.log
  addf subf mulf maximumf cmpf cmpi addi sitofp select constant constantI broadcastInDim shapeCast extractStridedSlice

/-! ## The normalisation, the rectifier and the log-softmax for any float values

The reference calls the variance, the rectifier and the log-softmax as functions of its own; their operations carry the
(identity) conversions between a call's buffers and the function's typed values. The stretches that hold a call are
therefore first read for ANY float values `F`, against the same stage functions written over `F` — there the
conversions fall away operation by operation and nothing opens an arithmetic operation —, and only then specialised
to the extended reals, where they are `Cert.Gcn.Ref`'s by unfolding. -/

section Generic

variable {F : FTy → Type} [FloatOps F]

/-- The sum of every column. -/
def colSumF (h : FVec F S50000x128 .f32) : FVec F S128 .f32 := Host.reduceAdd h (constant S_ .f32 0x00000000#32) reducesTo_S50000x128_S128_d0 h_S_
/-- One number per column, as a single row. -/
def rowF (b : FVec F S128 .f32) : FVec F S1x128 .f32 := broadcastInDim S1x128 ![1] bcast_S128_S1x128_1 b
/-- A single row repeated down the 50000 rows. -/
def downF (r : FVec F S1x128 .f32) : FVec F S50000x128 .f32 := broadcastInDim S50000x128 ![0, 1] bcast_S1x128_S50000x128_0_1 r
/-- One number per column, repeated down the rows. -/
def lanesF (b : FVec F S128 .f32) : FVec F S50000x128 .f32 := downF (rowF b)
/-- The mean of every column. -/
def meanF (h : FVec F S50000x128 .f32) : FVec F S128 .f32 := Host.divf (colSumF h) (broadcastInDim S128 ![] bcast_S_S128 (constant S_ .f32 0x47435000#32))
/-- The number the variance divides by: 50000 minus the zero degrees of freedom. -/
def cntLessF : FVec F S_ .f32 := subf (constant (F := F) S_ .f32 0x47435000#32) (sitofp (F := F) .f32 (constantI S_ 32 0#32))
/-- The deviations from the column mean, as the variance function computes them. -/
def devF (h : FVec F S50000x128 .f32) : FVec F S50000x128 .f32 :=
  subf h (downF (Host.divf (rowF (colSumF h)) (broadcastInDim S1x128 ![] bcast_S_S1x128 (constant S_ .f32 0x47435000#32))))
/-- The biased variance of every column: the mean of the squared deviations, selected against a not-a-number when the
    divisor is not positive. -/
def varF (h : FVec F S50000x128 .f32) : FVec F S128 .f32 :=
  select (broadcastInDim S128 ![] bcast_S_S128 (cmpf .ogt (cntLessF (F := F)) (constant (F := F) S_ .f32 0x00000000#32)))
    (Host.divf (colSumF (mulf (devF h) (devF h))) (broadcastInDim S128 ![] bcast_S_S128 cntLessF))
    (broadcastInDim S128 ![] bcast_S_S128 (id (constant S_ .f32 0x7FC00000#32)))
/-- The inverse standard deviation of every column, 1 / sqrt(var + 1e-5). -/
def invstdF (h : FVec F S50000x128 .f32) : FVec F S128 .f32 :=
  Host.rsqrt (addf (varF h) (broadcastInDim S128 ![] bcast_S_S128 (constant S_ .f32 0x3727C5AC#32)))
/-- Batch normalisation: g · (h − mean) · invstd + b, column by column. -/
def bnF (h : FVec F S50000x128 .f32) (g be : FVec F S128 .f32) : FVec F S50000x128 .f32 :=
  addf (mulf (mulf (lanesF g) (subf h (lanesF (meanF h)))) (lanesF (invstdF h))) (lanesF be)
/-- The rectifier max(·, 0). -/
def reluF (h : FVec F S50000x128 .f32) : FVec F S50000x128 .f32 := maximumf h (broadcastInDim S50000x128 ![] bcast_S_S50000x128 (constant S_ .f32 0x00000000#32))
/-- The final affine map into 40 classes. -/
def logitsF (h : FVec F S50000x128 .f32) (Wm : FVec F S128x40 .f32) (bm : FVec F S40 .f32) : FVec F S50000x40 .f32 :=
  addf (Host.dotGeneral dot_S50000x128_S128x40_S50000x40_1_0_0_1_n_n none h Wm)
    (broadcastInDim S50000x40 ![0, 1] bcast_S1x40_S50000x40_0_1 (broadcastInDim S1x40 ![1] bcast_S40_S1x40_1 bm))
/-- A row's entries minus the row's maximum. -/
def shiftedF (l : FVec F S50000x40 .f32) : FVec F S50000x40 .f32 :=
  subf l (broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf l (constant S_ .f32 0xFF800000#32) reducesTo_S50000x40_S50000_d1 h_S_))))
/-- Row-wise log-softmax: the shifted entries minus the logarithm of the sum of their exponentials. -/
def logSoftmaxF (l : FVec F S50000x40 .f32) : FVec F S50000x40 .f32 :=
  subf (shiftedF l) (broadcastInDim S50000x40 ![0, 1] bcast_S50000x1_S50000x40_0_1
    (Host.log (broadcastInDim S50000x1 ![0] bcast_S50000_S50000x1_0
      (Host.reduceAdd (Host.exp (shiftedF l)) (constant S_ .f32 0x00000000#32) reducesTo_S50000x40_S50000_d1 h_S_))))

/-- A conversion between a buffer's contents and a typed value's is the identity when the two types are the same: stated
    with its proof term (through heterogeneous equality), so that rewriting with it records each step. -/
theorem cast_contents {α : Type} (h : α = α) (a : α) : cast h a = a := eq_of_heq (cast_heq h a)

variable (W : Valuation τ sig (Elt F))

set_option maxRecDepth 8192 in
set_option maxHeartbeats 1600000 in
/-- The stretch of the first normalisation and rectifier, from any contents: the rectified normalisation of what the
    first layer's buffer holds, with the scale and shift the two argument buffers hold. -/
theorem stageC : after opsC2 (after opsC1 W) (Proc.devRef .tc main_v67)
    = reluF (bnF (W (Proc.devRef .tc main_v47)) (W (Proc.devRef .tc main_arg6)) (W (Proc.devRef .tc main_arg7))) := by
  simp only [opsC1, opsC2]
  after_results_simp
  simp only [TRef.toBuf, TRef.ofBuf]
  simp only [cast_contents]
  rfl

set_option maxRecDepth 8192 in
set_option maxHeartbeats 1600000 in
/-- The stretch of the second normalisation and rectifier, from any contents. -/
theorem stageE : after opsE W (Proc.devRef .tc main_v124)
    = reluF (bnF (W (Proc.devRef .tc main_v104)) (W (Proc.devRef .tc main_arg8)) (W (Proc.devRef .tc main_arg9))) := by
  simp only [opsE]
  after_results_simp
  simp only [TRef.toBuf, TRef.ofBuf]
  simp only [cast_contents]
  rfl

set_option maxRecDepth 8192 in
set_option maxHeartbeats 1600000 in
/-- The stretch of the third normalisation, from any contents. -/
theorem stageF : after opsF W (Proc.devRef .tc main_v143)
    = bnF (W (Proc.devRef .tc main_v124)) (W (Proc.devRef .tc main_arg10)) (W (Proc.devRef .tc main_arg11)) := by
  simp only [opsF]
  after_results_simp
  simp only [TRef.toBuf, TRef.ofBuf]
  simp only [cast_contents]
  rfl

set_option maxRecDepth 8192 in
set_option maxHeartbeats 1600000 in
/-- The stretch of the affine map and the log-softmax, from any contents. -/
theorem stageG : after opsG W (Proc.devRef .tc main_v148)
    = logSoftmaxF (logitsF (W (Proc.devRef .tc main_v143)) (W (Proc.devRef .tc main_arg12)) (W (Proc.devRef .tc main_arg13))) := by
  simp only [opsG]
  after_results_simp
  simp only [TRef.toBuf, TRef.ofBuf]
  simp only [cast_contents]
  rfl

end Generic

variable (V : Valuation τ sig (Elt Ideal))

/-! ## The stages' values, from the arguments' contents -/

/-- The first layer's output: the graph convolution of x W1 with bias b1. -/
def h1 : Cert.Gcn.FV S50000x128 := Cert.Gcn.Ref.conv (V (main_arg1 : DevRef τ sig)) (Cert.Gcn.Ref.mm (V (main_arg0 : DevRef τ sig)) (V (main_arg2 : DevRef τ sig))) (V (main_arg3 : DevRef τ sig))
/-- Normalised with g1, be1 and rectified. -/
def r1 : Cert.Gcn.FV S50000x128 := Cert.Gcn.Ref.relu (Cert.Gcn.Ref.bn (h1 V) (V (main_arg6 : DevRef τ sig)) (V (main_arg7 : DevRef τ sig)))
/-- The second layer's output: the graph convolution of r1 W2 with bias b2. -/
def h2 : Cert.Gcn.FV S50000x128 := Cert.Gcn.Ref.conv (V (main_arg1 : DevRef τ sig)) (Cert.Gcn.Ref.mm (r1 V) (V (main_arg4 : DevRef τ sig))) (V (main_arg5 : DevRef τ sig))
/-- Normalised with g2, be2 and rectified. -/
def r2 : Cert.Gcn.FV S50000x128 := Cert.Gcn.Ref.relu (Cert.Gcn.Ref.bn (h2 V) (V (main_arg8 : DevRef τ sig)) (V (main_arg9 : DevRef τ sig)))
/-- Normalised once more, with g3, be3. -/
def h3 : Cert.Gcn.FV S50000x128 := Cert.Gcn.Ref.bn (r2 V) (V (main_arg10 : DevRef τ sig)) (V (main_arg11 : DevRef τ sig))
/-- The class scores' row-wise log-softmax. -/
def res : Cert.Gcn.FV S50000x40 := Cert.Gcn.Ref.logSoftmax (Cert.Gcn.Ref.logits (h3 V) (V (main_arg12 : DevRef τ sig)) (V (main_arg13 : DevRef τ sig)))

/-- The stages compose to the whole network. -/
theorem res_eq : res V = Cert.Gcn.Ref.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := rfl

/-! ## The contents after each stage's stretch -/

/-- After the degrees and the first dense product. -/
def valA : Valuation τ sig (Elt Ideal) := after opsA V
/-- After the first layer. -/
def valB : Valuation τ sig (Elt Ideal) := after opsB (valA V)
/-- After the first normalisation and rectifier. -/
def valC : Valuation τ sig (Elt Ideal) := after opsC2 (after opsC1 (valB V))
/-- After the second dense product and layer. -/
def valD : Valuation τ sig (Elt Ideal) := after opsD2 (after opsD1 (valC V))
/-- After the second normalisation and rectifier. -/
def valE : Valuation τ sig (Elt Ideal) := after opsE (valD V)
/-- After the third normalisation. -/
def valF : Valuation τ sig (Elt Ideal) := after opsF (valE V)
/-- After the affine map and the log-softmax: the end. -/
def valG : Valuation τ sig (Elt Ideal) := after opsG (valF V)

/-- The whole line is the stretches in order. -/
theorem after_ops : after (ops (F := Ideal)) V = valG V := by
  simp only [ops, ops0, ops1, ops2, after_app]
  rfl

/-! ### Degrees and the first dense product -/

set_option maxRecDepth 8192 in
set_option maxHeartbeats 1600000 in
/-- The edges' sources. -/
theorem valA_v1 : valA V (no_index (Proc.devRef .tc main_v1)) = Cert.Gcn.Ref.srcV (V (main_arg1 : DevRef τ sig)) := by
  unfold valA
  simp only [opsA]
  after_results_simp
  rfl
set_option maxRecDepth 8192 in
set_option maxHeartbeats 1600000 in
/-- The edges' destinations. -/
theorem valA_v3 : valA V (no_index (Proc.devRef .tc main_v3)) = Cert.Gcn.Ref.dstV (V (main_arg1 : DevRef τ sig)) := by
  unfold valA
  simp only [opsA]
  after_results_simp
  rfl
set_option maxRecDepth 8192 in
set_option maxHeartbeats 1600000 in
/-- The inverse root degrees. -/
theorem valA_v10 : valA V (no_index (Proc.devRef .tc main_v10)) = Cert.Gcn.Ref.dinv (V (main_arg1 : DevRef τ sig)) := by
  unfold valA
  simp only [opsA]
  after_results_simp
  rfl
set_option maxRecDepth 8192 in
set_option maxHeartbeats 1600000 in
/-- The first dense product. -/
theorem valA_v11 : valA V (no_index (Proc.devRef .tc main_v11)) = Cert.Gcn.Ref.mm (V (main_arg0 : DevRef τ sig)) (V (main_arg2 : DevRef τ sig)) := by
  unfold valA
  simp only [opsA]
  after_results_simp
  rfl
theorem valA_arg3 : valA V (no_index (Proc.devRef .tc main_arg3)) = (V (main_arg3 : DevRef τ sig)) :=
  keepA_arg3 V
theorem valA_arg4 : valA V (no_index (Proc.devRef .tc main_arg4)) = (V (main_arg4 : DevRef τ sig)) :=
  keepA_arg4 V
theorem valA_arg5 : valA V (no_index (Proc.devRef .tc main_arg5)) = (V (main_arg5 : DevRef τ sig)) :=
  keepA_arg5 V
theorem valA_arg6 : valA V (no_index (Proc.devRef .tc main_arg6)) = (V (main_arg6 : DevRef τ sig)) :=
  keepA_arg6 V
theorem valA_arg7 : valA V (no_index (Proc.devRef .tc main_arg7)) = (V (main_arg7 : DevRef τ sig)) :=
  keepA_arg7 V
theorem valA_arg8 : valA V (no_index (Proc.devRef .tc main_arg8)) = (V (main_arg8 : DevRef τ sig)) :=
  keepA_arg8 V
theorem valA_arg9 : valA V (no_index (Proc.devRef .tc main_arg9)) = (V (main_arg9 : DevRef τ sig)) :=
  keepA_arg9 V
theorem valA_arg10 : valA V (no_index (Proc.devRef .tc main_arg10)) = (V (main_arg10 : DevRef τ sig)) :=
  keepA_arg10 V
theorem valA_arg11 : valA V (no_index (Proc.devRef .tc main_arg11)) = (V (main_arg11 : DevRef τ sig)) :=
  keepA_arg11 V
theorem valA_arg12 : valA V (no_index (Proc.devRef .tc main_arg12)) = (V (main_arg12 : DevRef τ sig)) :=
  keepA_arg12 V
theorem valA_arg13 : valA V (no_index (Proc.devRef .tc main_arg13)) = (V (main_arg13 : DevRef τ sig)) :=
  keepA_arg13 V

/-! ### The first layer -/

set_option maxRecDepth 8192 in
set_option maxHeartbeats 1600000 in
/-- The first layer's output. -/
theorem valB_v47 : valB V (no_index (Proc.devRef .tc main_v47)) = h1 V := by
  unfold valB
  simp only [opsB]
  after_results_simp
  simp only [valA_v1, valA_v3, valA_v10, valA_v11, valA_arg3]
  rfl
theorem valB_v1 : valB V (no_index (Proc.devRef .tc main_v1)) = Cert.Gcn.Ref.srcV (V (main_arg1 : DevRef τ sig)) :=
  (keepB_v1 (valA V)).trans (valA_v1 V)
theorem valB_v3 : valB V (no_index (Proc.devRef .tc main_v3)) = Cert.Gcn.Ref.dstV (V (main_arg1 : DevRef τ sig)) :=
  (keepB_v3 (valA V)).trans (valA_v3 V)
theorem valB_v10 : valB V (no_index (Proc.devRef .tc main_v10)) = Cert.Gcn.Ref.dinv (V (main_arg1 : DevRef τ sig)) :=
  (keepB_v10 (valA V)).trans (valA_v10 V)
theorem valB_arg4 : valB V (no_index (Proc.devRef .tc main_arg4)) = (V (main_arg4 : DevRef τ sig)) :=
  (keepB_arg4 (valA V)).trans (valA_arg4 V)
theorem valB_arg5 : valB V (no_index (Proc.devRef .tc main_arg5)) = (V (main_arg5 : DevRef τ sig)) :=
  (keepB_arg5 (valA V)).trans (valA_arg5 V)
theorem valB_arg6 : valB V (no_index (Proc.devRef .tc main_arg6)) = (V (main_arg6 : DevRef τ sig)) :=
  (keepB_arg6 (valA V)).trans (valA_arg6 V)
theorem valB_arg7 : valB V (no_index (Proc.devRef .tc main_arg7)) = (V (main_arg7 : DevRef τ sig)) :=
  (keepB_arg7 (valA V)).trans (valA_arg7 V)
theorem valB_arg8 : valB V (no_index (Proc.devRef .tc main_arg8)) = (V (main_arg8 : DevRef τ sig)) :=
  (keepB_arg8 (valA V)).trans (valA_arg8 V)
theorem valB_arg9 : valB V (no_index (Proc.devRef .tc main_arg9)) = (V (main_arg9 : DevRef τ sig)) :=
  (keepB_arg9 (valA V)).trans (valA_arg9 V)
theorem valB_arg10 : valB V (no_index (Proc.devRef .tc main_arg10)) = (V (main_arg10 : DevRef τ sig)) :=
  (keepB_arg10 (valA V)).trans (valA_arg10 V)
theorem valB_arg11 : valB V (no_index (Proc.devRef .tc main_arg11)) = (V (main_arg11 : DevRef τ sig)) :=
  (keepB_arg11 (valA V)).trans (valA_arg11 V)
theorem valB_arg12 : valB V (no_index (Proc.devRef .tc main_arg12)) = (V (main_arg12 : DevRef τ sig)) :=
  (keepB_arg12 (valA V)).trans (valA_arg12 V)
theorem valB_arg13 : valB V (no_index (Proc.devRef .tc main_arg13)) = (V (main_arg13 : DevRef τ sig)) :=
  (keepB_arg13 (valA V)).trans (valA_arg13 V)

/-! ### The first normalisation and rectifier -/

/-- The first layer normalised and rectified. -/
theorem valC_v67 : valC V (no_index (Proc.devRef .tc main_v67)) = r1 V := by
  refine (stageC (valB V)).trans ?_
  simp only [valB_v47, valB_arg6, valB_arg7]
  rfl
theorem valC_v1 : valC V (no_index (Proc.devRef .tc main_v1)) = Cert.Gcn.Ref.srcV (V (main_arg1 : DevRef τ sig)) :=
  (keepC2_v1 (after opsC1 (valB V))).trans ((keepC1_v1 (valB V)).trans (valB_v1 V))
theorem valC_v3 : valC V (no_index (Proc.devRef .tc main_v3)) = Cert.Gcn.Ref.dstV (V (main_arg1 : DevRef τ sig)) :=
  (keepC2_v3 (after opsC1 (valB V))).trans ((keepC1_v3 (valB V)).trans (valB_v3 V))
theorem valC_v10 : valC V (no_index (Proc.devRef .tc main_v10)) = Cert.Gcn.Ref.dinv (V (main_arg1 : DevRef τ sig)) :=
  (keepC2_v10 (after opsC1 (valB V))).trans ((keepC1_v10 (valB V)).trans (valB_v10 V))
theorem valC_arg4 : valC V (no_index (Proc.devRef .tc main_arg4)) = (V (main_arg4 : DevRef τ sig)) :=
  (keepC2_arg4 (after opsC1 (valB V))).trans ((keepC1_arg4 (valB V)).trans (valB_arg4 V))
theorem valC_arg5 : valC V (no_index (Proc.devRef .tc main_arg5)) = (V (main_arg5 : DevRef τ sig)) :=
  (keepC2_arg5 (after opsC1 (valB V))).trans ((keepC1_arg5 (valB V)).trans (valB_arg5 V))
theorem valC_arg8 : valC V (no_index (Proc.devRef .tc main_arg8)) = (V (main_arg8 : DevRef τ sig)) :=
  (keepC2_arg8 (after opsC1 (valB V))).trans ((keepC1_arg8 (valB V)).trans (valB_arg8 V))
theorem valC_arg9 : valC V (no_index (Proc.devRef .tc main_arg9)) = (V (main_arg9 : DevRef τ sig)) :=
  (keepC2_arg9 (after opsC1 (valB V))).trans ((keepC1_arg9 (valB V)).trans (valB_arg9 V))
theorem valC_arg10 : valC V (no_index (Proc.devRef .tc main_arg10)) = (V (main_arg10 : DevRef τ sig)) :=
  (keepC2_arg10 (after opsC1 (valB V))).trans ((keepC1_arg10 (valB V)).trans (valB_arg10 V))
theorem valC_arg11 : valC V (no_index (Proc.devRef .tc main_arg11)) = (V (main_arg11 : DevRef τ sig)) :=
  (keepC2_arg11 (after opsC1 (valB V))).trans ((keepC1_arg11 (valB V)).trans (valB_arg11 V))
theorem valC_arg12 : valC V (no_index (Proc.devRef .tc main_arg12)) = (V (main_arg12 : DevRef τ sig)) :=
  (keepC2_arg12 (after opsC1 (valB V))).trans ((keepC1_arg12 (valB V)).trans (valB_arg12 V))
theorem valC_arg13 : valC V (no_index (Proc.devRef .tc main_arg13)) = (V (main_arg13 : DevRef τ sig)) :=
  (keepC2_arg13 (after opsC1 (valB V))).trans ((keepC1_arg13 (valB V)).trans (valB_arg13 V))

/-! ### The second dense product and layer -/

set_option maxRecDepth 8192 in
set_option maxHeartbeats 1600000 in
/-- The second layer's output. -/
theorem valD_v104 : valD V (no_index (Proc.devRef .tc main_v104)) = h2 V := by
  unfold valD
  simp only [opsD1, opsD2]
  after_results_simp
  simp only [valC_v67, valC_v1, valC_v3, valC_v10, valC_arg4, valC_arg5]
  rfl
theorem valD_arg8 : valD V (no_index (Proc.devRef .tc main_arg8)) = (V (main_arg8 : DevRef τ sig)) :=
  (keepD2_arg8 (after opsD1 (valC V))).trans ((keepD1_arg8 (valC V)).trans (valC_arg8 V))
theorem valD_arg9 : valD V (no_index (Proc.devRef .tc main_arg9)) = (V (main_arg9 : DevRef τ sig)) :=
  (keepD2_arg9 (after opsD1 (valC V))).trans ((keepD1_arg9 (valC V)).trans (valC_arg9 V))
theorem valD_arg10 : valD V (no_index (Proc.devRef .tc main_arg10)) = (V (main_arg10 : DevRef τ sig)) :=
  (keepD2_arg10 (after opsD1 (valC V))).trans ((keepD1_arg10 (valC V)).trans (valC_arg10 V))
theorem valD_arg11 : valD V (no_index (Proc.devRef .tc main_arg11)) = (V (main_arg11 : DevRef τ sig)) :=
  (keepD2_arg11 (after opsD1 (valC V))).trans ((keepD1_arg11 (valC V)).trans (valC_arg11 V))
theorem valD_arg12 : valD V (no_index (Proc.devRef .tc main_arg12)) = (V (main_arg12 : DevRef τ sig)) :=
  (keepD2_arg12 (after opsD1 (valC V))).trans ((keepD1_arg12 (valC V)).trans (valC_arg12 V))
theorem valD_arg13 : valD V (no_index (Proc.devRef .tc main_arg13)) = (V (main_arg13 : DevRef τ sig)) :=
  (keepD2_arg13 (after opsD1 (valC V))).trans ((keepD1_arg13 (valC V)).trans (valC_arg13 V))

/-! ### The second normalisation and rectifier -/

/-- The second layer normalised and rectified. -/
theorem valE_v124 : valE V (no_index (Proc.devRef .tc main_v124)) = r2 V := by
  refine (stageE (valD V)).trans ?_
  simp only [valD_v104, valD_arg8, valD_arg9]
  rfl
theorem valE_arg10 : valE V (no_index (Proc.devRef .tc main_arg10)) = (V (main_arg10 : DevRef τ sig)) :=
  (keepE_arg10 (valD V)).trans (valD_arg10 V)
theorem valE_arg11 : valE V (no_index (Proc.devRef .tc main_arg11)) = (V (main_arg11 : DevRef τ sig)) :=
  (keepE_arg11 (valD V)).trans (valD_arg11 V)
theorem valE_arg12 : valE V (no_index (Proc.devRef .tc main_arg12)) = (V (main_arg12 : DevRef τ sig)) :=
  (keepE_arg12 (valD V)).trans (valD_arg12 V)
theorem valE_arg13 : valE V (no_index (Proc.devRef .tc main_arg13)) = (V (main_arg13 : DevRef τ sig)) :=
  (keepE_arg13 (valD V)).trans (valD_arg13 V)

/-! ### The third normalisation -/

/-- Normalised once more. -/
theorem valF_v143 : valF V (no_index (Proc.devRef .tc main_v143)) = h3 V := by
  refine (stageF (valE V)).trans ?_
  simp only [valE_v124, valE_arg10, valE_arg11]
  rfl
theorem valF_arg12 : valF V (no_index (Proc.devRef .tc main_arg12)) = (V (main_arg12 : DevRef τ sig)) :=
  (keepF_arg12 (valE V)).trans (valE_arg12 V)
theorem valF_arg13 : valF V (no_index (Proc.devRef .tc main_arg13)) = (V (main_arg13 : DevRef τ sig)) :=
  (keepF_arg13 (valE V)).trans (valE_arg13 V)

/-! ### The affine map and the log-softmax -/

/-- The result. -/
theorem valG_v148 : valG V (no_index (Proc.devRef .tc main_v148)) = res V := by
  refine (stageG (valF V)).trans ?_
  simp only [valF_v143, valF_arg12, valF_arg13]
  rfl

/-! ## The result and the run -/

/-- The result buffer after the whole line holds the network function of the arguments' contents. -/
theorem out_eq (V : Valuation τ sig (Elt Ideal)) :
    after (ops (F := Ideal)) V (main_v148 : DevRef τ sig)
      = Cert.Gcn.Ref.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [after_ops]
  exact (valG_v148 V).trans (res_eq V)

/-- At the extended reals, from any memory with zero counters: every weakly fair execution of @main terminates with
    the result buffer at the network function of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v148)
        = Cert.Gcn.Ref.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v148).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m ρ)

end Cert.ReferenceIdeal.RefValue

end
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.LibSegmentSum.lean ====
/-
  Segment sums read at an index.

  A float scatter with an `add` body whose scatter indices are one column of row numbers (what
  `jax.ops.segment_sum` lowers to) adds every update row to the operand row its index names, and
  drops a row whose index is outside the operand.  Read at the extended reals, the element at
  row `n`, column `c` of the result is the operand's element there plus the sum, over all update
  rows `e`, of the update's element `(e, c)` when row `e`'s index is `n` and of zero otherwise.
  The same holds for a rank-one operand (one number per row).
-/
import Idealize.ShloMosaic.PureOps.Ideal
import Idealize.ShloMosaic.PureOps.Ideal.Laws
import Idealize.ShloMosaic.Lib.ValueIdx

noncomputable section

namespace Cert.Lib.SegmentSum

open Idealize.ShloMosaic Idealize.ShloMosaic.ValueIdx

/-- The dimension numbers of a row scatter: operand `[N, C]`, one index per update row (`[E, 1]`), updates `[E, C]`;
    the update's second axis is the window, the operand's first axis is the scattered one. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)

/-- The index an update row reads its row number at: `(e, 0)`. -/
theorem rows_siIdx (j : (⟨2, ![E, C]⟩ : Shape).Idx) :
    (rowDims N E C wf).siIdx j ⟨List.idxOf (0 : Fin 2) (rowDims N E C wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem rows_start0 (j : (⟨2, ![E, C]⟩ : Shape).Idx) (idx : IVec ⟨2, ![E, 1]⟩ w) :
    (rowDims N E C wf).start j idx 0 = (idx (ix2 (j 0) ⟨0, Nat.one_pos⟩)).toInt := by
  unfold ScatterDims.start
  rw [dif_pos (show (0 : Fin 2) ∈ (rowDims N E C wf).scatterDimsToOperandDims from List.mem_singleton.mpr rfl)]
  rw [rows_siIdx]
  rfl

theorem rows_start1 (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => absurd (List.mem_singleton.mp h) (show ¬((1 : Fin 2) = 0) by decide))]

theorem rows_window0 (j : (⟨2, ![E, C]⟩ : Shape).Idx) : (rowDims N E C wf).window j 0 = 0 := rfl
theorem rows_window1 (j : (⟨2, ![E, C]⟩ : Shape).Idx) : (rowDims N E C wf).window j 1 = (j 1).val := rfl

/-- Where an update element lands: row `e`, column `b` lands on `(n, c)` exactly when row `e`'s index is `n` and `b = c`. -/
theorem rows_resultIdx?_eq_some_iff (j : (⟨2, ![E, C]⟩ : Shape).Idx) (idx : IVec ⟨2, ![E, 1]⟩ w)
    (i : (⟨2, ![N, C]⟩ : Shape).Idx) :
    (rowDims N E C wf).resultIdx? j idx = some i ↔
      (idx (ix2 (j 0) ⟨0, Nat.one_pos⟩)).toInt = ((i 0).val : Int) ∧ (j 1).val = (i 1).val := by
  have hs0 : (rowDims N E C wf).start j idx 0 + ((rowDims N E C wf).window j 0 : Int)
      = (idx (ix2 (j 0) ⟨0, Nat.one_pos⟩)).toInt := by
    rw [rows_start0, rows_window0]; simp
  have hs1 : (rowDims N E C wf).start j idx 1 + ((rowDims N E C wf).window j 1 : Int) = ((j 1).val : Int) := by
    rw [rows_start1, rows_window1]; simp
  have hi0 : (i 0).val < N := (i 0).isLt
  have hi1 : (i 1).val < C := (i 1).isLt
  unfold ScatterDims.resultIdx?
  split
  · rename_i h
    rw [Option.some.injEq]
    constructor
    · intro hf
      have h0 : ((rowDims N E C wf).start j idx 0 + ((rowDims N E C wf).window j 0 : Int)).toNat = (i 0).val :=
        congrArg (fun f : (⟨2, ![N, C]⟩ : Shape).Idx => (f 0).val) hf
      have h1 : ((rowDims N E C wf).start j idx 1 + ((rowDims N E C wf).window j 1 : Int)).toNat = (i 1).val :=
        congrArg (fun f : (⟨2, ![N, C]⟩ : Shape).Idx => (f 1).val) hf
      have g0 := (h 0).1
      rw [hs0] at h0 g0
      rw [hs1] at h1
      constructor
      · omega
      · omega
    · rintro ⟨h0, h1⟩
      funext a
      refine Fin.ext ?_
      match a with
      | ⟨0, _⟩ =>
        show ((rowDims N E C wf).start j idx 0 + ((rowDims N E C wf).window j 0 : Int)).toNat = (i 0).val
        rw [hs0, h0]; exact Int.toNat_natCast _
      | ⟨1, _⟩ =>
        show ((rowDims N E C wf).start j idx 1 + ((rowDims N E C wf).window j 1 : Int)).toNat = (i 1).val
        rw [hs1, h1]; exact Int.toNat_natCast _
  · rename_i h
    constructor
    · intro hf; exact absurd hf (by simp)
    · rintro ⟨h0, h1⟩
      exfalso; apply h
      intro a
      match a with
      | ⟨0, _⟩ =>
        show 0 ≤ (rowDims N E C wf).start j idx 0 + ((rowDims N E C wf).window j 0 : Int) ∧
          (rowDims N E C wf).start j idx 0 + ((rowDims N E C wf).window j 0 : Int) < (N : Int)
        rw [hs0, h0]; omega
      | ⟨1, _⟩ =>
        show 0 ≤ (rowDims N E C wf).start j idx 1 + ((rowDims N E C wf).window j 1 : Int) ∧
          (rowDims N E C wf).start j idx 1 + ((rowDims N E C wf).window j 1 : Int) < (C : Int)
        rw [hs1, h1]; omega

/-- A row scatter with an `add` body, read at `(n, c)` on the extended reals: the operand there plus the sum over the
    update rows whose index is `n` of their column `c`. -/
theorem rows_scatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e ⟨0, Nat.one_pos⟩)).toInt = (n.val : Int) then upd (ix2 e c) else 0 := by
  unfold Ideal.hostScatterAdd
  congr 1
  rw [Finset.sum_filter, sum_idx2]
  refine Finset.sum_congr rfl fun e _ => ?_
  simp only [rows_resultIdx?_eq_some_iff]
  by_cases hA : (idx (ix2 e ⟨0, Nat.one_pos⟩)).toInt = (n.val : Int)
  · have : ∀ b : Fin C, ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) ↔ b = c :=
      fun b => ⟨fun h => Fin.ext h.2, fun h => ⟨hA, by subst h; rfl⟩⟩
    simp only [this, if_pos hA]
    rw [Finset.sum_ite_eq' Finset.univ c fun b => upd (ix2 e b)]
    simp
  · have : ∀ b : Fin C, ¬ ((idx (ix2 ((ix2 e b : (⟨2, ![E, C]⟩ : Shape).Idx) 0) ⟨0, Nat.one_pos⟩)).toInt = (((ix2 n c : (⟨2, ![N, C]⟩ : Shape).Idx) 0).val : Int)
        ∧ ((ix2 e b : (⟨2, ![E, C]⟩ : Shape).Idx) 1).val = ((ix2 n c : (⟨2, ![N, C]⟩ : Shape).Idx) 1).val) :=
      fun b h => hA h.1
    simp only [this, if_neg hA, if_false, Finset.sum_const_zero]

end Rows

/-- The dimension numbers of a scatter of one number per row into a vector: operand `[N]`, one index per update (`[E, 1]`),
    updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A segment sum of rows into a constant array, the row numbers read off a vector `I` through a column `J` that holds them. -/
theorem rows_segment {N E C w : Nat} (wf : ScatterDims.WF ⟨2, ![N, C]⟩ ⟨2, ![E, 1]⟩ ⟨2, ![E, C]⟩ [1] [0] [0] 1) (z : EReal)
    (x : (⟨2, ![N, C]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨2, ![E, C]⟩ : Shape).Idx → EReal) (n : Fin N) (c : Fin C) :
    Ideal.hostScatterAdd (rowDims N E C wf) x J upd (ix2 n c)
      = z + ∑ e : Fin E, if (I (ix1 e)).toInt = (n.val : Int) then upd (ix2 e c) else 0 := by
  rw [rows_scatterAdd_apply, hx]
  refine congrArg (z + ·) (Finset.sum_congr rfl fun e _ => ?_)
  rw [hJ]

section Vec
variable {N E w : Nat} (wf : ScatterDims.WF ⟨1, ![N]⟩ ⟨2, ![E, 1]⟩ ⟨1, ![E]⟩ [] [0] [0] 1)

theorem vec_siIdx (j : (⟨1, ![E]⟩ : Shape).Idx) :
    (vecDims N E wf).siIdx j ⟨List.idxOf (0 : Fin 1) (vecDims N E wf).scatterDimsToOperandDims,
      List.idxOf_lt_length_iff.2 (List.mem_singleton.mpr rfl)⟩ = ix2 (j 0) ⟨0, Nat.one_pos⟩ := by
  funext b; refine Fin.ext ?_
  match b with
  | ⟨0, _⟩ => rfl
  | ⟨1, _⟩ => rfl

theorem vec_start0 (j : (⟨1, ![E]⟩ : Shape).Idx) (idx : IVec ⟨2, ![E, 1]⟩ w) :
    (vecDims N E wf).start j idx 0 = (idx (ix2 (j 0) ⟨0, Nat.one_pos⟩)).toInt := by
  unfold ScatterDims.start
  rw [dif_pos (show (0 : Fin 1) ∈ (vecDims N E wf).scatterDimsToOperandDims from List.mem_singleton.mpr rfl)]
  rw [vec_siIdx]
  rfl

theorem vec_window0 (j : (⟨1, ![E]⟩ : Shape).Idx) : (vecDims N E wf).window j 0 = 0 := rfl

/-- Update `e` lands on `n` exactly when its index is `n`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) ⟨0, Nat.one_pos⟩)).toInt = ((i 0).val : Int) := by
  have hs0 : (vecDims N E wf).start j idx 0 + ((vecDims N E wf).window j 0 : Int)
      = (idx (ix2 (j 0) ⟨0, Nat.one_pos⟩)).toInt := by
    rw [vec_start0, vec_window0]; simp
  have hi0 : (i 0).val < N := (i 0).isLt
  unfold ScatterDims.resultIdx?
  split
  · rename_i h
    rw [Option.some.injEq]
    constructor
    · intro hf
      have h0 : ((vecDims N E wf).start j idx 0 + ((vecDims N E wf).window j 0 : Int)).toNat = (i 0).val :=
        congrArg (fun f : (⟨1, ![N]⟩ : Shape).Idx => (f 0).val) hf
      have g0 := (h 0).1
      rw [hs0] at h0 g0
      omega
    · intro h0
      funext a
      refine Fin.ext ?_
      match a with
      | ⟨0, _⟩ =>
        show ((vecDims N E wf).start j idx 0 + ((vecDims N E wf).window j 0 : Int)).toNat = (i 0).val
        rw [hs0, h0]; exact Int.toNat_natCast _
  · rename_i h
    constructor
    · intro hf; exact absurd hf (by simp)
    · intro h0
      exfalso; apply h
      intro a
      match a with
      | ⟨0, _⟩ =>
        show 0 ≤ (vecDims N E wf).start j idx 0 + ((vecDims N E wf).window j 0 : Int) ∧
          (vecDims N E wf).start j idx 0 + ((vecDims N E wf).window j 0 : Int) < (N : Int)
        rw [hs0, h0]; omega

/-- A rank-one index type is its one coordinate's. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) :=
  (Fintype.sum_equiv idxEquiv1.symm (fun a => f (ix1 a)) f (fun _ => rfl)).symm

/-- A scatter of one number per row with an `add` body, read at `n` on the extended reals: the operand there plus the
    sum of the updates whose index is `n`. -/
theorem vec_scatterAdd_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e ⟨0, Nat.one_pos⟩)).toInt = (n.val : Int) then upd (ix1 e) else 0 := by
  unfold Ideal.hostScatterAdd
  congr 1
  rw [Finset.sum_filter, sum_idx1]
  refine Finset.sum_congr rfl fun e _ => ?_
  simp only [vec_resultIdx?_eq_some_iff]
  rfl

/-- A segment sum of numbers into a constant vector, the row numbers read off `I` through the column `J`. -/
theorem vec_segment (z : EReal) (x : (⟨1, ![N]⟩ : Shape).Idx → EReal) (hx : ∀ i, x i = z) (I : (⟨1, ![E]⟩ : Shape).Idx → BitVec w)
    (J : IVec ⟨2, ![E, 1]⟩ w) (hJ : ∀ (e : Fin E) (u : Fin 1), J (ix2 e u) = I (ix1 e))
    (upd : (⟨1, ![E]⟩ : Shape).Idx → EReal) (n : Fin N) :
    Ideal.hostScatterAdd (vecDims N E wf) x J upd (ix1 n)
      = z + ∑ e : Fin E, if (I (ix1 e)).toInt = (n.val : Int) then upd (ix1 e) else 0 := by
  rw [vec_scatterAdd_apply, hx]
  refine congrArg (z + ·) (Finset.sum_congr rfl fun e _ => ?_)
  rw [hJ]

end Vec

end Cert.Lib.SegmentSum

end
-- ==== Proof.LawsBase.lean ====
/-
  Groundwork for the algebra of the graph-convolution network on the extended reals.

  Literal values (one, the node count 50000), the fact that a signed index which already is a row number is
  left alone by the wrap-around of negative indices and by the clamp into range, the passage of a real factor
  through a finite sum of reals, a gather of whole rows and a gather of single entries read at an index, and
  the network's broadcasts (a number per node along its row, a number per column down the rows, …) read at an
  index.
-/
import proofs.«124287_j84756884620023_2_alg».proof.Proof.Stages
import proofs.«124287_j84756884620023_2_alg».proof.Proof.LibFiniteOps
import proofs.«124287_j84756884620023_2_alg».proof.Proof.LibSegmentSum
import proofs.«124287_j84756884620023_2_alg».proof.Proof.LibRowOps
import Idealize.ShloMosaic.Lib.KernelVsHost

noncomputable section

namespace Cert.Gcn.Laws

open Idealize.ShloMosaic Idealize.ShloMosaic.ValueIdx
open Cert.LibFiniteOps (AllReal)
open scoped BigOperators

/-! ### Literals -/

/-- The single-precision pattern 0x3F800000 (exponent field 127, fraction 0) denotes the real number one. -/
theorem ofBits_3F800000 : Ideal.ofBits .f32 0x3F800000#32 = ((1 : ℝ) : EReal) := by
  simp [Ideal.ofBits, Ideal.ieee, -EReal.coe_mul]; norm_num

/-- The single-precision pattern 0x47435000 (exponent field 142, fraction 4411392) denotes
    (2^23 + 4411392) / 2^8 = 50000. -/
theorem ofBits_47435000 : Ideal.ofBits .f32 0x47435000#32 = ((50000 : ℝ) : EReal) := by
  simp [Ideal.ofBits, Ideal.ieee, -EReal.coe_mul]; norm_num

/-! ### A signed index that is already a row number -/

/-- A word whose signed value is a natural number is not negative, so the wrap "add the extent when
    negative" leaves it alone. -/
theorem wrap_of_nonneg (v : BitVec 32) (n : Nat) (hv : v.toInt = (n : Int)) :
    Scalar.select (IntOp.cmpi .slt v 0#32) (IntOp.addi v 50000#32) v = v := by
  have hs : v.slt 0#32 = false := by
    rw [BitVec.slt, hv]
    simp
  unfold Scalar.select IntOp.cmpi
  simp [hs]

/-- A signed value that is a row number below the extent is unchanged by the clamp into range. -/
theorem clamp_of_lt (v : BitVec 32) (n N : Nat) (hn : n < N) (hv : v.toInt = (n : Int)) :
    min v.toInt.toNat (N - 1) = n := by
  rw [hv, Int.toNat_natCast]; omega

/-! ### A real factor through a finite sum of reals -/

/-- Multiplication by a real distributes over a finite sum of reals inside the extended reals (where it does
    not distribute in general: the sum of the two infinities times a negative number is an example). -/
theorem sum_mul_coe {ι : Type} (s : Finset ι) (f : ι → EReal) (hf : ∀ i ∈ s, ∃ r : ℝ, f i = (r : EReal)) (D : ℝ) :
    (∑ i ∈ s, f i) * (D : EReal) = ∑ i ∈ s, f i * (D : EReal) := by
  choose! r hr using hf
  have e1 : ∑ i ∈ s, f i = ∑ i ∈ s, ((r i : ℝ) : EReal) := Finset.sum_congr rfl hr
  have e2 : ∑ i ∈ s, f i * (D : EReal) = ∑ i ∈ s, ((r i * D : ℝ) : EReal) :=
    Finset.sum_congr rfl fun i hi => by rw [hr i hi, EReal.coe_mul]
  rw [e1, e2, Cert.LibFiniteOps.coe_finset_sum, Cert.LibFiniteOps.coe_finset_sum, ← EReal.coe_mul, Finset.sum_mul]

/-! ### Entrywise operations read at an index

An entrywise operation on arrays of extended reals, read at an index, is the scalar operation on the two entries
there: the sum, difference, product, maximum, quotient, inverse square root, and the choice by a condition. -/

section Entry
variable {s : Shape}

theorem addf_apply (x y : FVec Ideal s .f32) (i : s.Idx) : addf x y i = x i + y i := rfl
theorem subf_apply (x y : FVec Ideal s .f32) (i : s.Idx) : subf x y i = x i - y i := rfl
theorem mulf_apply (x y : FVec Ideal s .f32) (i : s.Idx) : mulf x y i = x i * y i := rfl
theorem maximumf_apply (x y : FVec Ideal s .f32) (i : s.Idx) : maximumf x y i = max (x i) (y i) := rfl
theorem hostDivf_apply (x y : FVec Ideal s .f32) (i : s.Idx) : Host.divf x y i = Ideal.div (x i) (y i) := rfl
theorem hostRsqrt_apply (x : FVec Ideal s .f32) (i : s.Idx) : Host.rsqrt x i = Ideal.rsqrt (x i) := rfl
theorem select_apply {α : Type} (c : IVec s 1) (a b : s.Idx → α) (i : s.Idx) :
    select c a b i = Scalar.select (c i) (a i) (b i) := rfl

end Entry

/-- The host's sum down the rows of an [a, b] array of extended reals, read at column c: the initial value plus
    the column's sum. -/
theorem hostReduceAdd_rows_apply {a b : ℕ} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (init : EReal) (c : Fin b) :
    Ideal.hostReduceAdd h' x init (ix1 c) = init + ∑ n : Fin a, x (ix2 n c) := by
  refine (Ideal.hostReduceAdd_single h' h x init (ix1 c)).trans ?_
  refine congrArg (init + ·) (Finset.sum_congr rfl fun k _ => congrArg x (funext fun ax => Fin.ext ?_))
  match ax with
  | ⟨0, _⟩ => rfl
  | ⟨1, _⟩ => rfl

/-! ### Gathers read at an index -/

variable {α : Type}

/-- The dimension numbers of a gather of whole rows: operand [N, C], one row number per result row ([E, 1]),
    result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of a vector: operand [N], one position per result
    entry ([E, 1]), result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section RowGather
variable {N E C w : Nat} (wf : GatherDims.WF ⟨2, ![N, C]⟩ ⟨2, ![E, 1]⟩ ⟨2, ![E, C]⟩ [1] [0] [] [0] [] 1 ![1, C])

/-- A row gather read at (e, c): the operand at (the row number of e, read signed and clamped into range, c). -/
theorem rowGather_apply (hN : 0 < N) (x : (⟨2, ![N, C]⟩ : Shape).Idx → α) (idx : IVec ⟨2, ![E, 1]⟩ w)
    (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬((1 : Fin 2) = 0) by decide))]
    rw [hs]
    simp only [Nat.add_zero, Nat.zero_add]
    rfl

end RowGather

section VecGather
variable {N E w : Nat} (wf : GatherDims.WF ⟨1, ![N]⟩ ⟨2, ![E, 1]⟩ ⟨1, ![E]⟩ [] [0] [] [0] [] 1 ![1])

/-- A gather of single entries read at e: the operand at the position of e, read signed and clamped into range. -/
theorem vecGather_apply (hN : 0 < N) (x : (⟨1, ![N]⟩ : Shape).Idx → α) (idx : IVec ⟨2, ![E, 1]⟩ w) (e : Fin E) :
    Host.gather (vecGatherDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end VecGather

/-! ### The network's broadcasts and index columns read at an index -/

section Readings
open Cert.ReferenceIdeal Cert.ReferenceIdeal.Facts₀ Cert.ReferenceIdeal.Facts
variable [Cert.ReferenceIdeal.Facts]

/-- A number per node repeated along its row, read at (n, c): the node's number. -/
theorem rows_apply (d : FV S50000) (n : Fin 50000) (c : Fin 128) : Ref.rows d (ix2 n c) = d (ix1 n) :=
  (Cert.Lib.RowOps.bcastInDim_a1_ab _ bcast_S50000x1_S50000x128_0_1 n c).trans
    (Cert.Lib.RowOps.bcastInDim_a_a1 d bcast_S50000_S50000x1_0 n 0)

/-- A number per edge repeated along its row, read at (e, c): the edge's number. -/
theorem erows_apply (d : FV S800000) (e : Fin 800000) (c : Fin 128) : Ref.erows d (ix2 e c) = d (ix1 e) :=
  (Cert.Lib.RowOps.bcastInDim_a1_ab _ bcast_S800000x1_S800000x128_0_1 e c).trans
    (Cert.Lib.RowOps.bcastInDim_a_a1 d bcast_S800000_S800000x1_0 e 0)

/-- One index per row as a column, read at (e, 0): the row's index. -/
theorem col_apply (v : IVec S800000 32) (e : Fin 800000) (u : Fin 1) : Ref.col v (ix2 e u) = v (ix1 e) :=
  Cert.Lib.RowOps.bcastInDim_a_a1 v bcast_S800000_S800000x1_0 e u

/-- A number per column as one row, read at (0, c). -/
theorem row_apply (b : FV S128) (u : Fin 1) (c : Fin 128) : Ref.row b (ix2 u c) = b (ix1 c) :=
  Cert.Lib.RowOps.bcastInDim_b_1b b bcast_S128_S1x128_1 u c

/-- One row repeated down the rows, read at (n, c). -/
theorem down_apply (r : FV S1x128) (n : Fin 50000) (c : Fin 128) : Ref.down r (ix2 n c) = r (ix2 (0 : Fin 1) c) :=
  Cert.Lib.RowOps.bcastInDim_1b_ab r bcast_S1x128_S50000x128_0_1 n c

/-- A number per column repeated down the rows, read at (n, c): the column's number. -/
theorem lanes_apply (b : FV S128) (n : Fin 50000) (c : Fin 128) : Ref.lanes b (ix2 n c) = b (ix1 c) :=
  (down_apply (Ref.row b) n c).trans (row_apply b 0 c)

/-- The wrap-around of negative indices, entry by entry. -/
theorem wrap_apply (v : IVec S800000 32) (e : Fin 800000) :
    Ref.wrap v (ix1 e)
      = Scalar.select (IntOp.cmpi .slt (v (ix1 e)) 0#32) (IntOp.addi (v (ix1 e)) 50000#32) (v (ix1 e)) := rfl

/-- The gather of whole rows of the network read at (e, c). -/
theorem gatherRows_apply (x : FV S50000x128) (J : IVec S800000x1 32) (e : Fin 800000) (c : Fin 128) :
    Host.gather gather_S50000x128_S800000x1_S800000x128_1_0_n_n_0_1_1128 x J (ix2 e c)
      = x (ix2 ⟨min (J (ix2 e ⟨0, Nat.one_pos⟩)).toInt.toNat (50000 - 1), by omega⟩ c) :=
  rowGather_apply gather_S50000x128_S800000x1_S800000x128_1_0_n_n_0_1_1128_wf (by decide) x J e c

/-- The gather of one number per edge out of a number per node, read at e. -/
theorem gatherVec_apply (x : FV S50000) (J : IVec S800000x1 32) (e : Fin 800000) :
    Host.gather gather_S50000_S800000x1_S800000_n_0_n_n_0_1_1 x J (ix1 e)
      = x (ix1 ⟨min (J (ix2 e ⟨0, Nat.one_pos⟩)).toInt.toNat (50000 - 1), by omega⟩) :=
  vecGather_apply gather_S50000_S800000x1_S800000_n_0_n_n_0_1_1_wf (by decide) x J e

/-- The accumulating scatter of rows of the network is the segment sum's. -/
theorem scatterRows_eq (x : FV S50000x128) (J : IVec S800000x1 32) (upd : FV S800000x128) :
    Host.scatterAdd scatter_S50000x128_S800000x1_S800000x128_1_0_0_1 x J upd
      = Ideal.hostScatterAdd (Cert.Lib.SegmentSum.rowDims 50000 800000 128 scatter_S50000x128_S800000x1_S800000x128_1_0_0_1_wf) x J upd := rfl

/-! #### Literals broadcast from a scalar, and the column sum -/

/-- The zero literal is the extended real zero. -/
theorem zero0_val : Ideal.ofBits .f32 0x00000000#32 = (0 : EReal) := by
  rw [Cert.LibFiniteOps.ofBits_00000000]; exact EReal.coe_zero

theorem bcast_zero0 {t : Shape} (h : S_.BroadcastsInDim t (![] : Fin 0 → Fin t.rank)) (i : t.Idx) :
    broadcastInDim t ![] h Ref.zero0 i = (0 : EReal) :=
  (show broadcastInDim t ![] h Ref.zero0 i = Ideal.ofBits .f32 0x00000000#32 from rfl).trans zero0_val

theorem bcast_cnt0 {t : Shape} (h : S_.BroadcastsInDim t (![] : Fin 0 → Fin t.rank)) (i : t.Idx) :
    broadcastInDim t ![] h Ref.cnt0 i = ((50000 : ℝ) : EReal) :=
  (show broadcastInDim t ![] h Ref.cnt0 i = Ideal.ofBits .f32 0x47435000#32 from rfl).trans ofBits_47435000

theorem bcast_eps0 {t : Shape} (h : S_.BroadcastsInDim t (![] : Fin 0 → Fin t.rank)) (i : t.Idx) :
    broadcastInDim t ![] h Ref.eps0 i = ((10995116 / 2 ^ 40 : ℝ) : EReal) :=
  (show broadcastInDim t ![] h Ref.eps0 i = Ideal.ofBits .f32 0x3727C5AC#32 from rfl).trans
    Cert.LibFiniteOps.ofBits_3727C5AC

/-- The sum of every column, read at column c. -/
theorem colSum_apply (h : FV S50000x128) (c : Fin 128) : Ref.colSum h (ix1 c) = ∑ n : Fin 50000, h (ix2 n c) := by
  have e : Ref.colSum h (ix1 c)
      = Ideal.hostReduceAdd reducesTo_S50000x128_S128_d0 h (Ideal.ofBits .f32 0x00000000#32) (ix1 c) := rfl
  rw [e, hostReduceAdd_rows_apply h reducesTo_S50000x128_S128_d0 (by decide) _ c, zero0_val, zero_add]

end Readings

end Cert.Gcn.Laws

end
-- ==== Proof.LawsConv.lean ====
/-
  The graph-convolution layer: the kernel's arrangement, with the normalisation outside the edge sum, equals the
  plain one on the extended reals when the multiplied rows are real.

  At node n and column c the plain layer sums, over the edges e that end at n, the source's entry times the
  product of the two endpoints' inverse root degrees; the kernel's sums the source's entry times the source's
  inverse root degree and multiplies the sum by n's inverse root degree. The scatter reads an edge's destination
  raw (signed, not clamped; an edge whose destination is no row number is dropped), so an edge that contributes
  at n has destination exactly n, a row number: the wrap-around of negative indices and the gather's clamp leave
  it alone, and the destination's inverse root degree the plain layer reads is n's. What remains is to pull
  that one real factor through a finite sum of reals, which is where realness of the entries is used: the
  extended reals do not distribute in general.
-/
import proofs.«124287_j84756884620023_2_alg».proof.Proof.LawsBase

noncomputable section

namespace Cert.Gcn.Laws

open Idealize.ShloMosaic Idealize.ShloMosaic.ValueIdx
open Cert.LibFiniteOps (AllReal)
open scoped BigOperators

variable [Cert.KernelIdeal.Facts] [Cert.ReferenceIdeal.Facts]

/-! ### The inverse root degrees -/

/-- The two programs' inverse root degrees are the same array: the same operations on the same shapes. -/
theorem dinv_eq (ei : IVec Cert.KernelIdeal.S2x800000 32) : Ker.dinv ei = Ref.dinv ei := rfl

/-- One plus a sum of ones is a positive real. -/
theorem pos_one_add_count {ι : Type} (s : Finset ι) :
    ∃ r : ℝ, 0 < r ∧ Ideal.ofBits .f32 0x3F800000#32
      + (Ideal.ofBits .f32 0x00000000#32 + ∑ _j ∈ s, Ideal.ofBits .f32 0x3F800000#32) = (r : EReal) := by
  refine ⟨1 + (0 + ∑ _j ∈ s, (1 : ℝ)), ?_, ?_⟩
  · have : (0 : ℝ) ≤ ∑ _j ∈ s, (1 : ℝ) := Finset.sum_nonneg fun _ _ => zero_le_one
    linarith
  · rw [ofBits_3F800000, Cert.LibFiniteOps.ofBits_00000000, Cert.LibFiniteOps.coe_finset_sum, ← EReal.coe_add,
      ← EReal.coe_add]

/-- One plus an accumulating scatter of ones into zeros is positive everywhere: at each place it is one plus the
    number of updates that land there. -/
theorem allPos_one_add_scatter_ones {s si u : Shape} {w : Nat} (d : ScatterDims s si u) (idx : IVec si w)
    (X Z : FVec Ideal s .f32) (O : FVec Ideal u .f32) (hX : ∀ i, X i = Ideal.ofBits .f32 0x3F800000#32)
    (hZ : ∀ i, Z i = Ideal.ofBits .f32 0x00000000#32) (hO : ∀ j, O j = Ideal.ofBits .f32 0x3F800000#32) :
    Cert.LibFiniteOps.AllPos (addf X (Host.scatterAdd d Z idx O)) := fun i => by
  show ∃ r : ℝ, 0 < r ∧ X i + (Z i + ∑ j ∈ Finset.univ.filter (fun j => d.resultIdx? j idx = some i), O j) = (r : EReal)
  rw [hX, hZ, Finset.sum_congr rfl (fun j _ => hO j)]
  exact pos_one_add_count _

/-- Every node's degree — one for the self-loop plus the number of edges that end there — is a real number at
    least one, so its inverse square root is a positive real. -/
theorem dinv_allPos (ei : IVec Cert.ReferenceIdeal.S2x800000 32) : Cert.LibFiniteOps.AllPos (Ref.dinv ei) :=
  Cert.LibFiniteOps.allPos_hostRsqrt
    (allPos_one_add_scatter_ones _ _ _ _ _ (fun _ => rfl) (fun _ => rfl) (fun _ => rfl))

/-! ### The edge sums -/

section Edge
open Cert.ReferenceIdeal Cert.ReferenceIdeal.Facts₀ Cert.ReferenceIdeal.Facts

/-- The kernel's edge sum: rows scaled by the inverse root degree, gathered at the sources, summed at the
    destinations. -/
def kerEdge (ei : IVec S2x800000 32) (xw : FV S50000x128) (dv : FV S50000) : FV S50000x128 :=
  Host.scatterAdd scatter_S50000x128_S800000x1_S800000x128_1_0_0_1
    (broadcastInDim S50000x128 ![] bcast_S_S50000x128 Ref.zero0) (Ref.col (Ref.dstV ei))
    (Host.gather gather_S50000x128_S800000x1_S800000x128_1_0_n_n_0_1_1128 (mulf xw (Ref.rows dv)) (Ref.col (Ref.wrap (Ref.srcV ei))))

/-- The plain edge sum: every edge's source row weighted by the product of its endpoints' inverse root degrees. -/
def refEdge (ei : IVec S2x800000 32) (xw : FV S50000x128) (dv : FV S50000) : FV S50000x128 :=
  Host.scatterAdd scatter_S50000x128_S800000x1_S800000x128_1_0_0_1
    (broadcastInDim S50000x128 ![] bcast_S_S50000x128 Ref.zero0) (Ref.col (Ref.dstV ei))
    (mulf (Host.gather gather_S50000x128_S800000x1_S800000x128_1_0_n_n_0_1_1128 xw (Ref.col (Ref.wrap (Ref.srcV ei))))
      (Ref.erows (mulf (Host.gather gather_S50000_S800000x1_S800000_n_0_n_n_0_1_1 dv (Ref.col (Ref.wrap (Ref.srcV ei))))
                   (Host.gather gather_S50000_S800000x1_S800000_n_0_n_n_0_1_1 dv (Ref.col (Ref.wrap (Ref.dstV ei)))))))

theorem kerConv_unfold (ei : IVec S2x800000 32) (xw : FV S50000x128) (b : FV S128) :
    Ker.conv ei xw b = addf (addf (mulf (kerEdge ei xw (Ref.dinv ei)) (Ref.rows (Ref.dinv ei)))
      (mulf xw (Ref.rows (mulf (Ref.dinv ei) (Ref.dinv ei))))) (Ref.lanes b) := rfl

theorem refConv_unfold (ei : IVec S2x800000 32) (xw : FV S50000x128) (b : FV S128) :
    Ref.conv ei xw b = addf (addf (refEdge ei xw (Ref.dinv ei))
      (mulf xw (Ref.rows (mulf (Ref.dinv ei) (Ref.dinv ei))))) (Ref.lanes b) := rfl

/-- An edge whose raw destination is the row number n: its wrapped destination, clamped into range, is n. -/
theorem dst_clamp (ei : IVec S2x800000 32) (e : Fin 800000) (n : Fin 50000)
    (hP : (Ref.dstV ei (ix1 e)).toInt = (n.val : Int)) :
    min (Ref.col (Ref.wrap (Ref.dstV ei)) (ix2 e ⟨0, Nat.one_pos⟩)).toInt.toNat (50000 - 1) = n.val := by
  have hw : Ref.col (Ref.wrap (Ref.dstV ei)) (ix2 e ⟨0, Nat.one_pos⟩) = Ref.dstV ei (ix1 e) :=
    (col_apply (Ref.wrap (Ref.dstV ei)) e _).trans ((wrap_apply (Ref.dstV ei) e).trans (wrap_of_nonneg _ n.val hP))
  rw [hw]
  exact clamp_of_lt _ n.val 50000 n.isLt hP

/-- The kernel's edge sum at (n, c), times n's inverse root degree, is the plain edge sum there. -/
theorem edge_factor (ei : IVec S2x800000 32) (xw : FV S50000x128) (dv : FV S50000) (hxw : AllReal xw) (hdv : AllReal dv)
    (n : Fin 50000) (c : Fin 128) :
    kerEdge ei xw dv (ix2 n c) * dv (ix1 n) = refEdge ei xw dv (ix2 n c) := by
  -- the source row an edge reads
  let s : Fin 800000 → Fin 50000 := fun e =>
    ⟨min (Ref.col (Ref.wrap (Ref.srcV ei)) (ix2 e ⟨0, Nat.one_pos⟩)).toInt.toNat (50000 - 1), by omega⟩
  have hL : ∀ e : Fin 800000,
      Host.gather gather_S50000x128_S800000x1_S800000x128_1_0_n_n_0_1_1128 (mulf xw (Ref.rows dv))
        (Ref.col (Ref.wrap (Ref.srcV ei))) (ix2 e c) = xw (ix2 (s e) c) * dv (ix1 (s e)) := fun e => by
    refine (gatherRows_apply _ _ e c).trans ?_
    show xw (ix2 (s e) c) * Ref.rows dv (ix2 (s e) c) = _
    rw [rows_apply]
  have hR : ∀ e : Fin 800000, (Ref.dstV ei (ix1 e)).toInt = (n.val : Int) →
      mulf (Host.gather gather_S50000x128_S800000x1_S800000x128_1_0_n_n_0_1_1128 xw (Ref.col (Ref.wrap (Ref.srcV ei))))
        (Ref.erows (mulf (Host.gather gather_S50000_S800000x1_S800000_n_0_n_n_0_1_1 dv (Ref.col (Ref.wrap (Ref.srcV ei))))
                     (Host.gather gather_S50000_S800000x1_S800000_n_0_n_n_0_1_1 dv (Ref.col (Ref.wrap (Ref.dstV ei))))))
        (ix2 e c) = xw (ix2 (s e) c) * (dv (ix1 (s e)) * dv (ix1 n)) := fun e hP => by
    show Host.gather gather_S50000x128_S800000x1_S800000x128_1_0_n_n_0_1_1128 xw (Ref.col (Ref.wrap (Ref.srcV ei))) (ix2 e c)
      * Ref.erows (mulf (Host.gather gather_S50000_S800000x1_S800000_n_0_n_n_0_1_1 dv (Ref.col (Ref.wrap (Ref.srcV ei))))
                     (Host.gather gather_S50000_S800000x1_S800000_n_0_n_n_0_1_1 dv (Ref.col (Ref.wrap (Ref.dstV ei))))) (ix2 e c) = _
    rw [gatherRows_apply, erows_apply]
    show xw (ix2 (s e) c)
      * (Host.gather gather_S50000_S800000x1_S800000_n_0_n_n_0_1_1 dv (Ref.col (Ref.wrap (Ref.srcV ei))) (ix1 e)
        * Host.gather gather_S50000_S800000x1_S800000_n_0_n_n_0_1_1 dv (Ref.col (Ref.wrap (Ref.dstV ei))) (ix1 e)) = _
    rw [gatherVec_apply, gatherVec_apply]
    have hd : dv (ix1 ⟨min (Ref.col (Ref.wrap (Ref.dstV ei)) (ix2 e ⟨0, Nat.one_pos⟩)).toInt.toNat (50000 - 1), by omega⟩)
        = dv (ix1 n) := congrArg (fun k => dv (ix1 k)) (Fin.ext (dst_clamp ei e n hP))
    rw [hd]
  have hz : Ideal.ofBits .f32 0x00000000#32 = (0 : EReal) := by
    rw [Cert.LibFiniteOps.ofBits_00000000]; exact EReal.coe_zero
  unfold kerEdge refEdge
  rw [scatterRows_eq, scatterRows_eq]
  have hx : ∀ i, broadcastInDim S50000x128 ![] bcast_S_S50000x128 Ref.zero0 i = Ideal.ofBits .f32 0x00000000#32 :=
    fun _ => rfl
  rw [Cert.Lib.SegmentSum.rows_segment _ (Ideal.ofBits .f32 0x00000000#32)
        (broadcastInDim S50000x128 ![] bcast_S_S50000x128 Ref.zero0) hx (Ref.dstV ei) (Ref.col (Ref.dstV ei))
        (fun e u => col_apply (Ref.dstV ei) e u),
      Cert.Lib.SegmentSum.rows_segment _ (Ideal.ofBits .f32 0x00000000#32)
        (broadcastInDim S50000x128 ![] bcast_S_S50000x128 Ref.zero0) hx (Ref.dstV ei) (Ref.col (Ref.dstV ei))
        (fun e u => col_apply (Ref.dstV ei) e u)]
  rw [hz, zero_add, zero_add]
  obtain ⟨D, hD⟩ := hdv (ix1 n)
  rw [hD, sum_mul_coe]
  · refine Finset.sum_congr rfl fun e _ => ?_
    by_cases hP : (Ref.dstV ei (ix1 e)).toInt = (n.val : Int)
    · rw [if_pos hP, if_pos hP, hL e, hR e hP, hD, mul_assoc]
    · rw [if_neg hP, if_neg hP, zero_mul]
  · intro e _
    by_cases hP : (Ref.dstV ei (ix1 e)).toInt = (n.val : Int)
    · rw [if_pos hP, hL e]
      exact Cert.LibFiniteOps.real_mul (hxw _) (hdv _)
    · rw [if_neg hP]; exact ⟨0, EReal.coe_zero.symm⟩

/-- The same at an arbitrary index of the array. -/
theorem edge_factor_idx (ei : IVec S2x800000 32) (xw : FV S50000x128) (dv : FV S50000) (hxw : AllReal xw) (hdv : AllReal dv)
    (i : S50000x128.Idx) : kerEdge ei xw dv i * Ref.rows dv i = refEdge ei xw dv i := by
  obtain ⟨n, c, rfl⟩ : ∃ (n : Fin 50000) (c : Fin 128), i = ix2 n c := ⟨i 0, i 1, eq_ix2 i⟩
  rw [rows_apply]
  exact edge_factor ei xw dv hxw hdv n c

end Edge

/-- Two layers built the same way around their edge sums agree when the first's edge sum, scaled entry by entry,
    is the second's: the remaining two summands are the same on both sides. -/
theorem layer_assemble {s : Shape} (K R E M L : FVec Ideal s .f32) (key : ∀ i, K i * R i = E i) :
    addf (addf (mulf K R) M) L = addf (addf E M) L := by
  funext i
  show (K i * R i + M i) + L i = (E i + M i) + L i
  rw [key i]

/-! ### The layer -/

/-- The kernel's layer is the plain layer when the multiplied rows are real. -/
theorem conv_eq (ei : IVec Cert.KernelIdeal.S2x800000 32) (xw : FV Cert.KernelIdeal.S50000x128) (b : FV Cert.KernelIdeal.S128)
    (hxw : AllReal xw) : Ker.conv ei xw b = Ref.conv ei xw b := by
  rw [kerConv_unfold, refConv_unfold]
  exact layer_assemble _ _ _ _ _ (edge_factor_idx ei xw (Ref.dinv ei) hxw (dinv_allPos ei).allReal)

end Cert.Gcn.Laws

end
-- ==== Proof.LibVarIdentity.lean ====
/-
  The population variance of finitely many REAL numbers, computed two ways inside the extended reals.

  For real numbers o_i (i in a finite set of N elements), with S1 the sum of the o_i, S2 the sum of their squares
  and M = S1 / N their mean,

      S2 / N - M * M   =   (sum of (o_i - M)^2) / N.

  Over the reals this is the textbook identity: expanding the square,
  sum (o_i - M)^2 = S2 - 2 M S1 + N M^2 = S2 - N M^2, because S1 = N M. Inside the extended reals the identity needs
  every o_i to be real (with an infinite entry both sides are conventions about sums of infinities and differ), which
  is why the statement takes the o_i as reals and coerces them. The quotient is the ideal instance's division
  (Ideal.div), which by a nonzero real is multiplication by the reciprocal. Nothing here mentions a particular
  program.
-/
import Idealize.ShloMosaic.PureOps.Ideal.Laws
import Mathlib.Tactic.FieldSimp
import Mathlib.Tactic.Ring

noncomputable section

namespace Cert.LibVarIdentity

open Idealize.ShloMosaic
open scoped BigOperators

/-- The coercion from the reals to the extended reals commutes with finite sums. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The variance identity over the reals, with division written as multiplication by the reciprocal of the
    count N (nonzero, equal to the number of summands): mean of squares minus square of mean equals the mean
    of the squared deviations from the mean. -/
theorem real_var {ι : Type} (s : Finset ι) (o : ι → ℝ) (N : ℝ) (hN : N = (s.card : ℝ)) (hN0 : N ≠ 0) :
    (∑ i ∈ s, o i * o i) * (1 / N) - ((∑ i ∈ s, o i) * (1 / N)) * ((∑ i ∈ s, o i) * (1 / N))
      = (∑ i ∈ s, (o i - (∑ i ∈ s, o i) * (1 / N)) * (o i - (∑ i ∈ s, o i) * (1 / N))) * (1 / N) := by
  set m : ℝ := (∑ i ∈ s, o i) * (1 / N) with hm
  have hS1 : ∑ i ∈ s, o i = N * m := by rw [hm]; field_simp
  have hexp : ∀ i, (o i - m) * (o i - m) = o i * o i - 2 * m * o i + m * m := fun i => by ring
  have hsum : ∑ i ∈ s, (o i - m) * (o i - m) = (∑ i ∈ s, o i * o i) - 2 * m * (∑ i ∈ s, o i) + N * (m * m) := by
    simp only [hexp, Finset.sum_add_distrib, Finset.sum_sub_distrib, ← Finset.mul_sum, Finset.sum_const,
      nsmul_eq_mul, ← hN]
    ring
  rw [hsum, hS1]
  field_simp
  ring

/-- Division of a real by a nonzero real, at the ideal instance, is the real quotient (written with the
    reciprocal). -/
theorem div_coe_coe (a : ℝ) {N : ℝ} (hN0 : N ≠ 0) :
    Ideal.div (a : EReal) (N : EReal) = ((a * (1 / N) : ℝ) : EReal) := by
  rw [Ideal.div_coe hN0, EReal.coe_mul]

/-- The variance identity inside the extended reals, for real entries indexed by a finite set s of N
    elements (N a nonzero real equal to the cardinality): with S1 the sum of the entries, S2 the sum of their
    squares and M = S1 / N,   S2 / N - M * M = (sum over s of (o_i - M) * (o_i - M)) / N. -/
theorem var_two_ways {ι : Type} (s : Finset ι) (o : ι → ℝ) (N : ℝ) (hN : N = (s.card : ℝ)) (hN0 : N ≠ 0) :
    Ideal.div (∑ i ∈ s, (o i : EReal) * (o i : EReal)) (N : EReal)
        - Ideal.div (∑ i ∈ s, (o i : EReal)) (N : EReal) * Ideal.div (∑ i ∈ s, (o i : EReal)) (N : EReal)
      = Ideal.div (∑ i ∈ s, ((o i : EReal) - Ideal.div (∑ i ∈ s, (o i : EReal)) (N : EReal))
                          * ((o i : EReal) - Ideal.div (∑ i ∈ s, (o i : EReal)) (N : EReal))) (N : EReal) := by
  have h1 : ∑ i ∈ s, (o i : EReal) = ((∑ i ∈ s, o i : ℝ) : EReal) := coe_finset_sum s o
  have h2 : ∑ i ∈ s, (o i : EReal) * (o i : EReal) = ((∑ i ∈ s, o i * o i : ℝ) : EReal) := by
    rw [← coe_finset_sum s (fun i => o i * o i)]
    exact Finset.sum_congr rfl (fun i _ => (EReal.coe_mul _ _).symm)
  rw [h1, h2, div_coe_coe _ hN0, div_coe_coe _ hN0]
  have h3 : ∑ i ∈ s, ((o i : EReal) - (((∑ i ∈ s, o i) * (1 / N) : ℝ) : EReal))
                  * ((o i : EReal) - (((∑ i ∈ s, o i) * (1 / N) : ℝ) : EReal))
      = ((∑ i ∈ s, (o i - (∑ i ∈ s, o i) * (1 / N)) * (o i - (∑ i ∈ s, o i) * (1 / N)) : ℝ) : EReal) := by
    rw [← coe_finset_sum s (fun i => (o i - (∑ i ∈ s, o i) * (1 / N)) * (o i - (∑ i ∈ s, o i) * (1 / N)))]
    exact Finset.sum_congr rfl (fun i _ => by rw [← EReal.coe_sub, ← EReal.coe_mul])
  rw [h3, div_coe_coe _ hN0, ← EReal.coe_mul, ← EReal.coe_sub, real_var s o N hN hN0]

/-- The same identity with each sum started from the initial value zero, the form a host sum with a zero
    initial value takes:  (0 + S2) / N - M * M = (0 + sum of (o_i - M) * (o_i - M)) / N  with  M = (0 + S1) / N. -/
theorem var_two_ways_zero_add {ι : Type} (s : Finset ι) (o : ι → ℝ) (N : ℝ) (hN : N = (s.card : ℝ)) (hN0 : N ≠ 0) :
    Ideal.div (0 + ∑ i ∈ s, (o i : EReal) * (o i : EReal)) (N : EReal)
        - Ideal.div (0 + ∑ i ∈ s, (o i : EReal)) (N : EReal) * Ideal.div (0 + ∑ i ∈ s, (o i : EReal)) (N : EReal)
      = Ideal.div (0 + ∑ i ∈ s, ((o i : EReal) - Ideal.div (0 + ∑ i ∈ s, (o i : EReal)) (N : EReal))
                          * ((o i : EReal) - Ideal.div (0 + ∑ i ∈ s, (o i : EReal)) (N : EReal))) (N : EReal) := by
  simp only [zero_add]
  exact var_two_ways s o N hN hN0

/-- The identity over a whole finite index type of N elements. -/
theorem var_two_ways_univ {ι : Type} [Fintype ι] (o : ι → ℝ) (N : ℝ) (hN : N = (Fintype.card ι : ℝ)) (hN0 : N ≠ 0) :
    Ideal.div (∑ i, (o i : EReal) * (o i : EReal)) (N : EReal)
        - Ideal.div (∑ i, (o i : EReal)) (N : EReal) * Ideal.div (∑ i, (o i : EReal)) (N : EReal)
      = Ideal.div (∑ i, ((o i : EReal) - Ideal.div (∑ i, (o i : EReal)) (N : EReal))
                      * ((o i : EReal) - Ideal.div (∑ i, (o i : EReal)) (N : EReal))) (N : EReal) :=
  var_two_ways Finset.univ o N (by rw [hN, Finset.card_univ]) hN0

/-- The identity over a whole finite index type, each sum started from zero. -/
theorem var_two_ways_univ_zero_add {ι : Type} [Fintype ι] (o : ι → ℝ) (N : ℝ) (hN : N = (Fintype.card ι : ℝ))
    (hN0 : N ≠ 0) :
    Ideal.div (0 + ∑ i, (o i : EReal) * (o i : EReal)) (N : EReal)
        - Ideal.div (0 + ∑ i, (o i : EReal)) (N : EReal) * Ideal.div (0 + ∑ i, (o i : EReal)) (N : EReal)
      = Ideal.div (0 + ∑ i, ((o i : EReal) - Ideal.div (0 + ∑ i, (o i : EReal)) (N : EReal))
                          * ((o i : EReal) - Ideal.div (0 + ∑ i, (o i : EReal)) (N : EReal))) (N : EReal) :=
  var_two_ways_zero_add Finset.univ o N (by rw [hN, Finset.card_univ]) hN0

/-- The identity stated on an array of extended reals all of whose entries (over the finite set s) are real:
    with M = (sum of v) / N,   (sum of v_i * v_i) / N - M * M = (sum of (v_i - M) * (v_i - M)) / N. -/
theorem var_two_ways_of_real {ι : Type} (s : Finset ι) (v : ι → EReal) (hv : ∀ i ∈ s, ∃ r : ℝ, v i = (r : EReal))
    (N : ℝ) (hN : N = (s.card : ℝ)) (hN0 : N ≠ 0) :
    Ideal.div (∑ i ∈ s, v i * v i) (N : EReal)
        - Ideal.div (∑ i ∈ s, v i) (N : EReal) * Ideal.div (∑ i ∈ s, v i) (N : EReal)
      = Ideal.div (∑ i ∈ s, (v i - Ideal.div (∑ i ∈ s, v i) (N : EReal))
                          * (v i - Ideal.div (∑ i ∈ s, v i) (N : EReal))) (N : EReal) := by
  choose! o ho using hv
  have e1 : ∑ i ∈ s, v i = ∑ i ∈ s, (o i : EReal) := Finset.sum_congr rfl (fun i hi => ho i hi)
  have e2 : ∑ i ∈ s, v i * v i = ∑ i ∈ s, (o i : EReal) * (o i : EReal) :=
    Finset.sum_congr rfl (fun i hi => by rw [ho i hi])
  have e3 : ∀ M : EReal, ∑ i ∈ s, (v i - M) * (v i - M) = ∑ i ∈ s, ((o i : EReal) - M) * ((o i : EReal) - M) :=
    fun M => Finset.sum_congr rfl (fun i hi => by rw [ho i hi])
  rw [e3, e2, e1]
  exact var_two_ways s o N hN hN0

/-- The array form with each sum started from the initial value zero. -/
theorem var_two_ways_of_real_zero_add {ι : Type} (s : Finset ι) (v : ι → EReal)
    (hv : ∀ i ∈ s, ∃ r : ℝ, v i = (r : EReal)) (N : ℝ) (hN : N = (s.card : ℝ)) (hN0 : N ≠ 0) :
    Ideal.div (0 + ∑ i ∈ s, v i * v i) (N : EReal)
        - Ideal.div (0 + ∑ i ∈ s, v i) (N : EReal) * Ideal.div (0 + ∑ i ∈ s, v i) (N : EReal)
      = Ideal.div (0 + ∑ i ∈ s, (v i - Ideal.div (0 + ∑ i ∈ s, v i) (N : EReal))
                          * (v i - Ideal.div (0 + ∑ i ∈ s, v i) (N : EReal))) (N : EReal) := by
  simp only [zero_add]
  exact var_two_ways_of_real s v hv N hN hN0

end Cert.LibVarIdentity

end
-- ==== Proof.LawsStats.lean ====
/-
  The column statistics: the kernel's forms equal the plain ones on the extended reals when every entry is real.

  The kernel takes a column's mean from the column sum, and its variance as the mean of squares minus the squared
  mean, clamped at zero; the plain network takes the variance as the mean of the squared deviations from the mean.
  For real entries the two variances are the same real number (the textbook identity), that number is a mean of
  squares of reals and so not negative, which makes the clamp the identity; and the count the plain form divides
  by, 50000 minus zero degrees of freedom, is the positive number 50000, so its guard against a non-positive
  divisor picks the quotient.
-/
import proofs.«124287_j84756884620023_2_alg».proof.Proof.LawsBase
import proofs.«124287_j84756884620023_2_alg».proof.Proof.LibVarIdentity

noncomputable section

namespace Cert.Gcn.Laws

open Idealize.ShloMosaic Idealize.ShloMosaic.ValueIdx
open Cert.LibFiniteOps (AllReal)
open scoped BigOperators

/-! ### The variance of finitely many reals, clamped -/

/-- The mean of the squared deviations of finitely many reals from their mean is a real number, not negative. -/
theorem meanSq_nonneg {ι : Type} (s : Finset ι) (v : ι → EReal) (hv : ∀ i ∈ s, ∃ r : ℝ, v i = (r : EReal))
    (N : ℝ) (hN0 : 0 < N) :
    ∃ q : ℝ, 0 ≤ q ∧ Ideal.div (∑ i ∈ s, (v i - Ideal.div (∑ i ∈ s, v i) (N : EReal))
                          * (v i - Ideal.div (∑ i ∈ s, v i) (N : EReal))) (N : EReal) = (q : EReal) := by
  obtain ⟨m, hm⟩ : ∃ m : ℝ, Ideal.div (∑ i ∈ s, v i) (N : EReal) = (m : EReal) :=
    Cert.LibFiniteOps.real_div (Cert.LibFiniteOps.exists_real_sum s v hv) ⟨N, hN0.ne', rfl⟩
  rw [hm]
  choose! r hr using hv
  have e : ∑ i ∈ s, (v i - (m : EReal)) * (v i - (m : EReal)) = ((∑ i ∈ s, (r i - m) * (r i - m) : ℝ) : EReal) := by
    rw [← Cert.LibFiniteOps.coe_finset_sum]
    exact Finset.sum_congr rfl fun i hi => by rw [hr i hi, ← EReal.coe_sub, ← EReal.coe_mul]
  rw [e, Cert.LibVarIdentity.div_coe_coe _ hN0.ne']
  exact ⟨_, mul_nonneg (Finset.sum_nonneg fun i _ => mul_self_nonneg _) (by positivity), rfl⟩

/-- For real entries the mean of squares minus the squared mean is the mean of the squared deviations, a mean of
    squares of reals and so not negative: clamping it at zero changes nothing. -/
theorem var_clamp {ι : Type} (s : Finset ι) (v : ι → EReal) (hv : ∀ i ∈ s, ∃ r : ℝ, v i = (r : EReal))
    (N : ℝ) (hN : N = (s.card : ℝ)) (hN0 : 0 < N) :
    max (Ideal.div (∑ i ∈ s, v i * v i) (N : EReal)
          - Ideal.div (∑ i ∈ s, v i) (N : EReal) * Ideal.div (∑ i ∈ s, v i) (N : EReal)) 0
      = Ideal.div (∑ i ∈ s, (v i - Ideal.div (∑ i ∈ s, v i) (N : EReal))
                          * (v i - Ideal.div (∑ i ∈ s, v i) (N : EReal))) (N : EReal) := by
  rw [Cert.LibVarIdentity.var_two_ways_of_real s v hv N hN hN0.ne']
  apply max_eq_left
  obtain ⟨q, hq0, hq⟩ := meanSq_nonneg s v hv N hN0
  rw [hq]
  exact EReal.coe_nonneg.2 hq0

/-- The number of rows, as a real, is the number of row indices. -/
theorem card_rows : (50000 : ℝ) = ((Finset.univ : Finset (Fin 50000)).card : ℝ) := by
  rw [Finset.card_univ, Fintype.card_fin]; norm_num

section Stats
open Cert.ReferenceIdeal Cert.ReferenceIdeal.Facts₀ Cert.ReferenceIdeal.Facts
variable [Cert.KernelIdeal.Facts] [Cert.ReferenceIdeal.Facts]

/-! ### The kernel's forms, restated over the one set of shape facts -/

theorem kerMeanOf_unfold (s1 : FV S1x128) :
    Ker.meanOf s1 = Host.divf s1 (broadcastInDim S1x128 ![] bcast_S_S1x128 Ref.cnt0) := rfl

theorem kerInvstdOf_unfold (s1 s2 : FV S1x128) :
    Ker.invstdOf s1 s2 = Host.rsqrt (addf
      (maximumf (subf (Host.divf s2 (broadcastInDim S1x128 ![] bcast_S_S1x128 Ref.cnt0))
          (mulf (Host.divf s1 (broadcastInDim S1x128 ![] bcast_S_S1x128 Ref.cnt0))
                (Host.divf s1 (broadcastInDim S1x128 ![] bcast_S_S1x128 Ref.cnt0))))
        (broadcastInDim S1x128 ![] bcast_S_S1x128 Ref.zero0))
      (broadcastInDim S1x128 ![] bcast_S_S1x128 Ref.eps0)) := rfl

/-- The column sums as one row, read at (0, c). -/
theorem sumRow_apply (h : FV S50000x128) (u : Fin 1) (c : Fin 128) :
    Ker.sumRow h (ix2 u c) = ∑ n : Fin 50000, h (ix2 n c) := rfl

/-- The column sums of squares as one row, read at (0, c). -/
theorem sqRow_apply (h : FV S50000x128) (u : Fin 1) (c : Fin 128) :
    Ker.sqRow h (ix2 u c) = ∑ n : Fin 50000, h (ix2 n c) * h (ix2 n c) := rfl

/-! ### The mean -/

/-- The plain mean of column c: the column sum over 50000. -/
theorem mean_apply (h : FV S50000x128) (c : Fin 128) :
    Ref.mean h (ix1 c) = Ideal.div (∑ n : Fin 50000, h (ix2 n c)) ((50000 : ℝ) : EReal) := by
  unfold Ref.mean
  rw [hostDivf_apply, colSum_apply, bcast_cnt0]

/-- The kernel's mean from the column sums is the plain mean, as one row. -/
theorem mean_eq (h : FV Cert.KernelIdeal.S50000x128) (hh : AllReal h) :
    Ker.meanOf (Ker.sumRow h) = Ref.row (Ref.mean h) := by
  funext i
  obtain ⟨u, c, rfl⟩ : ∃ (u : Fin 1) (c : Fin 128), i = ix2 u c := ⟨i 0, i 1, eq_ix2 i⟩
  rw [kerMeanOf_unfold, hostDivf_apply, sumRow_apply, bcast_cnt0, row_apply, mean_apply]

/-! ### The divisor of the variance and its guard -/

/-- The integer zero converted to a float is zero. -/
theorem sitofp_zero_val : (FloatOps.sitofp (F := Ideal) .f32 (0#32 : BitVec 32)) = (0 : EReal) := by
  show ((((0#32 : BitVec 32).toInt : ℤ) : ℝ) : EReal) = 0
  simp

/-- The number the variance divides by is 50000. -/
theorem cntLess0_apply (j : S_.Idx) : Ref.cntLess0 j = ((50000 : ℝ) : EReal) := by
  show Ideal.ofBits .f32 0x47435000#32 - (FloatOps.sitofp (F := Ideal) .f32 (0#32 : BitVec 32)) = _
  rw [ofBits_47435000, sitofp_zero_val, sub_zero]

/-- The guard "the divisor is positive" holds. -/
theorem guard_apply (j : S_.Idx) : cmpf .ogt Ref.cntLess0 Ref.zero0 j = 1#1 := by
  show BitVec.ofBool (decide (Ref.zero0 j < Ref.cntLess0 j)) = 1#1
  have hz : Ref.zero0 j = (0 : EReal) := zero0_val
  have hpos : (0 : EReal) < ((50000 : ℝ) : EReal) := by exact_mod_cast (by norm_num : (0 : ℝ) < 50000)
  rw [cntLess0_apply, hz, decide_eq_true hpos]
  rfl

/-! ### The variance and the inverse standard deviation -/

/-- An entry's deviation from its column's mean, as the plain variance spells it. -/
theorem dev_apply (h : FV S50000x128) (n : Fin 50000) (c : Fin 128) :
    subf h (Ref.down (Host.divf (Ref.row (Ref.colSum h)) (broadcastInDim S1x128 ![] bcast_S_S1x128 Ref.cnt0))) (ix2 n c)
      = h (ix2 n c) - Ideal.div (∑ m : Fin 50000, h (ix2 m c)) ((50000 : ℝ) : EReal) := by
  rw [subf_apply, down_apply, hostDivf_apply, row_apply, colSum_apply, bcast_cnt0]

/-- The plain variance of column c: the mean of the squared deviations from the column's mean. -/
theorem var_apply (h : FV S50000x128) (c : Fin 128) :
    Ref.var h (ix1 c)
      = Ideal.div (∑ n : Fin 50000, (h (ix2 n c) - Ideal.div (∑ m : Fin 50000, h (ix2 m c)) ((50000 : ℝ) : EReal))
                                    * (h (ix2 n c) - Ideal.div (∑ m : Fin 50000, h (ix2 m c)) ((50000 : ℝ) : EReal)))
          ((50000 : ℝ) : EReal) := by
  unfold Ref.var
  rw [select_apply, Cert.Lib.RowOps.bcastInDim_scalar, guard_apply]
  show Host.divf _ _ (ix1 c) = _
  rw [hostDivf_apply, Cert.Lib.RowOps.bcastInDim_scalar, cntLess0_apply, colSum_apply]
  refine congrArg (fun S => Ideal.div S ((50000 : ℝ) : EReal)) (Finset.sum_congr rfl fun n _ => ?_)
  rw [mulf_apply, dev_apply]

/-- The plain inverse standard deviation of column c. -/
theorem invstd_apply (h : FV S50000x128) (c : Fin 128) :
    Ref.invstd h (ix1 c) = Ideal.rsqrt (Ref.var h (ix1 c) + ((10995116 / 2 ^ 40 : ℝ) : EReal)) := by
  unfold Ref.invstd
  rw [hostRsqrt_apply, addf_apply, bcast_eps0]

/-- The kernel's inverse standard deviation from the column sums and sums of squares is the plain one, as one row. -/
theorem invstd_eq (h : FV Cert.KernelIdeal.S50000x128) (hh : AllReal h) :
    Ker.invstdOf (Ker.sumRow h) (Ker.sqRow h) = Ref.row (Ref.invstd h) := by
  funext i
  obtain ⟨u, c, rfl⟩ : ∃ (u : Fin 1) (c : Fin 128), i = ix2 u c := ⟨i 0, i 1, eq_ix2 i⟩
  rw [kerInvstdOf_unfold, hostRsqrt_apply, addf_apply, maximumf_apply, subf_apply, mulf_apply, hostDivf_apply,
    hostDivf_apply, sumRow_apply, sqRow_apply, bcast_cnt0, bcast_zero0, bcast_eps0,
    row_apply, invstd_apply, var_apply]
  rw [var_clamp Finset.univ (fun n : Fin 50000 => h (ix2 n c)) (fun n _ => hh _) 50000 card_rows (by norm_num)]

/-! ### The statistics of a real array are real -/

/-- A rank-one index is its coordinate's. -/
theorem exists_ix1 {n : Nat} (j : (⟨1, ![n]⟩ : Shape).Idx) : ∃ c : Fin n, j = ix1 c := ⟨j 0, eq_ix1 j⟩

/-- The column means of a real array are real. -/
theorem allReal_mean (h : FV S50000x128) (hh : AllReal h) : AllReal (Ref.mean h) := fun j => by
  obtain ⟨c, rfl⟩ := exists_ix1 j
  rw [mean_apply]
  exact Cert.LibFiniteOps.real_div (Cert.LibFiniteOps.exists_real_sum _ _ fun n _ => hh _) ⟨50000, by norm_num, rfl⟩

/-- The column variances of a real array are real and not negative. -/
theorem var_real_nonneg (h : FV S50000x128) (hh : AllReal h) (c : Fin 128) :
    ∃ q : ℝ, 0 ≤ q ∧ Ref.var h (ix1 c) = (q : EReal) := by
  rw [var_apply]
  exact meanSq_nonneg Finset.univ (fun n : Fin 50000 => h (ix2 n c)) (fun n _ => hh _) 50000 (by norm_num)

/-- The column inverse standard deviations of a real array are positive reals: the variance is not negative and
    a positive number is added before the inverse square root. -/
theorem allPos_invstd (h : FV S50000x128) (hh : AllReal h) : Cert.LibFiniteOps.AllPos (Ref.invstd h) := fun j => by
  obtain ⟨c, rfl⟩ := exists_ix1 j
  obtain ⟨q, hq0, hq⟩ := var_real_nonneg h hh c
  have hp : (0 : ℝ) < q + 10995116 / 2 ^ 40 := add_pos_of_nonneg_of_pos hq0 Cert.LibFiniteOps.pos_3727C5AC
  rw [invstd_apply, hq, ← EReal.coe_add]
  exact ⟨_, (Cert.LibFiniteOps.rsqrt_pos hp).2, (Cert.LibFiniteOps.rsqrt_pos hp).1⟩

end Stats

end Cert.Gcn.Laws

end
-- ==== Proof.LawsNet.lean ====
/-
  The whole network: the kernel program's arrangement equals the plain one on the extended reals when every float
  input is real.

  Batch normalisation as the kernels apply it, ((h − mean) · invstd) · g + b, is the plain g · (h − mean) · invstd + b
  entry by entry, by commutativity and associativity of multiplication alone. With the kernel's own statistics it
  is the plain normalisation whenever the array normalised is real; every layer maps real arrays to real arrays;
  so the two networks agree layer by layer.
-/
import proofs.«124287_j84756884620023_2_alg».proof.Proof.LawsConv
import proofs.«124287_j84756884620023_2_alg».proof.Proof.LawsStats
import proofs.«124287_j84756884620023_2_alg».proof.Proof.LibRowCast

noncomputable section

namespace Cert.Gcn.Laws

open Idealize.ShloMosaic Idealize.ShloMosaic.ValueIdx
open Cert.LibFiniteOps (AllReal)
open scoped BigOperators

/-- One entry of the two spellings of the normalisation. -/
theorem bn_entry (x μ s γ β : EReal) : ((x - μ) * s) * γ + β = (γ * (x - μ)) * s + β := by
  rw [mul_right_comm, mul_comm (x - μ) γ]

section Net
open Cert.ReferenceIdeal Cert.ReferenceIdeal.Facts₀ Cert.ReferenceIdeal.Facts
variable [Cert.KernelIdeal.Facts] [Cert.ReferenceIdeal.Facts]

/-! ### The normalisation -/

/-- A vector cast to one row is the vector broadcast along the row. -/
theorem asRow_eq (g : FV S128) : Ker.asRow g = Ref.row g :=
  Idealize.ShloMosaic.RowCast.shapeCast_row_eq_broadcastInDim g _ bcast_S128_S1x128_1

/-- The kernels' normalisation read at (n, c). -/
theorem bnApply_apply (h : FV S50000x128) (mu inv g be : FV S1x128) (n : Fin 50000) (c : Fin 128) :
    Ker.bnApply h mu inv g be (ix2 n c)
      = ((h (ix2 n c) - mu (ix2 (0 : Fin 1) c)) * inv (ix2 (0 : Fin 1) c)) * g (ix2 (0 : Fin 1) c)
          + be (ix2 (0 : Fin 1) c) := rfl

/-- The plain normalisation read at (n, c). -/
theorem bn_apply (h : FV S50000x128) (g be : FV S128) (n : Fin 50000) (c : Fin 128) :
    Ref.bn h g be (ix2 n c)
      = (g (ix1 c) * (h (ix2 n c) - Ref.mean h (ix1 c))) * Ref.invstd h (ix1 c) + be (ix1 c) := by
  unfold Ref.bn
  rw [addf_apply, mulf_apply, mulf_apply, subf_apply, lanes_apply, lanes_apply, lanes_apply, lanes_apply]

/-- The kernels' normalisation with the plain statistics is the plain normalisation. -/
theorem bnApply_eq (h : FV Cert.KernelIdeal.S50000x128) (g be : FV Cert.KernelIdeal.S128) :
    Ker.bnApply h (Ref.row (Ref.mean h)) (Ref.row (Ref.invstd h)) (Ker.asRow g) (Ker.asRow be) = Ref.bn h g be := by
  funext i
  obtain ⟨n, c, rfl⟩ : ∃ (n : Fin 50000) (c : Fin 128), i = ix2 n c := ⟨i 0, i 1, eq_ix2 i⟩
  rw [bnApply_apply, asRow_eq, asRow_eq, row_apply, row_apply, row_apply, row_apply, bn_apply]
  exact bn_entry _ _ _ _ _

/-- The normalisation by the kernel's own statistics is the plain normalisation of a real array. -/
theorem bnOwn_eq (h : FV Cert.KernelIdeal.S50000x128) (g be : FV Cert.KernelIdeal.S128) (hh : AllReal h) :
    Mix.bnOwn h g be = Ref.bn h g be := by
  unfold Mix.bnOwn
  rw [mean_eq h hh, invstd_eq h hh]
  exact bnApply_eq h g be

/-! ### Every layer maps real arrays to real arrays -/

/-- The dense product of real arrays is real. -/
theorem allReal_mm (x : FV S50000x128) (W : FV S128x128) (hx : AllReal x) (hW : AllReal W) : AllReal (Ref.mm x W) :=
  Cert.LibFiniteOps.allReal_dotGeneral _ _ hx hW

/-- A splat of the zero literal is real. -/
theorem allReal_zeros {t : Shape} (h : S_.BroadcastsInDim t (![] : Fin 0 → Fin t.rank)) :
    AllReal (broadcastInDim t ![] h Ref.zero0) :=
  Cert.LibFiniteOps.allReal_broadcastInDim _ _ (Cert.LibFiniteOps.allReal_constant Cert.LibFiniteOps.ofBits_00000000)

/-- The graph-convolution layer of real rows and a real bias is real: sums and products of reals, with the inverse
    root degrees positive reals. -/
theorem allReal_conv (ei : IVec S2x800000 32) (xw : FV S50000x128) (b : FV S128) (hxw : AllReal xw) (hb : AllReal b) :
    AllReal (Ref.conv ei xw b) := by
  have hd : AllReal (Ref.dinv ei) := (dinv_allPos ei).allReal
  unfold Ref.conv Ref.erows Ref.rows Ref.lanes Ref.down Ref.row
  refine Cert.LibFiniteOps.allReal_addf (Cert.LibFiniteOps.allReal_addf ?_ ?_) ?_
  · refine Cert.LibFiniteOps.allReal_scatterAdd _ _ (allReal_zeros _) ?_
    refine Cert.LibFiniteOps.allReal_mulf (Cert.LibFiniteOps.allReal_gather _ _ hxw) ?_
    refine Cert.LibFiniteOps.allReal_broadcastInDim _ _ (Cert.LibFiniteOps.allReal_broadcastInDim _ _ ?_)
    exact Cert.LibFiniteOps.allReal_mulf (Cert.LibFiniteOps.allReal_gather _ _ hd) (Cert.LibFiniteOps.allReal_gather _ _ hd)
  · refine Cert.LibFiniteOps.allReal_mulf hxw ?_
    exact Cert.LibFiniteOps.allReal_broadcastInDim _ _ (Cert.LibFiniteOps.allReal_broadcastInDim _ _
      (Cert.LibFiniteOps.allReal_mulf hd hd))
  · exact Cert.LibFiniteOps.allReal_broadcastInDim _ _ (Cert.LibFiniteOps.allReal_broadcastInDim _ _ hb)

/-- A number per column repeated down the rows is real when the numbers are. -/
theorem allReal_lanes (b : FV S128) (hb : AllReal b) : AllReal (Ref.lanes b) := by
  unfold Ref.lanes Ref.down Ref.row
  exact Cert.LibFiniteOps.allReal_broadcastInDim _ _ (Cert.LibFiniteOps.allReal_broadcastInDim _ _ hb)

/-- The normalisation of a real array with real scale and shift is real: the mean is real, and the variance, a
    mean of squares of reals, is not negative, so the inverse standard deviation is a positive real. -/
theorem allReal_bn (h : FV S50000x128) (g be : FV S128) (hh : AllReal h) (hg : AllReal g) (hbe : AllReal be) :
    AllReal (Ref.bn h g be) := by
  unfold Ref.bn
  exact Cert.LibFiniteOps.allReal_addf
    (Cert.LibFiniteOps.allReal_mulf
      (Cert.LibFiniteOps.allReal_mulf (allReal_lanes g hg)
        (Cert.LibFiniteOps.allReal_subf hh (allReal_lanes _ (allReal_mean h hh))))
      (allReal_lanes _ (allPos_invstd h hh).allReal))
    (allReal_lanes be hbe)

/-- The rectifier of a real array is real. -/
theorem allReal_relu (h : FV S50000x128) (hh : AllReal h) : AllReal (Ref.relu h) := by
  unfold Ref.relu
  exact Cert.LibFiniteOps.allReal_maximumf hh (allReal_zeros _)

/-! ### The network -/

/-- The network as the kernel program computes it is the plain network when every float input of the
    convolution and normalisation layers is real. -/
theorem kerOut_eq (x : FV Cert.KernelIdeal.S50000x128) (ei : IVec Cert.KernelIdeal.S2x800000 32)
    (W1 : FV Cert.KernelIdeal.S128x128) (b1 : FV Cert.KernelIdeal.S128) (W2 : FV Cert.KernelIdeal.S128x128)
    (b2 : FV Cert.KernelIdeal.S128) (g1 be1 g2 be2 g3 be3 : FV Cert.KernelIdeal.S128)
    (Wm : FV Cert.KernelIdeal.S128x40) (bm : FV Cert.KernelIdeal.S40)
    (hx : AllReal x) (hW1 : AllReal W1) (hb1 : AllReal b1) (hW2 : AllReal W2) (hb2 : AllReal b2)
    (hg1 : AllReal g1) (hbe1 : AllReal be1) (hg2 : AllReal g2) (hbe2 : AllReal be2)
    (hg3 : AllReal g3) (hbe3 : AllReal be3) :
    Mix.kerOut x ei W1 b1 W2 b2 g1 be1 g2 be2 g3 be3 Wm bm = Ref.out x ei W1 b1 W2 b2 g1 be1 g2 be2 g3 be3 Wm bm := by
  -- the first layer
  have hA1 : AllReal (Ref.mm x W1) := allReal_mm x W1 hx hW1
  have hC1 : AllReal (Ref.conv ei (Ref.mm x W1) b1) := allReal_conv ei _ b1 hA1 hb1
  have hB1 : AllReal (Ref.bn (Ref.conv ei (Ref.mm x W1) b1) g1 be1) := allReal_bn _ g1 be1 hC1 hg1 hbe1
  have hR1 : AllReal (Ref.relu (Ref.bn (Ref.conv ei (Ref.mm x W1) b1) g1 be1)) := allReal_relu _ hB1
  -- the second layer
  have hA2 : AllReal (Ref.mm (Ref.relu (Ref.bn (Ref.conv ei (Ref.mm x W1) b1) g1 be1)) W2) := allReal_mm _ W2 hR1 hW2
  have hC2 : AllReal (Ref.conv ei (Ref.mm (Ref.relu (Ref.bn (Ref.conv ei (Ref.mm x W1) b1) g1 be1)) W2) b2) :=
    allReal_conv ei _ b2 hA2 hb2
  have hB2 : AllReal (Ref.bn (Ref.conv ei (Ref.mm (Ref.relu (Ref.bn (Ref.conv ei (Ref.mm x W1) b1) g1 be1)) W2) b2) g2 be2) :=
    allReal_bn _ g2 be2 hC2 hg2 hbe2
  have hR2 : AllReal (Ref.relu
      (Ref.bn (Ref.conv ei (Ref.mm (Ref.relu (Ref.bn (Ref.conv ei (Ref.mm x W1) b1) g1 be1)) W2) b2) g2 be2)) :=
    allReal_relu _ hB2
  unfold Mix.kerOut Ref.out
  rw [conv_eq ei (Ref.mm x W1) b1 hA1, bnOwn_eq _ g1 be1 hC1, conv_eq ei _ b2 hA2, bnOwn_eq _ g2 be2 hC2,
    bnOwn_eq _ g3 be3 hR2]

end Net

end Cert.Gcn.Laws

end
-- ==== Proof.PreReal.lean ====
/-
  The precondition read back: if the printed predicate "every float input is finite" is all ones, then every entry
  of every float argument is a real number.

  The predicate is, for each of the thirteen float arguments, the conjunction over all its entries x of the test
  |x| < +∞, and the conjunction of the thirteen results. A conjunction of one-bit words is one exactly when
  every word is one; and on the extended reals an entry whose absolute value is strictly below plus infinity is
  neither infinity, that is, a real number. The integer argument (the edge table) has no conjunct.
-/
import proofs.«124287_j84756884620023_2_alg».proof.Proof.Gen.Pre_finite_inputs
import proofs.«124287_j84756884620023_2_alg».proof.Proof.LibFiniteOps
import Idealize.ShloMosaic.Lib.ReduceAll
import Idealize.ShloMosaic.Lib.ValueIdx

noncomputable section

namespace Cert.Gcn.Pre

open Idealize.ShloMosaic Idealize.ShloMosaic.ValueIdx
open Cert.LibFiniteOps (AllReal)

/-- The shape of a scalar has exactly one index. -/
instance : Subsingleton Cert.Pre_finite_inputs.S_.Idx := ⟨fun _ _ => funext fun d => d.elim0⟩

/-- The lane-by-lane conjunction of two conditions is one at a lane exactly when both are one there. -/
theorem andi_apply_eq_one {s : Shape} (A B : IVec s 1) (i : s.Idx) :
    andi A B i = 1#1 ↔ A i = 1#1 ∧ B i = 1#1 := IntOp.andi_eq_one

/-- One float argument decoded: if the conjunction, over all entries, of the test |x| < +∞ is one, then every
    entry is a real number. -/
theorem allReal_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) : AllReal x :=
  Cert.LibFiniteOps.allReal_of_abs_lt_top (fun _ => Cert.LibFiniteOps.ofBits_7F800000)
    (fun i => Host.reduce_andi_all _ _ hr hu j e i)

/-- The precondition decoded: every float argument of the network is a real array. -/
theorem allReal_of_pre (a0 : FVec Ideal Cert.Pre_finite_inputs.S50000x128 .f32) (a1 : IVec Cert.Pre_finite_inputs.S2x800000 32)
    (a2 : FVec Ideal Cert.Pre_finite_inputs.S128x128 .f32) (a3 : FVec Ideal Cert.Pre_finite_inputs.S128 .f32)
    (a4 : FVec Ideal Cert.Pre_finite_inputs.S128x128 .f32)
    (a5 a6 a7 a8 a9 a10 a11 : FVec Ideal Cert.Pre_finite_inputs.S128 .f32)
    (a12 : FVec Ideal Cert.Pre_finite_inputs.S128x40 .f32) (a13 : FVec Ideal Cert.Pre_finite_inputs.S40 .f32)
    (h : Cert.Pre_finite_inputs.fn (F := Ideal) a0 a1 a2 a3 a4 a5 a6 a7 a8 a9 a10 a11 a12 a13 = fun _ => 1#1) :
    AllReal a0 ∧ AllReal a2 ∧ AllReal a3 ∧ AllReal a4 ∧ AllReal a5 ∧ AllReal a6 ∧ AllReal a7 ∧ AllReal a8 ∧ AllReal a9
      ∧ AllReal a10 ∧ AllReal a11 ∧ AllReal a12 ∧ AllReal a13 := by
  have e : Cert.Pre_finite_inputs.fn (F := Ideal) a0 a1 a2 a3 a4 a5 a6 a7 a8 a9 a10 a11 a12 a13 ix0 = 1#1 :=
    congrFun h ix0
  unfold Cert.Pre_finite_inputs.fn Cert.Pre_finite_inputs.fn_part1 Cert.Pre_finite_inputs.fn_part2
    Cert.Pre_finite_inputs.fn_part3 at e
  try dsimp only at e
  simp only [andi_apply_eq_one] at e
  obtain ⟨⟨⟨⟨⟨⟨⟨⟨⟨⟨⟨⟨e0, e2⟩, e3⟩, e4⟩, e5⟩, e6⟩, e7⟩, e8⟩, e9⟩, e10⟩, e11⟩, e12⟩, e13⟩ := e
  exact ⟨allReal_of_all_finite a0 _ _ _ _ e0, allReal_of_all_finite a2 _ _ _ _ e2, allReal_of_all_finite a3 _ _ _ _ e3,
    allReal_of_all_finite a4 _ _ _ _ e4, allReal_of_all_finite a5 _ _ _ _ e5, allReal_of_all_finite a6 _ _ _ _ e6,
    allReal_of_all_finite a7 _ _ _ _ e7, allReal_of_all_finite a8 _ _ _ _ e8, allReal_of_all_finite a9 _ _ _ _ e9,
    allReal_of_all_finite a10 _ _ _ _ e10, allReal_of_all_finite a11 _ _ _ _ e11, allReal_of_all_finite a12 _ _ _ _ e12,
    allReal_of_all_finite a13 _ _ _ _ e13⟩

end Cert.Gcn.Pre

end
-- ==== Proof.lean ====
/-
  A two-layer graph convolution network with batch normalisation, computed by six kernel launches among
  stretches of host operations, against the plain formulation; both read on the extended reals.

  The network: with d(n) one plus the number of edges ending at node n, a layer sends h to A (h W) + b where A is
  the adjacency with self-loops normalised symmetrically by d^(-1/2); each layer is followed by batch normalisation
  (column mean and biased column variance over the 50000 nodes) and, for the first two, the rectifier; a last
  normalisation, an affine map into 40 classes and the row-wise log-softmax finish it.

  The kernel program arranges the same arithmetic differently, and three laws join the two arrangements:
  * the layer. The kernel scales every row by d^(-1/2) before the rows are gathered along the edges and again after
    they are summed at the destinations; the plain form weights every edge by the product of its endpoints'
    d^(-1/2). A row index at which an edge's row is ADDED is taken as it stands, so an edge contributing to node n
    has destination exactly n, the second factor is d(n)^(-1/2) for all of them, and a real factor passes through a
    finite sum of reals. This is where the precondition is used: every entry must be a real number.
  * the statistics. The kernel accumulates column sums and column sums of squares tile by tile and takes the
    variance as mean of squares minus squared mean, clamped at zero; for real entries this is the mean of the
    squared deviations, which is nonnegative, so the clamp does nothing.
  * the normalisation ((h − mean) · invstd) · g + b against g · (h − mean) · invstd + b: multiplication on the
    extended reals is commutative and associative.
  The dense products are the same sums on both sides (a product accumulated into zeros against a host product;
  a change of float format is the identity here), and so is the log-softmax.

  The kernel program's value is read off its run launch by launch: each launch leaves, in every array it writes,
  one whole-array function of the arrays it was launched on (ten tiles of 5000 rows each; an accumulator's last
  value for the statistics), and the host stretches between the launches are read back operation by operation.
  The reference's run is the composition of its own operations. Both end at the same function of the arguments.
-/
import proofs.«124287_j84756884620023_2_alg».proof.Defs
import proofs.«124287_j84756884620023_2_alg».proof.Proof.Gen.Kernel
import proofs.«124287_j84756884620023_2_alg».proof.Proof.Gen.Kernel.Frame
import proofs.«124287_j84756884620023_2_alg».proof.Proof.Gen.KernelIdeal
import proofs.«124287_j84756884620023_2_alg».proof.Proof.Gen.ReferenceIdeal
import proofs.«124287_j84756884620023_2_alg».proof.Proof.Gen.Pre_finite_inputs
import proofs.«124287_j84756884620023_2_alg».proof.Proof.KerOut
import proofs.«124287_j84756884620023_2_alg».proof.Proof.RefOut
import proofs.«124287_j84756884620023_2_alg».proof.Proof.LawsNet
import proofs.«124287_j84756884620023_2_alg».proof.Proof.PreReal
import Idealize.ShloMosaic.Adequacy
import Idealize.ShloMosaic.Init

noncomputable section

namespace Cert.Proof

open Idealize.ShloMosaic Idealize.SL.Sem

/-- The kernel program runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation of the kernel program. -/
theorem preserves : Cert.preserves_Kernel_KernelIdeal := trivial

/-- From memories agreeing on the arguments, all of whose float entries are finite, the two idealized programs end
    with the same result: the network's value of the arguments. -/
theorem algebraic : Cert.algebraic_KernelIdeal_ReferenceIdeal := by
  intro m ρ m' ρ' hpre hagree
  refine ⟨fun c => Cert.Gcn.Ref.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.Tower.run_kerOut m ρ)
    obtain ⟨h0, h2, h3, h4, h5, h6, h7, h8, h9, h10, h11, -, -⟩ :=
      Cert.Gcn.Pre.allReal_of_pre _ _ _ _ _ _ _ _ _ _ _ _ _ _ (hpre c)
    exact Cert.Gcn.Laws.kerOut_eq _ _ _ _ _ _ _ _ _ _ _ _ _ _ h0 h2 h3 h4 h5 h6 h7 h8 h9 h10 h11
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
